-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  IdealRules.named_const.Statement Cert.KernelIdeal.κ "inv_50000" .f32 0x37A7C5AC#32 ((1 / 50000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x1 : Shape := ⟨2, ![50000, 1]⟩
abbrev S2x1250000 : Shape := ⟨2, ![2, 1250000]⟩
abbrev S1x64 : Shape := ⟨2, ![1, 64]⟩
abbrev S64 : Shape := ⟨1, ![64]⟩
abbrev S64x64 : Shape := ⟨2, ![64, 64]⟩
abbrev S64x4 : Shape := ⟨2, ![64, 4]⟩
abbrev S4 : Shape := ⟨1, ![4]⟩
abbrev S_ : Shape := ⟨0, ![]⟩

class Facts : Prop where
  bcast_S_S50000x1 : S_.BroadcastsInDim S50000x1 (![] : Fin 0 → Fin S50000x1.rank)
  reducesTo_S50000x1_S_d0_1 : S50000x1.ReducesTo [0, 1] S_
  h_S_ : 0 < S_.numel
  bcast_S_S1x64 : S_.BroadcastsInDim S1x64 (![] : Fin 0 → Fin S1x64.rank)
  reducesTo_S1x64_S_d0_1 : S1x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x4 : S_.BroadcastsInDim S64x4 (![] : Fin 0 → Fin S64x4.rank)
  reducesTo_S64x4_S_d0_1 : S64x4.ReducesTo [0, 1] S_
  bcast_S_S4 : S_.BroadcastsInDim S4 (![] : Fin 0 → Fin S4.rank)
  reducesTo_S4_S_d0 : S4.ReducesTo [0] S_

variable [Facts]

def fn_part1 {F : FTy → Type} [FloatOps F] (main_arg5 : FVec F S64 .f32) (main_arg6 : FVec F S64x4 .f32) (main_arg7 : FVec F S4 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x4 .f32 := Host.absf main_arg6
  let main_cst_8 : FVec F S_ .f32 := constant S_ .f32 0x7F800000#32
  let main_v25 : FVec F S64x4 .f32 := broadcastInDim S64x4 ![] bcast_S_S64x4 main_cst_8
  let main_v26 : IVec S64x4 1 := cmpf .olt main_v24 main_v25
  let main_c_9 : IVec S_ 1 := constantI S_ 1 1#1
  let main_v27 : IVec S_ 1 := (fun x v => Host.reduce IntOp.andi x v reducesTo_S64x4_S_d0_1 h_S_) main_v26 main_c_9
  let main_v28 : IVec S_ 1 := andi main_v23 main_v27
  let main_v29 : FVec F S4 .f32 := Host.absf main_arg7
  let main_cst_10 : FVec F S_ .f32 := constant S_ .f32 0x7F800000#32
  let main_v30 : FVec F S4 .f32 := broadcastInDim S4 ![] bcast_S_S4 main_cst_10
  let main_v31 : IVec S4 1 := cmpf .olt main_v29 main_v30
  let main_c_11 : IVec S_ 1 := constantI S_ 1 1#1
  let main_v32 : IVec S_ 1 := (fun x v => Host.reduce IntOp.andi x v reducesTo_S4_S_d0 h_S_) main_v31 main_c_11
  let main_v33 : IVec S_ 1 := andi main_v28 main_v32
  main_v33

def fn {F : FTy → Type} [FloatOps F] (main_arg0 : FVec F S50000x1 .f32) (main_arg1 : IVec S2x1250000 32) (main_arg2 : FVec F S1x64 .f32) (main_arg3 : FVec F S64 .f32) (main_arg4 : FVec F S64x64 .f32) (main_arg5 : FVec F S64 .f32) (main_arg6 : FVec F S64x4 .f32) (main_arg7 : FVec F S4 .f32) : IVec S_ 1 :=
  let main_v0 : FVec F S50000x1 .f32 := Host.absf main_arg0
  let main_cst : FVec F S_ .f32 := constant S_ .f32 0x7F800000#32
  let main_v1 : FVec F S50000x1 .f32 := broadcastInDim S50000x1 ![] bcast_S_S50000x1 main_cst
  let main_v2 : IVec S50000x1 1 := cmpf .olt main_v0 main_v1
  let main_c : IVec S_ 1 := constantI S_ 1 1#1
  let main_v3 : IVec S_ 1 := (fun x v => Host.reduce IntOp.andi x v reducesTo_S50000x1_S_d0_1 h_S_) main_v2 main_c
  let main_v4 : FVec F S1x64 .f32 := Host.absf main_arg2
  let main_cst_0 : FVec F S_ .f32 := constant S_ .f32 0x7F800000#32
  let main_v5 : FVec F S1x64 .f32 := broadcastInDim S1x64 ![] bcast_S_S1x64 main_cst_0
  let main_v6 : IVec S1x64 1 := cmpf .olt main_v4 main_v5
  let main_c_1 : IVec S_ 1 := constantI S_ 1 1#1
  let main_v7 : IVec S_ 1 := (fun x v => Host.reduce IntOp.andi x v reducesTo_S1x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S50000x1 : Shape := ⟨2, ![50000, 1]⟩
abbrev S2x1250000 : Shape := ⟨2, ![2, 1250000]⟩
abbrev S1x64 : Shape := ⟨2, ![1, 64]⟩
abbrev S64 : Shape := ⟨1, ![64]⟩
abbrev S64x64 : Shape := ⟨2, ![64, 64]⟩
abbrev S64x4 : Shape := ⟨2, ![64, 4]⟩
abbrev S4 : Shape := ⟨1, ![4]⟩
abbrev S50000 : Shape := ⟨1, ![50000]⟩
abbrev S1x1250000 : Shape := ⟨2, ![1, 1250000]⟩
abbrev S1250000 : Shape := ⟨1, ![1250000]⟩
abbrev S1300000 : Shape := ⟨1, ![1300000]⟩
abbrev S_ : Shape := ⟨0, ![]⟩
abbrev S1300000x1 : Shape := ⟨2, ![1300000, 1]⟩
abbrev S50000x64 : Shape := ⟨2, ![50000, 64]⟩
abbrev S5000x1 : Shape := ⟨2, ![5000, 1]⟩
abbrev S5000x64 : Shape := ⟨2, ![5000, 64]⟩
abbrev S1300000x64 : Shape := ⟨2, ![1300000, 64]⟩
abbrev S1x4 : Shape := ⟨2, ![1, 4]⟩
abbrev S1 : Shape := ⟨1, ![1]⟩
abbrev S1x1 : Shape := ⟨2, ![1, 1]⟩

abbrev nBuf : Space → Nat
  | .hbm => 65
  | .vmem => 18
  | .smem => 0
  | _ => 0

abbrev bufTy : (tb : Table) → Fin (tcTables nBuf tb) → BufTy
  | .hbm, ⟨0, _⟩ => ⟨S50000x1, .f32⟩
  | .hbm, ⟨1, _⟩ => ⟨S2x1250000, .i32⟩
  | .hbm, ⟨2, _⟩ => ⟨S1x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x4, .f32⟩
  | .hbm, ⟨7, _⟩ => ⟨S4, .f32⟩
  | .hbm, ⟨8, _⟩ => ⟨S50000, .i32⟩
  | .hbm, ⟨9, _⟩ => ⟨S1x1250000, .i32⟩
  | .hbm, ⟨10, _⟩ => ⟨S1250000, .i32⟩
  | .hbm, ⟨11, _⟩ => ⟨S1300000, .i32⟩
  | .hbm, ⟨12, _⟩ => ⟨S1x1250000, .i32⟩
  | .hbm, ⟨13, _⟩ => ⟨S1250000, .i32⟩
  | .hbm, ⟨14, _⟩ => ⟨S1300000, .i32⟩
  | .hbm, ⟨15, _⟩ => ⟨S_, .f32⟩
  | .hbm, ⟨16, _⟩ => ⟨S1300000, .f32⟩
  | .hbm, ⟨17, _⟩ => ⟨S_, .f32⟩
  | .hbm, ⟨18, _⟩ => ⟨S50000, .f32⟩
  | .hbm, ⟨19, _⟩ => ⟨S1300000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S1300000, .i32⟩
  | .hbm, ⟨33, _⟩ => ⟨S1300000, .i1⟩
  | .hbm, ⟨34, _⟩ => ⟨S_, .i32⟩
  | .hbm, ⟨35, _⟩ => ⟨S1300000, .i32⟩
  | .hbm, ⟨36, _⟩ => ⟨S1300000, .i32⟩
  | .hbm, ⟨37, _⟩ => ⟨S1300000, .i32⟩
  | .hbm, ⟨38, _⟩ => ⟨S1300000x1, .i32⟩
  | .hbm, ⟨39, _⟩ => ⟨S1300000, .f32⟩
  | .hbm, ⟨40, _⟩ => ⟨S_, .f32⟩
  | .hbm, ⟨41, _⟩ => ⟨S50000, .f32⟩
  | .hbm, ⟨42, _⟩ => ⟨S1300000x1, .i32⟩
  | .hbm, ⟨43, _⟩ => ⟨S50000, .f32⟩
  | .hbm, ⟨44, _⟩ => ⟨S50000x1, .f32⟩
  | .hbm, ⟨45, _⟩ => ⟨S50000x1, .f32⟩
  | .hbm, ⟨46, _⟩ => ⟨S1x64, .f32⟩
  | .hbm, ⟨47, _⟩ => ⟨S50000x64, .bf16⟩
  | .hbm, ⟨48, _⟩ => ⟨S_, .i32⟩
  | .hbm, ⟨49, _⟩ => ⟨S1300000, .i32⟩
  | .hbm, ⟨50, _⟩ => ⟨S1300000, .i1⟩
  | .hbm, ⟨51, _⟩ => ⟨S_, .i32⟩
  | .hbm, ⟨52, _⟩ => ⟨S1300000, .i32⟩
  | .hbm, ⟨53, _⟩ => ⟨S1300000, .i32⟩
  | .hbm, ⟨54, _⟩ => ⟨S1300000, .i32⟩
  | .hbm, ⟨55, _⟩ => ⟨S1300000x1, .i32⟩
  | .hbm, ⟨56, _⟩ => ⟨S1300000x64, .bf16⟩
  | .hbm, ⟨57, _⟩ => ⟨S1300000x64, .f32⟩
  | .hbm, ⟨58, _⟩ => ⟨S_, .f32⟩
  | .hbm, ⟨59, _⟩ => ⟨S50000x64, .f32⟩
  | .hbm, ⟨60, _⟩ => ⟨S1300000x1, .i32⟩
  | .hbm, ⟨61, _⟩ => ⟨S50000x64, .f32⟩
  | .hbm, ⟨62, _⟩ => ⟨S1x64, .f32⟩
  | .hbm, ⟨63, _⟩ => ⟨S1x4, .f32⟩
  | .hbm, ⟨64, _⟩ => ⟨S1x4, .f32⟩
  | .local _ .vmem, ⟨0, _⟩ => ⟨S5000x1, .f32⟩
  | .local _ .vmem, ⟨1, _⟩ => ⟨S5000x1, .f32⟩
  | .local _ .vmem, ⟨2, _⟩ => ⟨S5000x1, .f32⟩
  | .local _ .vmem, ⟨3, _⟩ => ⟨S5000x1, .f32⟩
  | .local _ .vmem, ⟨4, _⟩ => ⟨S1x64, .f32⟩
  | .local _ .vmem, ⟨5, _⟩ => ⟨S1x64, .f32⟩
  | .local _ .vmem, ⟨6, _⟩ => ⟨S64x64, .f32⟩
  | .local _ .vmem, ⟨7, _⟩ => ⟨S5000x64, .bf16⟩
  | .local _ .vmem, ⟨8, _⟩ => ⟨S5000x64, .bf16⟩
  | .local _ .vmem, ⟨9, _⟩ => ⟨S5000x64, .f32⟩
  | .local _ .vmem, ⟨10, _⟩ => ⟨S5000x64, .f32⟩
  | .local _ .vmem, ⟨11, _⟩ => ⟨S5000x1, .f32⟩
  | .local _ .vmem, ⟨12, _⟩ => ⟨S5000x1, .f32⟩
  | .local _ .vmem, ⟨13, _⟩ => ⟨S1x64, .f32⟩
  | .local _ .vmem, ⟨14, _⟩ => ⟨S64x4, .f32⟩
  | .local _ .vmem, ⟨15, _⟩ => ⟨S1x4, .f32⟩
  | .local _ .vmem, ⟨16, _⟩ => ⟨S1x4, .f32⟩
  | .local _ .vmem, ⟨17, _⟩ => ⟨S1x64, .f32⟩
  | _, _ => ⟨S50000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_5 : Ref sig .tc := ⟨.hbm, 48, rfl⟩
abbrev main_v31 : Ref sig .tc := ⟨.hbm, 49, rfl⟩
abbrev main_v32 : Ref sig .tc := ⟨.hbm, 50, rfl⟩
abbrev main_c_6 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def k1_cond2 (i : grid1.Coords) : BitVec 1 :=
  let arg0 : BitVec 32 := BitVec.ofNat 32 (i 0).val
  let c9_i32 : BitVec 32 := 9#32
  let v22 : BitVec 1 := Scalar.cmpi .eq arg0 c9_i32
  let v23 : BitVec 32 := Scalar.extui v22
  let c0_i32_11 : BitVec 32 := 0#32
  let v24 : BitVec 1 := Scalar.cmpi .ne v23 c0_i32_11
  v24

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x4 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x4 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x4 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

class Facts₀ : Prop where
  slices_S2x1250000_S1x1250000_0_0 : S2x1250000.Slices ![0, 0] S1x1250000
  shapeCasts_S1x1250000_S1250000 : S1x1250000.ShapeCasts S1250000
  concatenates_S1250000_S50000_S1300000_d0 : Shape.Concatenates [S1250000, S50000] S1300000 0
  slices_S2x1250000_S1x1250000_1_0 : S2x1250000.Slices ![1, 0] S1x1250000
  bcast_S_S1300000 : S_.BroadcastsInDim S1300000 (![] : Fin 0 → Fin S1300000.rank)
  bcast_S_S50000 : S_.BroadcastsInDim S50000 (![] : Fin 0 → Fin S50000.rank)
  bcast_S1300000_S1300000x1_0 : S1300000.BroadcastsInDim S1300000x1 (![0] : Fin 1 → Fin S1300000x1.rank)
  shapeCasts_S50000x1_S50000 : S50000x1.ShapeCasts S50000
  shapeCasts_S50000_S50000x1 : S50000.ShapeCasts S50000x1
  shapeCasts_S64_S1x64 : S64.ShapeCasts S1x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S1x64_S1x64_0_0 : ∀ a, (![0, 0] : Fin 2 → Nat) a + S1x64.size a ≤ S1x64.size a
  h_S1x64 : 0 < S1x64.numel
  broadcasts_S5000x1_S5000x64 : S5000x1.Broadcasts S5000x64
  broadcasts_S1x64_S5000x64 : S1x64.Broadcasts S5000x64
  shapeCasts_S1x64_S1x64 : S1x64.ShapeCasts S1x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S5000x64_S5000x64_0_0 : ∀ a, (![0, 0] : Fin 2 → Nat) a + S5000x64.size a ≤ S5000x64.size a
  h_S5000x64 : 0 < S5000x64.numel
  packedbf16_S5000x64_S5000x64_0_0 : (Rect.unit (s := S5000x64) ![0, 0] S5000x64.size inb_S5000x64_S5000x64_0_0).PackedRows (EltTy.packing .bf16)
  bcast_S_S50000x64 : S_.BroadcastsInDim S50000x64 (![] : Fin 0 → Fin S50000x64.rank)
  shapeCasts_S4_S1x4 : S4.ShapeCasts S1x4
  shapeCasts_S5000x64_S5000x64 : S5000x64.ShapeCasts S5000x64
  reduces_S5000x64_S64 : S5000x64.Reduces [0] S64
  inb_S64x4_S64x4_0_0 : ∀ a, (![0, 0] : Fin 2 → Nat) a + S64x4.size a ≤ S64x4.size a
  h_S64x4 : 0 < S64x4.numel
  inb_S1x4_S1x4_0_0 : ∀ a, (![0, 0] : Fin 2 → Nat) a + S1x4.size a ≤ S1x4.size a
  h_S1x4 : 0 < S1x4.numel
  shapeCasts_S1x4_S1x4 : S1x4.ShapeCasts S1x4
  reduces_S1x4_S1 : S1x4.Reduces [1] S1
  shapeCasts_S1_S1x1 : S1.ShapeCasts S1x1
  broadcasts_S1x1_S1x4 : S1x1.Broadcasts S1x4
  scatter_S50000_S1300000x1_S1300000_n_0_0_1_wf : ScatterDims.WF S50000 S1300000x1 S1300000 [] [0] [0] 1
  gather_S50000_S1300000x1_S1300000_n_0_n_n_0_1_1_wf : GatherDims.WF S50000 S1300000x1 S1300000 [] [0] [] [0] [] 1 ![1]
  dot_S5000x64_S64x64_S5000x64_1_0_0_1_n_n_wf : DotDims.WF S5000x64 S64x64 S5000x64 [1] [0] [0] [1] [] []
  gather_S50000x64_S1300000x1_S1300000x64_1_0_n_n_0_1_164_wf : GatherDims.WF S50000x64 S1300000x1 S1300000x64 [1] [0] [] [0] [] 1 ![1, 64]
  scatter_S50000x64_S1300000x1_S1300000x64_1_0_0_1_wf : ScatterDims.WF S50000x64 S1300000x1 S1300000x64 [1] [0] [0] 1
  dot_S1x64_S64x4_S1x4_1_0_0_1_n_n_wf : DotDims.WF S1x64 S64x4 S1x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x1.size a ≤ S50000x1.size a
  hwx0_0 : ∀ i : grid0.Coords, EltTy.bits .f32 = 32 ∨ (Rect.block (s := S50000x1) S5000x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S50000x64.size a
  hwx0_5 : ∀ i : grid0.Coords, EltTy.bits .bf16 = 32 ∨ (Rect.block (s := S50000x64) S5000x64.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x4.size a ≤ S64x4.size a
  hwx1_3 : ∀ i : grid1.Coords, EltTy.bits .f32 = 32 ∨ (Rect.block (s := S64x4) S64x4.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x4.size a ≤ S1x4.size a
  hwx1_4 : ∀ i : grid1.Coords, EltTy.bits .f32 = 32 ∨ (Rect.block (s := S1x4) S1x4.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x4.size a ≤ S1x4.size a
  hwx1_5 : ∀ i : grid1.Coords, EltTy.bits .f32 = 32 ∨ (Rect.block (s := S1x4) S1x4.size (cc1_transform_5 i) (hinb1_5 i)).WholeWords (EltTy.packing .f32)

variable [Facts₀]

def scatter_S50000_S1300000x1_S1300000_n_0_0_1 : ScatterDims S50000 S1300000x1 S1300000 where
  updateWindowDims := []
  insertedWindowDims := [0]
  scatterDimsToOperandDims := [0]
  indexVectorDim := 1
  wf := scatter_S50000_S1300000x1_S1300000_n_0_0_1_wf
def gather_S50000_S1300000x1_S1300000_n_0_n_n_0_1_1 : GatherDims S50000 S1300000x1 S1300000 where
  offsetDims := []
  collapsedSliceDims := [0]
  operandBatchingDims := []
  startIndicesBatchingDims := []
  startIndexMap := [0]
  indexVectorDim := 1
  sliceSizes := ![1]
  wf := gather_S50000_S1300000x1_S1300000_n_0_n_n_0_1_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S1300000x1_S1300000x64_1_0_n_n_0_1_164 : GatherDims S50000x64 S1300000x1 S1300000x64 where
  offsetDims := [1]
  collapsedSliceDims := [0]
  operandBatchingDims := []
  startIndicesBatchingDims := []
  startIndexMap := [0]
  indexVectorDim := 1
  sliceSizes := ![1, 64]
  wf := gather_S50000x64_S1300000x1_S1300000x64_1_0_n_n_0_1_164_wf
def scatter_S50000x64_S1300000x1_S1300000x64_1_0_0_1 : ScatterDims S50000x64 S1300000x1 S1300000x64 where
  updateWindowDims := [1]
  insertedWindowDims := [0]
  scatterDimsToOperandDims := [0]
  indexVectorDim := 1
  wf := scatter_S50000x64_S1300000x1_S1300000x64_1_0_0_1_wf
def dot_S1x64_S64x4_S1x4_1_0_0_1_n_n : DotDims S1x64 S64x4 S1x4 where
  lhsContracting := [1]
  rhsContracting := [0]
  lhsNonContracting := [0]
  rhsNonContracting := [1]
  lhsBatch := []
  rhsBatch := []
  wf := dot_S1x64_S64x4_S1x4_1_0_0_1_n_n_wf

abbrev win0_0 : Pipeline.Window sig grid0 :=
  Pipeline.Window.ofSpec (Memref.whole main_v28) S5000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v30) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v41) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64x4.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S1x4.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S1x4.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S50000x1 : Shape := ⟨2, ![50000, 1]⟩
abbrev S2x1250000 : Shape := ⟨2, ![2, 1250000]⟩
abbrev S1x64 : Shape := ⟨2, ![1, 64]⟩
abbrev S64 : Shape := ⟨1, ![64]⟩
abbrev S64x64 : Shape := ⟨2, ![64, 64]⟩
abbrev S64x4 : Shape := ⟨2, ![64, 4]⟩
abbrev S4 : Shape := ⟨1, ![4]⟩
abbrev S50000 : Shape := ⟨1, ![50000]⟩
abbrev S1x1250000 : Shape := ⟨2, ![1, 1250000]⟩
abbrev S1250000 : Shape := ⟨1, ![1250000]⟩
abbrev S1300000 : Shape := ⟨1, ![1300000]⟩
abbrev S50000x64 : Shape := ⟨2, ![50000, 64]⟩
abbrev S_ : Shape := ⟨0, ![]⟩
abbrev S1300000x1 : Shape := ⟨2, ![1300000, 1]⟩
abbrev S1300000x64 : Shape := ⟨2, ![1300000, 64]⟩
abbrev S1x4 : Shape := ⟨2, ![1, 4]⟩
abbrev S1 : Shape := ⟨1, ![1]⟩
abbrev S1x1 : Shape := ⟨2, ![1, 1]⟩

abbrev nBuf : Space → Nat
  | .hbm => 151
  | .vmem => 0
  | .smem => 0
  | _ => 0

abbrev hbmTy0_0 (i : Nat) : BufTy := match i % 128 with
  | 0 => ⟨S50000x1, .f32⟩
  | 1 => ⟨S2x1250000, .i32⟩
  | 2 => ⟨S1x64, .f32⟩
  | 3 => ⟨S64, .f32⟩
  | 4 => ⟨S64x64, .f32⟩
  | 5 => ⟨S64, .f32⟩
  | 6 => ⟨S64x4, .f32⟩
  | 7 => ⟨S4, .f32⟩
  | 8 => ⟨S50000, .i32⟩
  | 9 => ⟨S1x1250000, .i32⟩
  | 10 => ⟨S1250000, .i32⟩
  | 11 => ⟨S1300000, .i32⟩
  | 12 => ⟨S1x1250000, .i32⟩
  | 13 => ⟨S1250000, .i32⟩
  | 14 => ⟨S1300000, .i32⟩
  | 15 => ⟨S50000x64, .f32⟩
  | 16 => ⟨S_, .f32⟩
  | 17 => ⟨S1300000, .f32⟩
  | 18 => ⟨S_, .f32⟩
  | 19 => ⟨S50000, .f32⟩
  | 20 => ⟨S1300000x1, .i32⟩
  | 21 => ⟨S50000, .f32⟩
  | 22 => ⟨S_, .f32⟩
  | 23 => ⟨S50000, .f32⟩
  | 24 => ⟨S50000, .i1⟩
  | 25 => ⟨S50000, .f32⟩
  | 26 => ⟨S_, .f32⟩
  | 27 => ⟨S_, .f32⟩
  | 28 => ⟨S50000, .f32⟩
  | 29 => ⟨S50000, .f32⟩
  | 30 => ⟨S_, .i32⟩
  | 31 => ⟨S1300000, .i32⟩
  | 32 => ⟨S1300000, .i1⟩
  | 33 => ⟨S_, .i32⟩
  | 34 => ⟨S1300000, .i32⟩
  | 35 => ⟨S1300000, .i32⟩
  | 36 => ⟨S1300000, .i32⟩
  | 37 => ⟨S1300000x1, .i32⟩
  | 38 => ⟨S1300000, .f32⟩
  | 39 => ⟨S_, .i32⟩
  | 40 => ⟨S1300000, .i32⟩
  | 41 => ⟨S1300000, .i1⟩
  | 42 => ⟨S_, .i32⟩
  | 43 => ⟨S1300000, .i32⟩
  | 44 => ⟨S1300000, .i32⟩
  | 45 => ⟨S1300000, .i32⟩
  | 46 => ⟨S1300000x1, .i32⟩
  | 47 => ⟨S1300000, .f32⟩
  | 48 => ⟨S1300000, .f32⟩
  | 49 => ⟨S1300000x1, .f32⟩
  | 50 => ⟨S_, .i32⟩
  | 51 => ⟨S1300000, .i32⟩
  | 52 => ⟨S1300000, .i1⟩
  | 53 => ⟨S_, .i32⟩
  | 54 => ⟨S1300000, .i32⟩
  | 55 => ⟨S1300000, .i32⟩
  | 56 => ⟨S1300000, .i32⟩
  | 57 => ⟨S1300000x1, .i32⟩
  | 58 => ⟨S1300000x64, .f32⟩
  | 59 => ⟨S1300000x64, .f32⟩
  | 60 => ⟨S1300000x64, .f32⟩
  | 61 => ⟨S_, .f32⟩
  | 62 => ⟨S50000x64, .f32⟩
  | 63 => ⟨S1300000x1, .i32⟩
  | 64 => ⟨S50000x64, .f32⟩
  | 65 => ⟨S1x64, .f32⟩
  | 66 => ⟨S50000x64, .f32⟩
  | 67 => ⟨S50000x64, .f32⟩
  | 68 => ⟨S_, .f32⟩
  | 69 => ⟨S50000x64, .f32⟩
  | 70 => ⟨S50000x64, .f32⟩
  | 71 => ⟨S50000x64, .f32⟩
  | 72 => ⟨S_, .f32⟩
  | 73 => ⟨S1300000, .f32⟩
  | 74 => ⟨S_, .f32⟩
  | 75 => ⟨S50000, .f32⟩
  | 76 => ⟨S1300000x1, .i32⟩
  | 77 => ⟨S50000, .f32⟩
  | 78 => ⟨S_, .f32⟩
  | 79 => ⟨S50000, .f32⟩
  | 80 => ⟨S50000, .i1⟩
  | 81 => ⟨S50000, .f32⟩
  | 82 => ⟨S_, .f32⟩
  | 83 => ⟨S_, .f32⟩
  | 84 => ⟨S50000, .f32⟩
  | 85 => ⟨S50000, .f32⟩
  | 86 => ⟨S_, .i32⟩
  | 87 => ⟨S1300000, .i32⟩
  | 88 => ⟨S1300000, .i1⟩
  | 89 => ⟨S_, .i32⟩
  | 90 => ⟨S1300000, .i32⟩
  | 91 => ⟨S1300000, .i32⟩
  | 92 => ⟨S1300000, .i32⟩
  | 93 => ⟨S1300000x1, .i32⟩
  | 94 => ⟨S1300000, .f32⟩
  | 95 => ⟨S_, .i32⟩
  | 96 => ⟨S1300000, .i32⟩
  | 97 => ⟨S1300000, .i1⟩
  | 98 => ⟨S_, .i32⟩
  | 99 => ⟨S1300000, .i32⟩
  | 100 => ⟨S1300000, .i32⟩
  | 101 => ⟨S1300000, .i32⟩
  | 102 => ⟨S1300000x1, .i32⟩
  | 103 => ⟨S1300000, .f32⟩
  | 104 => ⟨S1300000, .f32⟩
  | 105 => ⟨S1300000x1, .f32⟩
  | 106 => ⟨S_, .i32⟩
  | 107 => ⟨S1300000, .i32⟩
  | 108 => ⟨S1300000, .i1⟩
  | 109 => ⟨S_, .i32⟩
  | 110 => ⟨S1300000, .i32⟩
  | 111 => ⟨S1300000, .i32⟩
  | 112 => ⟨S1300000, .i32⟩
  | 113 => ⟨S1300000x1, .i32⟩
  | 114 => ⟨S1300000x64, .f32⟩
  | 115 => ⟨S1300000x64, .f32⟩
  | 116 => ⟨S1300000x64, .f32⟩
  | 117 => ⟨S_, .f32⟩
  | 118 => ⟨S50000x64, .f32⟩
  | 119 => ⟨S1300000x1, .i32⟩
  | 120 => ⟨S50000x64, .f32⟩
  | 121 => ⟨S1x64, .f32⟩
  | 122 => ⟨S50000x64, .f32⟩
  | 123 => ⟨S50000x64, .f32⟩
  | 124 => ⟨S_, .f32⟩
  | 125 => ⟨S50000x64, .f32⟩
  | 126 => ⟨S50000x64, .f32⟩
  | 127 => ⟨S_, .f32⟩
  | _ => ⟨S50000x1, .f32⟩

abbrev hbmTy0_1 (i : Nat) : BufTy := match i % 128 with
  | 0 => ⟨S64, .f32⟩
  | 1 => ⟨S1x64, .f32⟩
  | 2 => ⟨S_, .f32⟩
  | 3 => ⟨S1x64, .f32⟩
  | 4 => ⟨S1x64, .f32⟩
  | 5 => ⟨S1x4, .f32⟩
  | 6 => ⟨S1x4, .f32⟩
  | 7 => ⟨S1x4, .f32⟩
  | 8 => ⟨S_, .f32⟩
  | 9 => ⟨S1, .f32⟩
  | 10 => ⟨S_, .f32⟩
  | 11 => ⟨S1, .f32⟩
  | 12 => ⟨S1, .f32⟩
  | 13 => ⟨S1x1, .f32⟩
  | 14 => ⟨S1x4, .f32⟩
  | 15 => ⟨S1x4, .f32⟩
  | 16 => ⟨S1x4, .f32⟩
  | 17 => ⟨S_, .f32⟩
  | 18 => ⟨S1, .f32⟩
  | 19 => ⟨S1x1, .f32⟩
  | 20 => ⟨S1x1, .f32⟩
  | 21 => ⟨S1x4, .f32⟩
  | 22 => ⟨S1x4, .f32⟩
  | _ => ⟨S50000x1, .f32⟩

abbrev hbmTy (i : Nat) : BufTy := match i / 128 with
  | 0 => hbmTy0_0 i
  | 1 => hbmTy0_1 i
  | _ => ⟨S50000x1, .f32⟩

abbrev bufTy : (tb : Table) → Fin (tcTables nBuf tb) → BufTy
  | .hbm, ⟨i, _⟩ => hbmTy i
  | _, _ => ⟨S50000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_cst_9 : Ref sig .tc := ⟨.hbm, 72, rfl⟩
abbrev main_v49 : Ref sig .tc := ⟨.hbm, 73, rfl⟩
abbrev main_cst_10 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_12 : Ref sig .tc := ⟨.hbm, 82, rfl⟩
abbrev main_call2_v0 : Ref sig .tc := ⟨.hbm, 83, rfl⟩
abbrev main_call2_v1 : Ref sig .tc := ⟨.hbm, 84, rfl⟩
abbrev main_v56 : Ref sig .tc := ⟨.hbm, 85, rfl⟩
abbrev main_c_13 : Ref sig .tc := ⟨.hbm, 86, rfl⟩
abbrev main_v57 : Ref sig .tc := ⟨.hbm, 87, rfl⟩
abbrev main_v58 : Ref sig .tc := ⟨.hbm, 88, rfl⟩
abbrev main_c_14 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_c_15 : Ref sig .tc := ⟨.hbm, 95, rfl⟩
abbrev main_v64 : Ref sig .tc := ⟨.hbm, 96, rfl⟩
abbrev main_v65 : Ref sig .tc := ⟨.hbm, 97, rfl⟩
abbrev main_c_16 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_c_17 : Ref sig .tc := ⟨.hbm, 106, rfl⟩
abbrev main_v73 : Ref sig .tc := ⟨.hbm, 107, rfl⟩
abbrev main_v74 : Ref sig .tc := ⟨.hbm, 108, rfl⟩
abbrev main_c_18 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_19 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_call3_cst : Ref sig .tc := ⟨.hbm, 124, rfl⟩
abbrev main_call3_v0 : Ref sig .tc := ⟨.hbm, 125, rfl⟩
abbrev main_v88 : Ref sig .tc := ⟨.hbm, 126, rfl⟩
abbrev main_cst_20 : Ref sig .tc := ⟨.hbm, 127, rfl⟩
abbrev main_v89 : Ref sig .tc := ⟨.hbm, 128, rfl⟩
abbrev main_v90 : Ref sig .tc := ⟨.hbm, 129, rfl⟩
abbrev main_cst_21 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_call4_cst : Ref sig .tc := ⟨.hbm, 136, rfl⟩
abbrev main_call4_v0 : Ref sig .tc := ⟨.hbm, 137, rfl⟩
abbrev main_call4_cst_0 : Ref sig .tc := ⟨.hbm, 138, rfl⟩
abbrev main_call4_v1 : Ref sig .tc := ⟨.hbm, 139, rfl⟩
abbrev main_call4_v2 : Ref sig .tc := ⟨.hbm, 140, rfl⟩
abbrev main_call4_v3 : Ref sig .tc := ⟨.hbm, 141, rfl⟩
abbrev main_call4_v4 : Ref sig .tc := ⟨.hbm, 142, rfl⟩
abbrev main_call4_v5 : Ref sig .tc := ⟨.hbm, 143, rfl⟩
abbrev main_call4_v6 : Ref sig .tc := ⟨.hbm, 144, rfl⟩
abbrev main_call4_cst_1 : Ref sig .tc := ⟨.hbm, 145, rfl⟩
abbrev main_call4_v7 : Ref sig .tc := ⟨.hbm, 146, rfl⟩
abbrev main_call4_v8 : Ref sig .tc := ⟨.hbm, 147, rfl⟩
abbrev main_call4_v9 : Ref sig .tc := ⟨.hbm, 148, rfl⟩
abbrev main_call4_v10 : Ref sig .tc := ⟨.hbm, 149, rfl⟩
abbrev main_v96 : Ref sig .tc := ⟨.hbm, 150, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  concatenates_S1250000_S50000_S1300000_d0 : Shape.Concatenates [S1250000, S50000] S1300000 0
  slices_S2x1250000_S1x1250000_1_0 : S2x1250000.Slices ![1, 0] S1x1250000
  bcast_S_S1300000 : S_.BroadcastsInDim S1300000 (![] : Fin 0 → Fin S1300000.rank)
  bcast_S_S50000 : S_.BroadcastsInDim S50000 (![] : Fin 0 → Fin S50000.rank)
  bcast_S1300000_S1300000x1_0 : S1300000.BroadcastsInDim S1300000x1 (![0] : Fin 1 → Fin S1300000x1.rank)
  bcast_S1300000x1_S1300000x64_0_1 : S1300000x1.BroadcastsInDim S1300000x64 (![0, 1] : Fin 2 → Fin S1300000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S64_d0 : S50000x64.ReducesTo [0] S64
  h_S_ : 0 < S_.numel
  bcast_S_S1x64 : S_.BroadcastsInDim S1x64 (![] : Fin 0 → Fin S1x64.rank)
  bcast_S4_S1x4_1 : S4.BroadcastsInDim S1x4 (![1] : Fin 1 → Fin S1x4.rank)
  reducesTo_S1x4_S1_d1 : S1x4.ReducesTo [1] S1
  bcast_S_S1 : S_.BroadcastsInDim S1 (![] : Fin 0 → Fin S1.rank)
  bcast_S1_S1x1_0 : S1.BroadcastsInDim S1x1 (![0] : Fin 1 → Fin S1x1.rank)
  bcast_S1x1_S1x4_0_1 : S1x1.BroadcastsInDim S1x4 (![0, 1] : Fin 2 → Fin S1x4.rank)
  dot_S50000x1_S1x64_S50000x64_1_0_0_1_n_n_wf : DotDims.WF S50000x1 S1x64 S50000x64 [1] [0] [0] [1] [] []
  scatter_S50000_S1300000x1_S1300000_n_0_0_1_wf : ScatterDims.WF S50000 S1300000x1 S1300000 [] [0] [0] 1
  gather_S50000_S1300000x1_S1300000_n_0_n_n_0_1_1_wf : GatherDims.WF S50000 S1300000x1 S1300000 [] [0] [] [0] [] 1 ![1]
  gather_S50000x64_S1300000x1_S1300000x64_1_0_n_n_0_1_164_wf : GatherDims.WF S50000x64 S1300000x1 S1300000x64 [1] [0] [] [0] [] 1 ![1, 64]
  scatter_S50000x64_S1300000x1_S1300000x64_1_0_0_1_wf : ScatterDims.WF S50000x64 S1300000x1 S1300000x64 [1] [0] [0] 1
  dot_S50000x64_S64x64_S50000x64_1_0_0_1_n_n_wf : DotDims.WF S50000x64 S64x64 S50000x64 [1] [0] [0] [1] [] []
  dot_S1x64_S64x4_S1x4_1_0_0_1_n_n_wf : DotDims.WF S1x64 S64x4 S1x4 [1] [0] [0] [1] [] []

variable [Facts₀]

def dot_S50000x1_S1x64_S50000x64_1_0_0_1_n_n : DotDims S50000x1 S1x64 S50000x64 where
  lhsContracting := [1]
  rhsContracting := [0]
  lhsNonContracting := [0]
  rhsNonContracting := [1]
  lhsBatch := []
  rhsBatch := []
  wf := dot_S50000x1_S1x64_S50000x64_1_0_0_1_n_n_wf
def scatter_S50000_S1300000x1_S1300000_n_0_0_1 : ScatterDims S50000 S1300000x1 S1300000 where
  updateWindowDims := []
  insertedWindowDims := [0]
  scatterDimsToOperandDims := [0]
  indexVectorDim := 1
  wf := scatter_S50000_S1300000x1_S1300000_n_0_0_1_wf
def gather_S50000_S1300000x1_S1300000_n_0_n_n_0_1_1 : GatherDims S50000 S1300000x1 S1300000 where
  offsetDims := []
  collapsedSliceDims := [0]
  operandBatchingDims := []
  startIndicesBatchingDims := []
  startIndexMap := [0]
  indexVectorDim := 1
  sliceSizes := ![1]
  wf := gather_S50000_S1300000x1_S1300000_n_0_n_n_0_1_1_wf
def gather_S50000x64_S1300000x1_S1300000x64_1_0_n_n_0_1_164 : GatherDims S50000x64 S1300000x1 S1300000x64 where
  offsetDims := [1]
  collapsedSliceDims := [0]
  operandBatchingDims := []
  startIndicesBatchingDims := []
  startIndexMap := [0]
  indexVectorDim := 1
  sliceSizes := ![1, 64]
  wf := gather_S50000x64_S1300000x1_S1300000x64_1_0_n_n_0_1_164_wf
def scatter_S50000x64_S1300000x1_S1300000x64_1_0_0_1 : ScatterDims S50000x64 S1300000x1 S1300000x64 where
  updateWindowDims := [1]
  insertedWindowDims := [0]
  scatterDimsToOperandDims := [0]
  indexVectorDim := 1
  wf := scatter_S50000x64_S1300000x1_S1300000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S1x64_S64x4_S1x4_1_0_0_1_n_n : DotDims S1x64 S64x4 S1x4 where
  lhsContracting := [1]
  rhsContracting := [0]
  lhsNonContracting := [0]
  rhsNonContracting := [1]
  lhsBatch := []
  rhsBatch := []
  wf := dot_S1x64_S64x4_S1x4_1_0_0_1_n_n_wf

class Facts : Prop extends Facts₀ where

variable [Facts]
-- ==== Proof.KRunR0.lean ====
/-
  (The same statements hold of the program as printed: nothing here depends on the float instance.)

  The first kernel region (the fused first layer and second linear map, ten blocks of 5000 rows), at any float
  instance and at any contents `V` of the buffers when the region is entered.

  A block of a window at a grid point is the window's array read through the point's rectangle. The body loads its
  five input blocks whole, stores one value — the skeleton's payload of those loads — through the whole output
  block, and touches nothing else; so after the body every input buffer still holds its block and the output
  buffer holds that payload. The proof data say exactly this at every point; the region's invariant is the plain
  one (the scoped buffers and the generator register untouched), nothing is owed.
-/
import proofs.«130671_j88399016886916_2_alg».proof.Proof.Gen.Kernel.Launch
import proofs.«130671_j88399016886916_2_alg».proof.Proof.Gen.Kernel.Skeleton
import proofs.«130671_j88399016886916_2_alg».proof.Proof.Gen.Kernel.Points
import proofs.«130671_j88399016886916_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether fetched there or not (an
    unfetched window's block index has not moved), for any proof data whose array is `V`'s and whose body leaves
    the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in the output buffer -/

abbrev rA0 : Rect S5000x1 := Rect.unit (s := S5000x1) ![0, 0] S5000x1.size inb_S5000x1_S5000x1_0_0
abbrev rB0 : Rect S1x64 := Rect.unit (s := S1x64) ![0, 0] S1x64.size inb_S1x64_S1x64_0_0
abbrev rC0 : Rect S64x64 := Rect.unit (s := S64x64) ![0, 0] S64x64.size inb_S64x64_S64x64_0_0
abbrev rD0 : Rect S5000x64 := Rect.unit (s := S5000x64) ![0, 0] S5000x64.size inb_S5000x64_S5000x64_0_0

/-- The output buffer after the body, from the five input blocks (`x0` the aggregate column's block, `x1` the
    inverse-root-degree column's, `x2` the first weight row, `x3` the first bias row, `x4` the second weight): its one
    store, through the whole block, of the payload of the loads. -/
def out0_5 (x0 x1 : Vec F S5000x1 .f32) (x2 x3 : Vec F S1x64 .f32) (x4 : Vec F S64x64 .f32) : Vec F S5000x64 .bf16 :=
  View.canon [⟨rD0, k0_pay1 (View.ld x1 rA0) (View.ld x0 rA0) (View.ld x2 rB0) (View.ld x3 rB0) (View.ld x4 rC0)⟩]

/-- The one store covers the buffer. -/
theorem cover0_5 (p0 : Vec F S5000x64 .bf16) (y : S5000x64.Idx) :
    ∃ pc ∈ ([⟨rD0, p0⟩] : List (View.Piece (Elt F) S5000x64 .bf16)), y ∈ pc.1.set :=
  View.cover_of_tiled [⟨rD0, p0⟩] S5000x64.size (by rfl) y

/-! ## The body's triple -/

set_option maxHeartbeats 4000000 in
/-- The body on whole staging memrefs, the inputs' at contents `x0 … x4` and the output's at anything, runs to the
    continuation holding the inputs' as they were and the output's at `out0_5` of them. -/
theorem sound_kernel0 (c : Dev nD) (E : Set ℕ) (i : grid0.Coords)
    (arg1 : Memref sig .tc .vmem S5000x1 .f32) (harg1 : arg1.IsWhole) (arg2 : Memref sig .tc .vmem S5000x1 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S64x64 .f32) (harg5 : arg5.IsWhole) (arg6 : Memref sig .tc .vmem S5000x64 .bf16) (harg6 : arg6.IsWhole)
    (x0 x1 : Vec F S5000x1 .f32) (x2 x3 : Vec F S1x64 .f32) (x4 : Vec F S64x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E
          (cc0__layer1_layer2lin_kernel i arg1 harg1 arg2 harg2 arg3 harg3 arg4 harg4 arg5 harg5 arg6 harg6) K := by
  simp only [cc0__layer1_layer2lin_kernel_eq_skeleton]; unfold cc0__layer1_layer2lin_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The region's proof data -/

/-- The proof data of the first region on core `c`: the arrays as the region finds them; after the body at point `t`
    each input's buffer at its block and the output's at `out0_5` of the input blocks; the plain invariant; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t
    = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Run

end
-- ==== Proof.KRunR1Shared.lean ====
/-
  (The same statements hold of the program as printed: nothing here depends on the float instance.)

  The second kernel region (scale, bias, positive part, column sums accumulated over ten blocks of 5000 rows in a
  resident row, then at the last block the mean, the classifier product and the logarithm of the softmax): what its
  three control cases share, at any float instance and any contents `V` of the buffers when the region is entered.

  The body's first conditional holds at the first grid point only (there the accumulator row is zeroed), its
  second at the last point only (there the output row is written): case A is the first point, case C the last,
  case B the eight between. The output window is idle — not stored into, not written back — in cases A and B.
-/
import proofs.«130671_j88399016886916_2_alg».proof.Proof.Gen.Kernel.Launch
import proofs.«130671_j88399016886916_2_alg».proof.Proof.Gen.Kernel.Skeleton
import proofs.«130671_j88399016886916_2_alg».proof.Proof.Gen.Kernel.Points
import proofs.«130671_j88399016886916_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions, decided over the grid -/

/-- The first conditional's condition from the grid coordinates. -/
abbrev cond1_0 (i : grid1.Coords) : Prop := (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val = 0 :=
  (by decide +kernel : ∀ t : Fin grid1.N, cond1_0 (grid1.coords t) ↔ t.val = 0)

/-- The second conditional's condition. -/
abbrev cond1_1 (i : grid1.Coords) : Prop := k1_cond2 i = 1#1
/-- It holds at the last point only. -/
theorem hcond1_1 : ∀ t : Fin cfg1.N, cond1_1 (grid1.coords t) ↔ t.val = 9 :=
  (by decide +kernel : ∀ t : Fin grid1.N, cond1_1 (grid1.coords t) ↔ t.val = 9)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Where the second condition fails the output window is idle and not written back; where it holds it is live. -/
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5 : ∀ t : Fin cfg1.N, cond1_1 (grid1.coords t) → cfg1.idle 5 (grid1.coords t) = false := by decide +kernel

/-! ## The memrefs the body is called with -/

/-- One staging buffer of the output window, through which its contents are stated. -/
abbrev VO1_5 : View sig .tc .vmem S1x4 .f32 := (Memref.whole cc1_stg5_0 : Memref sig .tc .vmem S1x4 .f32).view
abbrev ms1_0 (t : Fin cfg1.N) : Memref sig .tc .vmem S5000x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S5000x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S64x4 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x4 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x4 .f32 := win1_5.stage (cfg1.slots t 5)
abbrev hs1_5 (t : Fin cfg1.N) : (ms1_5 t).IsWhole := hstage1_5 ((cfg1.slots t 5).cast nbuf1_5)
/-- The accumulator row: a whole scoped buffer of the kernel's own, passed beside the windows. -/
abbrev scM1_0 : Memref sig .tc .vmem S1x64 .f32 := Memref.whole cc1_scratch0
abbrev VS1_0 : View sig .tc .vmem S1x64 .f32 := scM1_0.view

/-! ## The plain invariant, with the accumulator row as a memref -/

/-- The other region's nine staging buffers, each whole at some contents: scoped buffers this region never touches. -/
def others1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f))

/-- The plain invariant is: those nine buffers, the accumulator row owned at some contents, the generator register. -/
theorem PhiA1_entails (c : Dev nD) :
    (Pipeline.ΦA spec1 c : sProp 𝕄) ⊢ iprop(others1 (F := F) c ∗ (∃ d, owns (c : Thread nD τ) scM1_0 fullShare d) ∗ (∃ r, prngReg c r)) := by
  unfold Pipeline.ΦA others1; rw [scopedRest1_eq]; simp only [scM1_0, owns_whole]
  iintro ⟨⟨H0, H1, H2, H3, H4, H5, H6, H7, H8, HS⟩, Hg⟩
  isplitl [H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [HS]; · iexact HS
  iexact Hg

theorem PhiA1_of (c : Dev nD) :
    iprop(others1 (F := F) c ∗ (∃ d, owns (c : Thread nD τ) scM1_0 fullShare d) ∗ (∃ r, prngReg c r)) ⊢ (Pipeline.ΦA spec1 c : sProp 𝕄) := by
  unfold Pipeline.ΦA others1; rw [scopedRest1_eq]; simp only [scM1_0, owns_whole]
  iintro ⟨⟨H0, H1, H2, H3, H4, H5, H6, H7, H8⟩, HS, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact HS
  iexact Hg

end Cert.Kernel.Run

end
-- ==== Proof.KRunR1A.lean ====
/-
  (The same statements hold of the program as printed: nothing here depends on the float instance.)

  The second region's body run whole in case A: the first grid point — the accumulator row, found at anything, is zeroed and then takes the first block's column sums; the output row is left as found.
-/
import proofs.«130671_j88399016886916_2_alg».proof.Proof.KRunR1Shared

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output row's buffer and in the accumulator row (last store first), with
    the proof that on whole memrefs — the inputs' at their contents — the body runs to the continuation holding the
    inputs' as they were and those two with the pieces written. The pieces are found by running the body. -/
noncomputable def kernelRun1_A (c : Dev nD) (i : grid1.Coords) (arg1 : Memref sig .tc .vmem S5000x64 .f32) (harg1 : arg1.IsWhole) (arg2 : Memref sig .tc .vmem S5000x1 .f32) (harg2 : arg2.IsWhole)
    (arg3 : Memref sig .tc .vmem S1x64 .f32) (harg3 : arg3.IsWhole) (arg4 : Memref sig .tc .vmem S64x4 .f32) (harg4 : arg4.IsWhole)
    (arg5 : Memref sig .tc .vmem S1x4 .f32) (harg5 : arg5.IsWhole) (arg6 : Memref sig .tc .vmem S1x4 .f32) (harg6 : arg6.IsWhole)
    (arg7 : Memref sig .tc .vmem S1x64 .f32) (harg7 : arg7.IsWhole) (hc0 : cond1_0 i) (hc1 : ¬cond1_1 i)
    (x0 : Vec F S5000x64 .f32) (x1 : Vec F S5000x1 .f32) (x2 : Vec F S1x64 .f32) (x3 : Vec F S64x4 .f32) (x4 : Vec F S1x4 .f32) :
    Σ' (L5 : List (View.Piece (Elt F) S1x4 .f32)), { LS0 : List (View.Piece (Elt F) S1x64 .f32) //
      ∀ (xi5 : Vec F S1x4 .f32) (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare xi5 ∗ (∃ d, owns (c : Thread nD τ) arg7 fullShare d)
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare xi5
                ∗ (∃ f, arg7.view.loc (c : Thread nD τ) ↦[arg7.view.set]{fullShare} arg7.view.writes (Elt F) f LS0)) -∗ K ⟨⟩))
          ⊢ wp frame (wpE (defs₀ (F := F)) Variants.none c none) E (cc1__pool_fc_kernel i arg1 harg1 arg2 harg2 arg3 harg3 arg4 harg4 arg5 harg5 arg6 harg6 arg7 harg7) K } := by
  refine ⟨[], ?_, fun xi5 E K => ?run⟩
  case run =>
    simp only [cc1__pool_fc_kernel_eq_skeleton]; unfold cc1__pool_fc_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

end Cert.Kernel.Run

end
-- ==== Proof.KRunR1B.lean ====
/-
  (The same statements hold of the program as printed: nothing here depends on the float instance.)

  The second region's body run whole in case B: a grid point that is neither the first nor the last — the accumulator row, found at what the point before left, takes this block's column sums added; the output row is left as found.
-/
import proofs.«130671_j88399016886916_2_alg».proof.Proof.KRunR1Shared

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output row's buffer and in the accumulator row (last store first), with
    the proof that on whole memrefs — the inputs' at their contents — the body runs to the continuation holding the
    inputs' as they were and those two with the pieces written. The pieces are found by running the body. -/
noncomputable def kernelRun1_B (c : Dev nD) (i : grid1.Coords) (arg1 : Memref sig .tc .vmem S5000x64 .f32) (harg1 : arg1.IsWhole) (arg2 : Memref sig .tc .vmem S5000x1 .f32) (harg2 : arg2.IsWhole)
    (arg3 : Memref sig .tc .vmem S1x64 .f32) (harg3 : arg3.IsWhole) (arg4 : Memref sig .tc .vmem S64x4 .f32) (harg4 : arg4.IsWhole)
    (arg5 : Memref sig .tc .vmem S1x4 .f32) (harg5 : arg5.IsWhole) (arg6 : Memref sig .tc .vmem S1x4 .f32) (harg6 : arg6.IsWhole)
    (arg7 : Memref sig .tc .vmem S1x64 .f32) (harg7 : arg7.IsWhole) (hc0 : ¬cond1_0 i) (hc1 : ¬cond1_1 i)
    (x0 : Vec F S5000x64 .f32) (x1 : Vec F S5000x1 .f32) (x2 : Vec F S1x64 .f32) (x3 : Vec F S64x4 .f32) (x4 : Vec F S1x4 .f32) (xs0 : Vec F S1x64 .f32) :
    Σ' (L5 : List (View.Piece (Elt F) S1x4 .f32)), { LS0 : List (View.Piece (Elt F) S1x64 .f32) //
      ∀ (xi5 : Vec F S1x4 .f32) (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare xi5 ∗ owns (c : Thread nD τ) arg7 fullShare xs0
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare xi5
                ∗ (∃ f, arg7.view.loc (c : Thread nD τ) ↦[arg7.view.set]{fullShare} arg7.view.writes (Elt F) f LS0)) -∗ K ⟨⟩))
          ⊢ wp frame (wpE (defs₀ (F := F)) Variants.none c none) E (cc1__pool_fc_kernel i arg1 harg1 arg2 harg2 arg3 harg3 arg4 harg4 arg5 harg5 arg6 harg6 arg7 harg7) K } := by
  refine ⟨[], ?_, fun xi5 E K => ?run⟩
  case run =>
    simp only [cc1__pool_fc_kernel_eq_skeleton]; unfold cc1__pool_fc_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5; obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

end Cert.Kernel.Run

end
-- ==== Proof.KRunR1C.lean ====
/-
  (The same statements hold of the program as printed: nothing here depends on the float instance.)

  The second region's body run whole in case C: the last grid point — the accumulator row takes the last block's column sums added, and the output row is stored: the mean, the classifier product and bias, the logarithm of the softmax.
-/
import proofs.«130671_j88399016886916_2_alg».proof.Proof.KRunR1Shared

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output row's buffer and in the accumulator row (last store first), with
    the proof that on whole memrefs — the inputs' at their contents — the body runs to the continuation holding the
    inputs' as they were and those two with the pieces written. The pieces are found by running the body. -/
noncomputable def kernelRun1_C (c : Dev nD) (i : grid1.Coords) (arg1 : Memref sig .tc .vmem S5000x64 .f32) (harg1 : arg1.IsWhole) (arg2 : Memref sig .tc .vmem S5000x1 .f32) (harg2 : arg2.IsWhole)
    (arg3 : Memref sig .tc .vmem S1x64 .f32) (harg3 : arg3.IsWhole) (arg4 : Memref sig .tc .vmem S64x4 .f32) (harg4 : arg4.IsWhole)
    (arg5 : Memref sig .tc .vmem S1x4 .f32) (harg5 : arg5.IsWhole) (arg6 : Memref sig .tc .vmem S1x4 .f32) (harg6 : arg6.IsWhole)
    (arg7 : Memref sig .tc .vmem S1x64 .f32) (harg7 : arg7.IsWhole) (hc0 : ¬cond1_0 i) (hc1 : cond1_1 i)
    (x0 : Vec F S5000x64 .f32) (x1 : Vec F S5000x1 .f32) (x2 : Vec F S1x64 .f32) (x3 : Vec F S64x4 .f32) (x4 : Vec F S1x4 .f32) (xs0 : Vec F S1x64 .f32) :
    Σ' (L5 : List (View.Piece (Elt F) S1x4 .f32)), { LS0 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ (∃ d, owns (c : Thread nD τ) arg6 fullShare d) ∗ owns (c : Thread nD τ) arg7 fullShare xs0
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f LS0)) -∗ K ⟨⟩))
          ⊢ wp frame (wpE (defs₀ (F := F)) Variants.none c none) E (cc1__pool_fc_kernel i arg1 harg1 arg2 harg2 arg3 harg3 arg4 harg4 arg5 harg5 arg6 harg6 arg7 harg7) K } := by
  refine ⟨?_, ?_, fun E K => ?run⟩
  case run =>
    simp only [cc1__pool_fc_kernel_eq_skeleton]; unfold cc1__pool_fc_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS0

end Cert.Kernel.Run

end
-- ==== Proof.KRunR1d.lean ====
/-
  (The same statements hold of the program as printed: nothing here depends on the float instance.)

  The second kernel region: what its accumulator row and its output row hold after each grid point, the region's
  invariant, its proof data and its body obligation, at any float instance and any entry contents `V`.

  After the first point the accumulator row holds what case A's stores leave (zeros, then the first block's column
  sums added); after every later point what case B's or, at the last point, case C's stores leave over what the
  point before left: a recursion on the point (`accAt`). The output row is stored at the last point only, by case C
  over the accumulator row the ninth point left (`outAt`). The invariant before the first point is the plain one
  (the accumulator row at anything); before every later point it holds the accumulator row at `accAt` of the point
  before, the other region's staging buffers at anything, and the generator register.
-/
import proofs.«130671_j88399016886916_2_alg».proof.Proof.KRunR1A
import proofs.«130671_j88399016886916_2_alg».proof.Proof.KRunR1B
import proofs.«130671_j88399016886916_2_alg».proof.Proof.KRunR1C

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The case a point is in -/

theorem hA0 (t : Fin cfg1.N) (h : t.val = 0) : cond1_0 (grid1.coords t) := (hcond1_0 t).mpr h
theorem hnA0 (t : Fin cfg1.N) (h : t.val ≠ 0) : ¬cond1_0 (grid1.coords t) := fun hc => h ((hcond1_0 t).mp hc)
theorem hC1 (t : Fin cfg1.N) (h : t.val = 9) : cond1_1 (grid1.coords t) := (hcond1_1 t).mpr h
theorem hnC1 (t : Fin cfg1.N) (h : t.val ≠ 9) : ¬cond1_1 (grid1.coords t) := fun hc => h ((hcond1_1 t).mp hc)

/-! ## What each case leaves -/

/-- The accumulator row after the first point: case A's pieces read back. -/
def sA (c : Dev nD) (t : Fin cfg1.N) (h0 : t.val = 0) (h9 : t.val ≠ 9) : Vec F S1x64 .f32 :=
  VS1_0.read (Elt F) (VS1_0.writes (Elt F) VS1_0.junk (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (hA0 t h0) (hnC1 t h9) (iblk1 V c 0 t) (iblk1 V c 1 t) (iblk1 V c 2 t) (iblk1 V c 3 t) (iblk1 V c 4 t)).2.1)
theorem scoverA (c : Dev nD) (t : Fin cfg1.N) (h0 : t.val = 0) (h9 : t.val ≠ 9) (y : S1x64.Idx) :
    ∃ pc ∈ (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (hA0 t h0) (hnC1 t h9) (iblk1 V c 0 t) (iblk1 V c 1 t) (iblk1 V c 2 t) (iblk1 V c 3 t) (iblk1 V c 4 t)).2.1, y ∈ pc.1.set :=
  View.cover_of_tiledL (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (hA0 t h0) (hnC1 t h9) (iblk1 V c 0 t) (iblk1 V c 1 t) (iblk1 V c 2 t) (iblk1 V c 3 t) (iblk1 V c 4 t)).2.1 S1x64.size (by sl_kernel_rfl) y

/-- The accumulator row after a middle point, over what the point before left (`xs`): case B's pieces read back. -/
def sB (c : Dev nD) (t : Fin cfg1.N) (h0 : t.val ≠ 0) (h9 : t.val ≠ 9) (xs : Vec F S1x64 .f32) : Vec F S1x64 .f32 :=
  VS1_0.read (Elt F) (VS1_0.writes (Elt F) VS1_0.junk (kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (hnA0 t h0) (hnC1 t h9) (iblk1 V c 0 t) (iblk1 V c 1 t) (iblk1 V c 2 t) (iblk1 V c 3 t) (iblk1 V c 4 t) xs).2.1)
theorem scoverB (c : Dev nD) (t : Fin cfg1.N) (h0 : t.val ≠ 0) (h9 : t.val ≠ 9) (xs : Vec F S1x64 .f32) (y : S1x64.Idx) :
    ∃ pc ∈ (kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (hnA0 t h0) (hnC1 t h9) (iblk1 V c 0 t) (iblk1 V c 1 t) (iblk1 V c 2 t) (iblk1 V c 3 t) (iblk1 V c 4 t) xs).2.1, y ∈ pc.1.set :=
  View.cover_of_tiledL (kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (hnA0 t h0) (hnC1 t h9) (iblk1 V c 0 t) (iblk1 V c 1 t) (iblk1 V c 2 t) (iblk1 V c 3 t) (iblk1 V c 4 t) xs).2.1 S1x64.size (by sl_kernel_rfl) y

/-- The accumulator row and the output row after the last point, over what the point before left. -/
def sC (c : Dev nD) (t : Fin cfg1.N) (h0 : t.val ≠ 0) (h9 : t.val = 9) (xs : Vec F S1x64 .f32) : Vec F S1x64 .f32 :=
  VS1_0.read (Elt F) (VS1_0.writes (Elt F) VS1_0.junk (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (hnA0 t h0) (hC1 t h9) (iblk1 V c 0 t) (iblk1 V c 1 t) (iblk1 V c 2 t) (iblk1 V c 3 t) (iblk1 V c 4 t) xs).2.1)
theorem scoverC (c : Dev nD) (t : Fin cfg1.N) (h0 : t.val ≠ 0) (h9 : t.val = 9) (xs : Vec F S1x64 .f32) (y : S1x64.Idx) :
    ∃ pc ∈ (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (hnA0 t h0) (hC1 t h9) (iblk1 V c 0 t) (iblk1 V c 1 t) (iblk1 V c 2 t) (iblk1 V c 3 t) (iblk1 V c 4 t) xs).2.1, y ∈ pc.1.set :=
  View.cover_of_tiledL (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (hnA0 t h0) (hC1 t h9) (iblk1 V c 0 t) (iblk1 V c 1 t) (iblk1 V c 2 t) (iblk1 V c 3 t) (iblk1 V c 4 t) xs).2.1 S1x64.size (by sl_kernel_rfl) y
def oC (c : Dev nD) (t : Fin cfg1.N) (h0 : t.val ≠ 0) (h9 : t.val = 9) (xs : Vec F S1x64 .f32) : Vec F S1x4 .f32 :=
  VO1_5.read (Elt F) (VO1_5.writes (Elt F) VO1_5.junk (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (hnA0 t h0) (hC1 t h9) (iblk1 V c 0 t) (iblk1 V c 1 t) (iblk1 V c 2 t) (iblk1 V c 3 t) (iblk1 V c 4 t) xs).1)
theorem coverC (c : Dev nD) (t : Fin cfg1.N) (h0 : t.val ≠ 0) (h9 : t.val = 9) (xs : Vec F S1x64 .f32) (y : S1x4.Idx) :
    ∃ pc ∈ (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (hnA0 t h0) (hC1 t h9) (iblk1 V c 0 t) (iblk1 V c 1 t) (iblk1 V c 2 t) (iblk1 V c 3 t) (iblk1 V c 4 t) xs).1, y ∈ pc.1.set :=
  View.cover_of_tiledL (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (hnA0 t h0) (hC1 t h9) (iblk1 V c 0 t) (iblk1 V c 1 t) (iblk1 V c 2 t) (iblk1 V c 3 t) (iblk1 V c 4 t) xs).1 S1x4.size (by sl_kernel_rfl) y

/-! ## The accumulation over the points -/

/-- The accumulator row after the body at position `n`. -/
def accAt (c : Dev nD) : (n : ℕ) → n < cfg1.N → Vec F S1x64 .f32
  | 0, hn => sA V c ⟨0, hn⟩ rfl (by show (0 : ℕ) ≠ 9; omega)
  | n + 1, hn =>
    if h9 : n + 1 = 9 then sC V c ⟨n + 1, hn⟩ (Nat.succ_ne_zero n) h9 (accAt c n (Nat.lt_of_succ_lt hn))
    else sB V c ⟨n + 1, hn⟩ (Nat.succ_ne_zero n) h9 (accAt c n (Nat.lt_of_succ_lt hn))

theorem accAt_A (c : Dev nD) (t : Fin cfg1.N) (h0 : t.val = 0) (h9 : t.val ≠ 9) :
    accAt V c t.val t.isLt = sA V c t h0 h9 := by
  obtain ⟨n, hn⟩ := t
  cases n with
  | zero => rfl
  | succ n => exact absurd h0 (Nat.succ_ne_zero n)

theorem accAt_B (c : Dev nD) (t : Fin cfg1.N) (h0 : t.val ≠ 0) (h9 : t.val ≠ 9) :
    accAt V c t.val t.isLt = sB V c t h0 h9 (accAt V c (t.val - 1) (Nat.lt_of_le_of_lt (Nat.sub_le _ _) t.isLt)) := by
  obtain ⟨n, hn⟩ := t
  cases n with
  | zero => exact absurd rfl h0
  | succ n => exact dif_neg h9

theorem accAt_C (c : Dev nD) (t : Fin cfg1.N) (h0 : t.val ≠ 0) (h9 : t.val = 9) :
    accAt V c t.val t.isLt = sC V c t h0 h9 (accAt V c (t.val - 1) (Nat.lt_of_le_of_lt (Nat.sub_le _ _) t.isLt)) := by
  obtain ⟨n, hn⟩ := t
  cases n with
  | zero => exact absurd rfl h0
  | succ n => exact dif_pos h9

/-- The output row's staging buffer after the body at point `t`: stored at the last point only (elsewhere the window
    is idle: a placeholder nothing consults). -/
def outAt (c : Dev nD) (t : Fin cfg1.N) : Vec F S1x4 .f32 :=
  if h9 : t.val = 9 then
    oC V c t (by omega) h9 (accAt V c (t.val - 1) (Nat.lt_of_le_of_lt (Nat.sub_le _ _) t.isLt))
  else VO1_5.read (Elt F) VO1_5.junk

theorem outAt_C (c : Dev nD) (t : Fin cfg1.N) (h0 : t.val ≠ 0) (h9 : t.val = 9) :
    outAt V c t = oC V c t h0 h9 (accAt V c (t.val - 1) (Nat.lt_of_le_of_lt (Nat.sub_le _ _) t.isLt)) := dif_pos h9

/-! ## The region's invariant -/

/-- Before position `n`: the plain invariant before the first point; afterwards the accumulator row at what the point
    before left, the other region's staging buffers at anything and the generator register at some state. -/
def PhiS (c : Dev nD) : (n : ℕ) → n ≤ cfg1.N → sProp 𝕄
  | 0, _ => Pipeline.ΦA spec1 c
  | n + 1, hn => iprop(others1 (F := F) c ∗ owns (c : Thread nD τ) scM1_0 fullShare (accAt V c n hn) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(others1 (F := F) c ∗ owns (c : Thread nD τ) scM1_0 fullShare (accAt V c n hn) ∗ (∃ r, prngReg c r)) := rfl

theorem PhiS_pos (c : Dev nD) (n : ℕ) (h : n ≤ cfg1.N) (hz : n ≠ 0) :
    PhiS V c n h = iprop(others1 (F := F) c ∗ owns (c : Thread nD τ) scM1_0 fullShare (accAt V c (n - 1) (by omega)) ∗ (∃ r, prngReg c r)) := by
  cases n with
  | zero => exact absurd rfl hz
  | succ n => rfl

/-! ## The region's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => outAt V c t
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = outAt V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t ∗ (dat1 V c).leavesExact 5 t)

set_option maxHeartbeats 4800000 in
/-- The body at any point: the inputs' memrefs hold their blocks; the point's position says which case it is in; the
    invariant hands the body the accumulator row at what the point before left (at anything at the first point) and
    takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  have hN : t.val < 10 := lt_of_lt_of_eq t.isLt (show cfg1.N = 10 from N_1)
  by_cases h0 : t.val = 0
  · have h9 : t.val ≠ 9 := by omega
    rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [show (dat1 V c).leavesExact 3 t = owns (c : Thread nD τ) (ms1_3 t) fullShare ((dat1 V c).after 3 t) from by
      unfold Dat.leavesExact; rw [liveAt1_3 t], after1_3]
    rw [show (dat1 V c).leavesExact 4 t = owns (c : Thread nD τ) (ms1_4 t) fullShare ((dat1 V c).after 4 t) from by
      unfold Dat.leavesExact; rw [liveAt1_4 t], after1_4]
    rw [Dat.leavesExact_idle (dat1 V c) 5 t (idleAt1_5 t (hnC1 t h9)) (noFlush1_5 t (hnC1 t h9))]
    rw [accAt_A V c t h0 h9]
    unfold sA; (try dsimp only)
    rw [PhiS_castSucc V c t, PhiS_zero V c _ _ h0]
    iintro ⟨HΦ, Ho, ⟨%d0, H0⟩, ⟨%d1, H1⟩, ⟨%d2, H2⟩, ⟨%d3, H3⟩, ⟨%d4, H4⟩, ⟨%d5, H5⟩⟩
    ihave HΦ' := (PhiA1_entails (F := F) c) $$ HΦ
    icases HΦ' with ⟨Hoth, HS0, Hg⟩
    iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (hA0 t h0) (hnC1 t h9) (iblk1 V c 0 t) (iblk1 V c 1 t) (iblk1 V c 2 t) (iblk1 V c 3 t) (iblk1 V c 4 t)).2.2 _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    iintro ⟨H0, H1, H2, H3, H4, H5, ⟨%es0, HS0⟩⟩
    isplitl [Hoth HS0 Hg]
    · isplitl [Hoth]; · iexact Hoth
      isplitl [HS0]
      · unfold owns; iexists _; isplitr
        swap; · iexact HS0
        ipureintro; exact View.read_writes_of_cover _ _ _ _ _ (scoverA V c t h0 h9)
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · by_cases h9 : t.val = 9
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t (hC1 t h9)], after1_5]
      rw [accAt_C V c t h0 h9, outAt_C V c t h0 h9]
      unfold sC oC; (try dsimp only)
      rw [PhiS_castSucc V c t, PhiS_pos V c _ _ h0]
      iintro ⟨⟨Hoth, HS0, Hg⟩, Ho, ⟨%d0, H0⟩, ⟨%d1, H1⟩, ⟨%d2, H2⟩, ⟨%d3, H3⟩, ⟨%d4, H4⟩, ⟨%d5, H5⟩⟩
      iapply ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (hnA0 t h0) (hC1 t h9) (iblk1 V c 0 t) (iblk1 V c 1 t) (iblk1 V c 2 t) (iblk1 V c 3 t) (iblk1 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [Hoth HS0 Hg]
      · isplitl [Hoth]; · iexact Hoth
        isplitl [HS0]
        · unfold owns; iexists _; isplitr
          swap; · iexact HS0
          ipureintro; exact View.read_writes_of_cover _ _ _ _ _ (scoverC V c t h0 h9 _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverC V c t h0 h9 _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5 t (hnC1 t h9)) (noFlush1_5 t (hnC1 t h9))]
      rw [accAt_B V c t h0 h9]
      unfold sB; (try dsimp only)
      rw [PhiS_castSucc V c t, PhiS_pos V c _ _ h0]
      iintro ⟨⟨Hoth, HS0, Hg⟩, Ho, ⟨%d0, H0⟩, ⟨%d1, H1⟩, ⟨%d2, H2⟩, ⟨%d3, H3⟩, ⟨%d4, H4⟩, ⟨%d5, H5⟩⟩
      iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (hnA0 t h0) (hnC1 t h9) (iblk1 V c 0 t) (iblk1 V c 1 t) (iblk1 V c 2 t) (iblk1 V c 3 t) (iblk1 V c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [Hoth HS0 Hg]
      · isplitl [Hoth]; · iexact Hoth
        isplitl [HS0]
        · unfold owns; iexists _; isplitr
          swap; · iexact HS0
          ipureintro; exact View.read_writes_of_cover _ _ _ _ _ (scoverB V c t h0 h9 _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the plain one back: the accumulator row's contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 10 := N_1; omega
  rw [show (dat1 V c).Φ (Fin.last cfg1.N) = PhiS V c (Fin.last cfg1.N).val (Nat.le_of_lt_succ (Fin.last cfg1.N).isLt) from rfl,
    PhiS_pos V c _ _ hne]
  iintro ⟨Hoth, HS0, Hg⟩
  iapply (PhiA1_of (F := F) c)
  isplitl [Hoth]; · iexact Hoth
  isplitl [HS0]; · iexists _; iexact HS0
  iexact Hg

end Cert.Kernel.Run

end
-- ==== Proof.KRunAll.lean ====
/-
  (The same statements hold of the program as printed: nothing here depends on the float instance.)

  The kernel program run whole, at any float instance: @main is three stretches of host operations, the first kernel
  region, one more stretch, the second kernel region. Between two items every unscoped buffer of the TensorCore is
  held whole at named contents: the launch memory folded through the host stretches, and across a region its windows'
  arrays replaced by what the pipeline's write-backs leave (the inputs as entered, the output at the fold of the
  blocks the points wrote). Every weakly fair execution terminates with every unscoped buffer at the last of these
  contents; the argument arrays walk back through the folds to the launch memory, and the result array is what the
  second region's write-back leaves.
-/
import proofs.«130671_j88399016886916_2_alg».proof.Proof.KRunR0
import proofs.«130671_j88399016886916_2_alg».proof.Proof.KRunR1d

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- The contents when the first region is entered (the launch memory after the three host stretches), read at the
    TensorCore's references. -/
abbrev V3r : (c : Dev nD) → (b : Ref sig .tc) → Buf (Elt F) ((c : Thread nD τ).loc b) := fun c b => Gen.V3 m c b
/-- At the first region's exit: its arrays at what the pipeline leaves, every other buffer as entered. -/
def W4 (c : Dev nD) : Valuation τ sig (Elt F) :=
  Pipeline.withArrays spec0 c (Gen.V3 m c) fun w => (dat0 (V3r m) c).arrAt w cfg0.N
theorem W4_arr (c : Dev nD) (w : Fin cfg0.W) :
    W4 m c (Proc.devRef .tc (Pipeline.arrRef spec0 w)) = (dat0 (V3r m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = Gen.V3 m c (Proc.devRef .tc b) := by
  unfold W4; exact Pipeline.withArrays_of_ne spec0 c _ _ b hb
abbrev V4r : (c : Dev nD) → (b : Ref sig .tc) → Buf (Elt F) ((c : Thread nD τ).loc b) := fun c b => W4 m c b
theorem hF0 (c : Dev nD) (w : Fin cfg0.W) : (dat0 (V3r m) c).arrAt w cfg0.N = V4r m c (Pipeline.arrRef spec0 w) :=
  (W4_arr m c w).symm
theorem hrest0 (c : Dev nD) : ∀ b, b ∉ Finset.univ.image (Pipeline.arrRef spec0) → V4r m c b = V3r m c b :=
  fun b hb => W4_of_ne m c b fun w e => hb (Finset.mem_image.mpr ⟨w, Finset.mem_univ _, e⟩)

/-- After the fourth host stretch: the second region's entry. -/
abbrev W5 : Dev nD → Valuation τ sig (Elt F) := fun c => StableHlo.after hostOps1 (W4 m c)
abbrev V5r : (c : Dev nD) → (b : Ref sig .tc) → Buf (Elt F) ((c : Thread nD τ).loc b) := fun c b => W5 m c b
/-- At the second region's exit. -/
def W6 (c : Dev nD) : Valuation τ sig (Elt F) :=
  Pipeline.withArrays spec1 c (W5 m c) fun w => (dat1 (V5r m) c).arrAt w cfg1.N
theorem W6_arr (c : Dev nD) (w : Fin cfg1.W) :
    W6 m c (Proc.devRef .tc (Pipeline.arrRef spec1 w)) = (dat1 (V5r m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev V6r : (c : Dev nD) → (b : Ref sig .tc) → Buf (Elt F) ((c : Thread nD τ).loc b) := fun c b => W6 m c b
theorem hF1 (c : Dev nD) (w : Fin cfg1.W) : (dat1 (V5r m) c).arrAt w cfg1.N = V6r m c (Pipeline.arrRef spec1 w) :=
  (W6_arr m c w).symm
theorem hrest1 (c : Dev nD) : ∀ b, b ∉ Finset.univ.image (Pipeline.arrRef spec1) → V6r m c b = V5r m c b :=
  fun b hb => W6_of_ne m c b fun w e => hb (Finset.mem_image.mpr ⟨w, Finset.mem_univ _, e⟩)

/-! ## The arguments end as launched -/

theorem W6_main_arg0 (c : Dev nD) : W6 m c (Proc.devRef .tc main_arg0) = m ((c : Thread nD τ).loc main_arg0) :=
  calc W6 m c (Proc.devRef .tc main_arg0)
    _ = W5 m c (Proc.devRef .tc main_arg0) := W6_of_ne m c main_arg0 (by decide)
    _ = W4 m c (Proc.devRef .tc main_arg0) := StableHlo.after_of_writes_sub hostOps1 _ hostOps1_writes (r := main_arg0) (by decide)
    _ = Gen.V3 m c (Proc.devRef .tc main_arg0) := W4_of_ne m c main_arg0 (by decide)
    _ = m ((c : Thread nD τ).loc main_arg0) :=
      (Gen.V3_of m c main_arg0 (by decide)).trans ((Gen.V2_of m c main_arg0 (by decide)).trans ((Gen.V1_of m c main_arg0 (by decide)).trans rfl))

theorem W6_main_arg1 (c : Dev nD) : W6 m c (Proc.devRef .tc main_arg1) = m ((c : Thread nD τ).loc main_arg1) :=
  calc W6 m c (Proc.devRef .tc main_arg1)
    _ = W5 m c (Proc.devRef .tc main_arg1) := W6_of_ne m c main_arg1 (by decide)
    _ = W4 m c (Proc.devRef .tc main_arg1) := StableHlo.after_of_writes_sub hostOps1 _ hostOps1_writes (r := main_arg1) (by decide)
    _ = Gen.V3 m c (Proc.devRef .tc main_arg1) := W4_of_ne m c main_arg1 (by decide)
    _ = m ((c : Thread nD τ).loc main_arg1) :=
      (Gen.V3_of m c main_arg1 (by decide)).trans ((Gen.V2_of m c main_arg1 (by decide)).trans ((Gen.V1_of m c main_arg1 (by decide)).trans rfl))

theorem W6_main_arg2 (c : Dev nD) : W6 m c (Proc.devRef .tc main_arg2) = m ((c : Thread nD τ).loc main_arg2) :=
  calc W6 m c (Proc.devRef .tc main_arg2)
    _ = W5 m c (Proc.devRef .tc main_arg2) := W6_of_ne m c main_arg2 (by decide)
    _ = W4 m c (Proc.devRef .tc main_arg2) := StableHlo.after_of_writes_sub hostOps1 _ hostOps1_writes (r := main_arg2) (by decide)
    _ = Gen.V3 m c (Proc.devRef .tc main_arg2) := (W4_arr m c 2).trans (((dat0 (V3r m) c).arrAt_in 2 rfl _).trans (A_eq0 (V3r m) c 2))
    _ = m ((c : Thread nD τ).loc main_arg2) :=
      (Gen.V3_of m c main_arg2 (by decide)).trans ((Gen.V2_of m c main_arg2 (by decide)).trans ((Gen.V1_of m c main_arg2 (by decide)).trans rfl))

theorem W6_main_arg3 (c : Dev nD) : W6 m c (Proc.devRef .tc main_arg3) = m ((c : Thread nD τ).loc main_arg3) :=
  calc W6 m c (Proc.devRef .tc main_arg3)
    _ = W5 m c (Proc.devRef .tc main_arg3) := W6_of_ne m c main_arg3 (by decide)
    _ = W4 m c (Proc.devRef .tc main_arg3) := StableHlo.after_of_writes_sub hostOps1 _ hostOps1_writes (r := main_arg3) (by decide)
    _ = Gen.V3 m c (Proc.devRef .tc main_arg3) := W4_of_ne m c main_arg3 (by decide)
    _ = m ((c : Thread nD τ).loc main_arg3) :=
      (Gen.V3_of m c main_arg3 (by decide)).trans ((Gen.V2_of m c main_arg3 (by decide)).trans ((Gen.V1_of m c main_arg3 (by decide)).trans rfl))

theorem W6_main_arg4 (c : Dev nD) : W6 m c (Proc.devRef .tc main_arg4) = m ((c : Thread nD τ).loc main_arg4) :=
  calc W6 m c (Proc.devRef .tc main_arg4)
    _ = W5 m c (Proc.devRef .tc main_arg4) := W6_of_ne m c main_arg4 (by decide)
    _ = W4 m c (Proc.devRef .tc main_arg4) := StableHlo.after_of_writes_sub hostOps1 _ hostOps1_writes (r := main_arg4) (by decide)
    _ = Gen.V3 m c (Proc.devRef .tc main_arg4) := (W4_arr m c 4).trans (((dat0 (V3r m) c).arrAt_in 4 rfl _).trans (A_eq0 (V3r m) c 4))
    _ = m ((c : Thread nD τ).loc main_arg4) :=
      (Gen.V3_of m c main_arg4 (by decide)).trans ((Gen.V2_of m c main_arg4 (by decide)).trans ((Gen.V1_of m c main_arg4 (by decide)).trans rfl))

theorem W6_main_arg5 (c : Dev nD) : W6 m c (Proc.devRef .tc main_arg5) = m ((c : Thread nD τ).loc main_arg5) :=
  calc W6 m c (Proc.devRef .tc main_arg5)
    _ = W5 m c (Proc.devRef .tc main_arg5) := W6_of_ne m c main_arg5 (by decide)
    _ = W4 m c (Proc.devRef .tc main_arg5) := StableHlo.after_of_writes_sub hostOps1 _ hostOps1_writes (r := main_arg5) (by decide)
    _ = Gen.V3 m c (Proc.devRef .tc main_arg5) := W4_of_ne m c main_arg5 (by decide)
    _ = m ((c : Thread nD τ).loc main_arg5) :=
      (Gen.V3_of m c main_arg5 (by decide)).trans ((Gen.V2_of m c main_arg5 (by decide)).trans ((Gen.V1_of m c main_arg5 (by decide)).trans rfl))

theorem W6_main_arg6 (c : Dev nD) : W6 m c (Proc.devRef .tc main_arg6) = m ((c : Thread nD τ).loc main_arg6) :=
  calc W6 m c (Proc.devRef .tc main_arg6)
    _ = W5 m c (Proc.devRef .tc main_arg6) := (W6_arr m c 3).trans (((dat1 (V5r m) c).arrAt_in 3 rfl _).trans (A_eq1 (V5r m) c 3))
    _ = W4 m c (Proc.devRef .tc main_arg6) := StableHlo.after_of_writes_sub hostOps1 _ hostOps1_writes (r := main_arg6) (by decide)
    _ = Gen.V3 m c (Proc.devRef .tc main_arg6) := W4_of_ne m c main_arg6 (by decide)
    _ = m ((c : Thread nD τ).loc main_arg6) :=
      (Gen.V3_of m c main_arg6 (by decide)).trans ((Gen.V2_of m c main_arg6 (by decide)).trans ((Gen.V1_of m c main_arg6 (by decide)).trans rfl))

theorem W6_main_arg7 (c : Dev nD) : W6 m c (Proc.devRef .tc main_arg7) = m ((c : Thread nD τ).loc main_arg7) :=
  calc W6 m c (Proc.devRef .tc main_arg7)
    _ = W5 m c (Proc.devRef .tc main_arg7) := W6_of_ne m c main_arg7 (by decide)
    _ = W4 m c (Proc.devRef .tc main_arg7) := StableHlo.after_of_writes_sub hostOps1 _ hostOps1_writes (r := main_arg7) (by decide)
    _ = Gen.V3 m c (Proc.devRef .tc main_arg7) := W4_of_ne m c main_arg7 (by decide)
    _ = m ((c : Thread nD τ).loc main_arg7) :=
      (Gen.V3_of m c main_arg7 (by decide)).trans ((Gen.V2_of m c main_arg7 (by decide)).trans ((Gen.V1_of m c main_arg7 (by decide)).trans rfl))

/-- The result array ends at what the second region's write-back leaves. -/
theorem W6_main_v44 (c : Dev nD) : W6 m c (Proc.devRef .tc main_v44) = (dat1 (V5r m) c).arrAt 5 cfg1.N := W6_arr m c 5

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V3r m) c
  | ⟨1, _⟩ => fun c => dat1 (V5r m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3r m) c).loose
  hwaits := Pipeline.hwaits_of_owed_zero _ _ _ _ L lv 0 fun _ _ => rfl
  pre c := iprop(StableHlo.held (c : Thread nD τ) (Pipeline.ucRefs τ sig) (Gen.V3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (V3r m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V3r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V3r m c) (V4r m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5r m) c).loose
  hwaits := Pipeline.hwaits_of_owed_zero _ _ _ _ L lv 1 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V5r m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V5r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (V5r m) c).Φ 0 from rfl]
    iintro ⟨Hp, -, Hr⟩
    iapply (hin1 (V5r m) c)
    unfold Pipeline.ΦA
    isplitl [Hr]; · iexact Hr
    iexact Hp
  hout c := by
    rw [Pipeline.ownSems0_none]
    have h2 : (Pipeline.ΦA spec1 c : sProp 𝕄) ⊢ iprop((∃ r, prngReg c r) ∗ BI.emp ∗ Pipeline.scopedRest spec1 c) := by
      unfold Pipeline.ΦA
      iintro ⟨Hr, Hp⟩
      isplitl [Hp]; · iexact Hp
      isplitr; · iempintro
      iexact Hr
    rw [show (pdats m 1 c).Φ (Fin.last _) = (dat1 (V5r m) c).Φ (Fin.last cfg1.N) from rfl]
    exact (hout1 (V5r m) c).trans h2
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V5r m c) (V6r m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg hostOps0 hostOps0_sub Gen.hostOps0_fresh (Gen.V0 m)),
    .host (hseg hostOps0_1 hostOps0_1_sub Gen.hostOps0_1_fresh (Gen.V1 m)),
    .host (hseg hostOps0_2 hostOps0_2_sub Gen.hostOps0_2_fresh (Gen.V2 m)),
    .region (reg0 m),
    .host (hseg hostOps1 hostOps1_sub Gen.hostOps1_fresh (W4 m)),
    .region (reg1 m) ]

theorem main_run (c : Dev nD) : main (F := F) c = Pipeline.Seg.run (segs m) := (main_chain c).trans (by chain_rfl)

set_option backward.isDefEq.respectTransparency.types false in
/-- Every weakly fair execution of @main from memory `m` with zero counters terminates, nothing faulting, with every
    unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

/-- The run with the result array and the argument arrays named. -/
theorem run_named : θ_run defs (onTc (τ := τ) (main (F := F))) ⟨m, fun _ => 0, ρ⟩ (fun r => ∀ c : Dev nD,
      r.2.mem ((c.tc : Thread nD τ).loc main_v44) = (dat1 (V5r m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_v44 (by decide))).trans (W6_main_v44 m c),
     (h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c),
     (h c _ (mem_uc main_arg4 (by decide))).trans (W6_main_arg4 m c),
     (h c _ (mem_uc main_arg5 (by decide))).trans (W6_main_arg5 m c),
     (h c _ (mem_uc main_arg6 (by decide))).trans (W6_main_arg6 m c),
     (h c _ (mem_uc main_arg7 (by decide))).trans (W6_main_arg7 m c)⟩) (run_all m ρ)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => (h c).2) (run_named m ρ)

end Cert.Kernel.Run

end
-- ==== Proof.RunR0.lean ====
/-
  The first kernel region (the fused first layer and second linear map, ten blocks of 5000 rows), at any float
  instance and at any contents `V` of the buffers when the region is entered.

  A block of a window at a grid point is the window's array read through the point's rectangle. The body loads its
  five input blocks whole, stores one value — the skeleton's payload of those loads — through the whole output
  block, and touches nothing else; so after the body every input buffer still holds its block and the output
  buffer holds that payload. The proof data say exactly this at every point; the region's invariant is the plain
  one (the scoped buffers and the generator register untouched), nothing is owed.
-/
import proofs.«130671_j88399016886916_2_alg».proof.Proof.Gen.KernelIdeal.Launch
import proofs.«130671_j88399016886916_2_alg».proof.Proof.Gen.KernelIdeal.Skeleton
import proofs.«130671_j88399016886916_2_alg».proof.Proof.Gen.KernelIdeal.Points
import proofs.«130671_j88399016886916_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether fetched there or not (an
    unfetched window's block index has not moved), for any proof data whose array is `V`'s and whose body leaves
    the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in the output buffer -/

abbrev rA0 : Rect S5000x1 := Rect.unit (s := S5000x1) ![0, 0] S5000x1.size inb_S5000x1_S5000x1_0_0
abbrev rB0 : Rect S1x64 := Rect.unit (s := S1x64) ![0, 0] S1x64.size inb_S1x64_S1x64_0_0
abbrev rC0 : Rect S64x64 := Rect.unit (s := S64x64) ![0, 0] S64x64.size inb_S64x64_S64x64_0_0
abbrev rD0 : Rect S5000x64 := Rect.unit (s := S5000x64) ![0, 0] S5000x64.size inb_S5000x64_S5000x64_0_0

/-- The output buffer after the body, from the five input blocks (`x0` the aggregate column's block, `x1` the
    inverse-root-degree column's, `x2` the first weight row, `x3` the first bias row, `x4` the second weight): its one
    store, through the whole block, of the payload of the loads. -/
def out0_5 (x0 x1 : Vec F S5000x1 .f32) (x2 x3 : Vec F S1x64 .f32) (x4 : Vec F S64x64 .f32) : Vec F S5000x64 .bf16 :=
  View.canon [⟨rD0, k0_pay1 (View.ld x1 rA0) (View.ld x0 rA0) (View.ld x2 rB0) (View.ld x3 rB0) (View.ld x4 rC0)⟩]

/-- The one store covers the buffer. -/
theorem cover0_5 (p0 : Vec F S5000x64 .bf16) (y : S5000x64.Idx) :
    ∃ pc ∈ ([⟨rD0, p0⟩] : List (View.Piece (Elt F) S5000x64 .bf16)), y ∈ pc.1.set :=
  View.cover_of_tiled [⟨rD0, p0⟩] S5000x64.size (by rfl) y

/-! ## The body's triple -/

set_option maxHeartbeats 4000000 in
/-- The body on whole staging memrefs, the inputs' at contents `x0 … x4` and the output's at anything, runs to the
    continuation holding the inputs' as they were and the output's at `out0_5` of them. -/
theorem sound_kernel0 (c : Dev nD) (E : Set ℕ) (i : grid0.Coords)
    (arg1 : Memref sig .tc .vmem S5000x1 .f32) (harg1 : arg1.IsWhole) (arg2 : Memref sig .tc .vmem S5000x1 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S64x64 .f32) (harg5 : arg5.IsWhole) (arg6 : Memref sig .tc .vmem S5000x64 .bf16) (harg6 : arg6.IsWhole)
    (x0 x1 : Vec F S5000x1 .f32) (x2 x3 : Vec F S1x64 .f32) (x4 : Vec F S64x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E
          (cc0__layer1_layer2lin_kernel i arg1 harg1 arg2 harg2 arg3 harg3 arg4 harg4 arg5 harg5 arg6 harg6) K := by
  simp only [cc0__layer1_layer2lin_kernel_eq_skeleton]; unfold cc0__layer1_layer2lin_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The region's proof data -/

/-- The proof data of the first region on core `c`: the arrays as the region finds them; after the body at point `t`
    each input's buffer at its block and the output's at `out0_5` of the input blocks; the plain invariant; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t
    = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Run

end
-- ==== Proof.RunR1Shared.lean ====
/-
  The second kernel region (scale, bias, positive part, column sums accumulated over ten blocks of 5000 rows in a
  resident row, then at the last block the mean, the classifier product and the logarithm of the softmax): what its
  three control cases share, at any float instance and any contents `V` of the buffers when the region is entered.

  The body's first conditional holds at the first grid point only (there the accumulator row is zeroed), its
  second at the last point only (there the output row is written): case A is the first point, case C the last,
  case B the eight between. The output window is idle — not stored into, not written back — in cases A and B.
-/
import proofs.«130671_j88399016886916_2_alg».proof.Proof.Gen.KernelIdeal.Launch
import proofs.«130671_j88399016886916_2_alg».proof.Proof.Gen.KernelIdeal.Skeleton
import proofs.«130671_j88399016886916_2_alg».proof.Proof.Gen.KernelIdeal.Points
import proofs.«130671_j88399016886916_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions, decided over the grid -/

/-- The first conditional's condition from the grid coordinates. -/
abbrev cond1_0 (i : grid1.Coords) : Prop := (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val = 0 :=
  (by decide +kernel : ∀ t : Fin grid1.N, cond1_0 (grid1.coords t) ↔ t.val = 0)

/-- The second conditional's condition. -/
abbrev cond1_1 (i : grid1.Coords) : Prop := k1_cond2 i = 1#1
/-- It holds at the last point only. -/
theorem hcond1_1 : ∀ t : Fin cfg1.N, cond1_1 (grid1.coords t) ↔ t.val = 9 :=
  (by decide +kernel : ∀ t : Fin grid1.N, cond1_1 (grid1.coords t) ↔ t.val = 9)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Where the second condition fails the output window is idle and not written back; where it holds it is live. -/
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5 : ∀ t : Fin cfg1.N, cond1_1 (grid1.coords t) → cfg1.idle 5 (grid1.coords t) = false := by decide +kernel

/-! ## The memrefs the body is called with -/

/-- One staging buffer of the output window, through which its contents are stated. -/
abbrev VO1_5 : View sig .tc .vmem S1x4 .f32 := (Memref.whole cc1_stg5_0 : Memref sig .tc .vmem S1x4 .f32).view
abbrev ms1_0 (t : Fin cfg1.N) : Memref sig .tc .vmem S5000x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S5000x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S64x4 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x4 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x4 .f32 := win1_5.stage (cfg1.slots t 5)
abbrev hs1_5 (t : Fin cfg1.N) : (ms1_5 t).IsWhole := hstage1_5 ((cfg1.slots t 5).cast nbuf1_5)
/-- The accumulator row: a whole scoped buffer of the kernel's own, passed beside the windows. -/
abbrev scM1_0 : Memref sig .tc .vmem S1x64 .f32 := Memref.whole cc1_scratch0
abbrev VS1_0 : View sig .tc .vmem S1x64 .f32 := scM1_0.view

/-! ## The plain invariant, with the accumulator row as a memref -/

/-- The other region's nine staging buffers, each whole at some contents: scoped buffers this region never touches. -/
def others1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f))

/-- The plain invariant is: those nine buffers, the accumulator row owned at some contents, the generator register. -/
theorem PhiA1_entails (c : Dev nD) :
    (Pipeline.ΦA spec1 c : sProp 𝕄) ⊢ iprop(others1 (F := F) c ∗ (∃ d, owns (c : Thread nD τ) scM1_0 fullShare d) ∗ (∃ r, prngReg c r)) := by
  unfold Pipeline.ΦA others1; rw [scopedRest1_eq]; simp only [scM1_0, owns_whole]
  iintro ⟨⟨H0, H1, H2, H3, H4, H5, H6, H7, H8, HS⟩, Hg⟩
  isplitl [H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [HS]; · iexact HS
  iexact Hg

theorem PhiA1_of (c : Dev nD) :
    iprop(others1 (F := F) c ∗ (∃ d, owns (c : Thread nD τ) scM1_0 fullShare d) ∗ (∃ r, prngReg c r)) ⊢ (Pipeline.ΦA spec1 c : sProp 𝕄) := by
  unfold Pipeline.ΦA others1; rw [scopedRest1_eq]; simp only [scM1_0, owns_whole]
  iintro ⟨⟨H0, H1, H2, H3, H4, H5, H6, H7, H8⟩, HS, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact HS
  iexact Hg

end Cert.KernelIdeal.Run

end
-- ==== Proof.RunR1A.lean ====
/-
  The second region's body run whole in case A: the first grid point — the accumulator row, found at anything, is zeroed and then takes the first block's column sums; the output row is left as found.
-/
import proofs.«130671_j88399016886916_2_alg».proof.Proof.RunR1Shared

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The pieces the body's stores leave in the output row's buffer and in the accumulator row (last store first), with
    the proof that on whole memrefs — the inputs' at their contents — the body runs to the continuation holding the
    inputs' as they were and those two with the pieces written. The pieces are found by running the body. -/
noncomputable def kernelRun1_A (c : Dev nD) (i : grid1.Coords) (arg1 : Memref sig .tc .vmem S5000x64 .f32) (harg1 : arg1.IsWhole) (arg2 : Memref sig .tc .vmem S5000x1 .f32) (harg2 : arg2.IsWhole)
    (arg3 : Memref sig .tc .vmem S1x64 .f32) (harg3 : arg3.IsWhole) (arg4 : Memref sig .tc .vmem S64x4 .f32) (harg4 : arg4.IsWhole)
    (arg5 : Memref sig .tc .vmem S1x4 .f32) (harg5 : arg5.IsWhole) (arg6 : Memref sig .tc .vmem S1x4 .f32) (harg6 : arg6.IsWhole)
    (arg7 : Memref sig .tc .vmem S1x64 .f32) (harg7 : arg7.IsWhole) (hc0 : cond1_0 i) (hc1 : ¬cond1_1 i)
    (x0 : Vec F S5000x64 .f32) (x1 : Vec F S5000x1 .f32) (x2 : Vec F S1x64 .f32) (x3 : Vec F S64x4 .f32) (x4 : Vec F S1x4 .f32) :
    Σ' (L5 : List (View.Piece (Elt F) S1x4 .f32)), { LS0 : List (View.Piece (Elt F) S1x64 .f32) //
      ∀ (xi5 : Vec F S1x4 .f32) (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare xi5 ∗ (∃ d, owns (c : Thread nD τ) arg7 fullShare d)
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare xi5
                ∗ (∃ f, arg7.view.loc (c : Thread nD τ) ↦[arg7.view.set]{fullShare} arg7.view.writes (Elt F) f LS0)) -∗ K ⟨⟩))
          ⊢ wp frame (wpE (defs₀ (F := F)) Variants.none c none) E (cc1__pool_fc_kernel i arg1 harg1 arg2 harg2 arg3 harg3 arg4 harg4 arg5 harg5 arg6 harg6 arg7 harg7) K } := by
  refine ⟨[], ?_, fun xi5 E K => ?run⟩
  case run =>
    simp only [cc1__pool_fc_kernel_eq_skeleton]; unfold cc1__pool_fc_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

end Cert.KernelIdeal.Run

end
-- ==== Proof.RunR1B.lean ====
/-
  The second region's body run whole in case B: a grid point that is neither the first nor the last — the accumulator row, found at what the point before left, takes this block's column sums added; the output row is left as found.
-/
import proofs.«130671_j88399016886916_2_alg».proof.Proof.RunR1Shared

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The pieces the body's stores leave in the output row's buffer and in the accumulator row (last store first), with
    the proof that on whole memrefs — the inputs' at their contents — the body runs to the continuation holding the
    inputs' as they were and those two with the pieces written. The pieces are found by running the body. -/
noncomputable def kernelRun1_B (c : Dev nD) (i : grid1.Coords) (arg1 : Memref sig .tc .vmem S5000x64 .f32) (harg1 : arg1.IsWhole) (arg2 : Memref sig .tc .vmem S5000x1 .f32) (harg2 : arg2.IsWhole)
    (arg3 : Memref sig .tc .vmem S1x64 .f32) (harg3 : arg3.IsWhole) (arg4 : Memref sig .tc .vmem S64x4 .f32) (harg4 : arg4.IsWhole)
    (arg5 : Memref sig .tc .vmem S1x4 .f32) (harg5 : arg5.IsWhole) (arg6 : Memref sig .tc .vmem S1x4 .f32) (harg6 : arg6.IsWhole)
    (arg7 : Memref sig .tc .vmem S1x64 .f32) (harg7 : arg7.IsWhole) (hc0 : ¬cond1_0 i) (hc1 : ¬cond1_1 i)
    (x0 : Vec F S5000x64 .f32) (x1 : Vec F S5000x1 .f32) (x2 : Vec F S1x64 .f32) (x3 : Vec F S64x4 .f32) (x4 : Vec F S1x4 .f32) (xs0 : Vec F S1x64 .f32) :
    Σ' (L5 : List (View.Piece (Elt F) S1x4 .f32)), { LS0 : List (View.Piece (Elt F) S1x64 .f32) //
      ∀ (xi5 : Vec F S1x4 .f32) (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare xi5 ∗ owns (c : Thread nD τ) arg7 fullShare xs0
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare xi5
                ∗ (∃ f, arg7.view.loc (c : Thread nD τ) ↦[arg7.view.set]{fullShare} arg7.view.writes (Elt F) f LS0)) -∗ K ⟨⟩))
          ⊢ wp frame (wpE (defs₀ (F := F)) Variants.none c none) E (cc1__pool_fc_kernel i arg1 harg1 arg2 harg2 arg3 harg3 arg4 harg4 arg5 harg5 arg6 harg6 arg7 harg7) K } := by
  refine ⟨[], ?_, fun xi5 E K => ?run⟩
  case run =>
    simp only [cc1__pool_fc_kernel_eq_skeleton]; unfold cc1__pool_fc_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5; obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

end Cert.KernelIdeal.Run

end
-- ==== Proof.RunR1C.lean ====
/-
  The second region's body run whole in case C: the last grid point — the accumulator row takes the last block's column sums added, and the output row is stored: the mean, the classifier product and bias, the logarithm of the softmax.
-/
import proofs.«130671_j88399016886916_2_alg».proof.Proof.RunR1Shared

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The pieces the body's stores leave in the output row's buffer and in the accumulator row (last store first), with
    the proof that on whole memrefs — the inputs' at their contents — the body runs to the continuation holding the
    inputs' as they were and those two with the pieces written. The pieces are found by running the body. -/
noncomputable def kernelRun1_C (c : Dev nD) (i : grid1.Coords) (arg1 : Memref sig .tc .vmem S5000x64 .f32) (harg1 : arg1.IsWhole) (arg2 : Memref sig .tc .vmem S5000x1 .f32) (harg2 : arg2.IsWhole)
    (arg3 : Memref sig .tc .vmem S1x64 .f32) (harg3 : arg3.IsWhole) (arg4 : Memref sig .tc .vmem S64x4 .f32) (harg4 : arg4.IsWhole)
    (arg5 : Memref sig .tc .vmem S1x4 .f32) (harg5 : arg5.IsWhole) (arg6 : Memref sig .tc .vmem S1x4 .f32) (harg6 : arg6.IsWhole)
    (arg7 : Memref sig .tc .vmem S1x64 .f32) (harg7 : arg7.IsWhole) (hc0 : ¬cond1_0 i) (hc1 : cond1_1 i)
    (x0 : Vec F S5000x64 .f32) (x1 : Vec F S5000x1 .f32) (x2 : Vec F S1x64 .f32) (x3 : Vec F S64x4 .f32) (x4 : Vec F S1x4 .f32) (xs0 : Vec F S1x64 .f32) :
    Σ' (L5 : List (View.Piece (Elt F) S1x4 .f32)), { LS0 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ (∃ d, owns (c : Thread nD τ) arg6 fullShare d) ∗ owns (c : Thread nD τ) arg7 fullShare xs0
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f LS0)) -∗ K ⟨⟩))
          ⊢ wp frame (wpE (defs₀ (F := F)) Variants.none c none) E (cc1__pool_fc_kernel i arg1 harg1 arg2 harg2 arg3 harg3 arg4 harg4 arg5 harg5 arg6 harg6 arg7 harg7) K } := by
  refine ⟨?_, ?_, fun E K => ?run⟩
  case run =>
    simp only [cc1__pool_fc_kernel_eq_skeleton]; unfold cc1__pool_fc_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS0

end Cert.KernelIdeal.Run

end
-- ==== Proof.RunR1d.lean ====
/-
  The second kernel region: what its accumulator row and its output row hold after each grid point, the region's
  invariant, its proof data and its body obligation, at any float instance and any entry contents `V`.

  After the first point the accumulator row holds what case A's stores leave (zeros, then the first block's column
  sums added); after every later point what case B's or, at the last point, case C's stores leave over what the
  point before left: a recursion on the point (`accAt`). The output row is stored at the last point only, by case C
  over the accumulator row the ninth point left (`outAt`). The invariant before the first point is the plain one
  (the accumulator row at anything); before every later point it holds the accumulator row at `accAt` of the point
  before, the other region's staging buffers at anything, and the generator register.
-/
import proofs.«130671_j88399016886916_2_alg».proof.Proof.RunR1A
import proofs.«130671_j88399016886916_2_alg».proof.Proof.RunR1B
import proofs.«130671_j88399016886916_2_alg».proof.Proof.RunR1C

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The case a point is in -/

theorem hA0 (t : Fin cfg1.N) (h : t.val = 0) : cond1_0 (grid1.coords t) := (hcond1_0 t).mpr h
theorem hnA0 (t : Fin cfg1.N) (h : t.val ≠ 0) : ¬cond1_0 (grid1.coords t) := fun hc => h ((hcond1_0 t).mp hc)
theorem hC1 (t : Fin cfg1.N) (h : t.val = 9) : cond1_1 (grid1.coords t) := (hcond1_1 t).mpr h
theorem hnC1 (t : Fin cfg1.N) (h : t.val ≠ 9) : ¬cond1_1 (grid1.coords t) := fun hc => h ((hcond1_1 t).mp hc)

/-! ## What each case leaves -/

/-- The accumulator row after the first point: case A's pieces read back. -/
def sA (c : Dev nD) (t : Fin cfg1.N) (h0 : t.val = 0) (h9 : t.val ≠ 9) : Vec F S1x64 .f32 :=
  VS1_0.read (Elt F) (VS1_0.writes (Elt F) VS1_0.junk (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (hA0 t h0) (hnC1 t h9) (iblk1 V c 0 t) (iblk1 V c 1 t) (iblk1 V c 2 t) (iblk1 V c 3 t) (iblk1 V c 4 t)).2.1)
theorem scoverA (c : Dev nD) (t : Fin cfg1.N) (h0 : t.val = 0) (h9 : t.val ≠ 9) (y : S1x64.Idx) :
    ∃ pc ∈ (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (hA0 t h0) (hnC1 t h9) (iblk1 V c 0 t) (iblk1 V c 1 t) (iblk1 V c 2 t) (iblk1 V c 3 t) (iblk1 V c 4 t)).2.1, y ∈ pc.1.set :=
  View.cover_of_tiledL (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (hA0 t h0) (hnC1 t h9) (iblk1 V c 0 t) (iblk1 V c 1 t) (iblk1 V c 2 t) (iblk1 V c 3 t) (iblk1 V c 4 t)).2.1 S1x64.size (by sl_kernel_rfl) y

/-- The accumulator row after a middle point, over what the point before left (`xs`): case B's pieces read back. -/
def sB (c : Dev nD) (t : Fin cfg1.N) (h0 : t.val ≠ 0) (h9 : t.val ≠ 9) (xs : Vec F S1x64 .f32) : Vec F S1x64 .f32 :=
  VS1_0.read (Elt F) (VS1_0.writes (Elt F) VS1_0.junk (kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (hnA0 t h0) (hnC1 t h9) (iblk1 V c 0 t) (iblk1 V c 1 t) (iblk1 V c 2 t) (iblk1 V c 3 t) (iblk1 V c 4 t) xs).2.1)
theorem scoverB (c : Dev nD) (t : Fin cfg1.N) (h0 : t.val ≠ 0) (h9 : t.val ≠ 9) (xs : Vec F S1x64 .f32) (y : S1x64.Idx) :
    ∃ pc ∈ (kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (hnA0 t h0) (hnC1 t h9) (iblk1 V c 0 t) (iblk1 V c 1 t) (iblk1 V c 2 t) (iblk1 V c 3 t) (iblk1 V c 4 t) xs).2.1, y ∈ pc.1.set :=
  View.cover_of_tiledL (kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (hnA0 t h0) (hnC1 t h9) (iblk1 V c 0 t) (iblk1 V c 1 t) (iblk1 V c 2 t) (iblk1 V c 3 t) (iblk1 V c 4 t) xs).2.1 S1x64.size (by sl_kernel_rfl) y

/-- The accumulator row and the output row after the last point, over what the point before left. -/
def sC (c : Dev nD) (t : Fin cfg1.N) (h0 : t.val ≠ 0) (h9 : t.val = 9) (xs : Vec F S1x64 .f32) : Vec F S1x64 .f32 :=
  VS1_0.read (Elt F) (VS1_0.writes (Elt F) VS1_0.junk (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (hnA0 t h0) (hC1 t h9) (iblk1 V c 0 t) (iblk1 V c 1 t) (iblk1 V c 2 t) (iblk1 V c 3 t) (iblk1 V c 4 t) xs).2.1)
theorem scoverC (c : Dev nD) (t : Fin cfg1.N) (h0 : t.val ≠ 0) (h9 : t.val = 9) (xs : Vec F S1x64 .f32) (y : S1x64.Idx) :
    ∃ pc ∈ (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (hnA0 t h0) (hC1 t h9) (iblk1 V c 0 t) (iblk1 V c 1 t) (iblk1 V c 2 t) (iblk1 V c 3 t) (iblk1 V c 4 t) xs).2.1, y ∈ pc.1.set :=
  View.cover_of_tiledL (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (hnA0 t h0) (hC1 t h9) (iblk1 V c 0 t) (iblk1 V c 1 t) (iblk1 V c 2 t) (iblk1 V c 3 t) (iblk1 V c 4 t) xs).2.1 S1x64.size (by sl_kernel_rfl) y
def oC (c : Dev nD) (t : Fin cfg1.N) (h0 : t.val ≠ 0) (h9 : t.val = 9) (xs : Vec F S1x64 .f32) : Vec F S1x4 .f32 :=
  VO1_5.read (Elt F) (VO1_5.writes (Elt F) VO1_5.junk (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (hnA0 t h0) (hC1 t h9) (iblk1 V c 0 t) (iblk1 V c 1 t) (iblk1 V c 2 t) (iblk1 V c 3 t) (iblk1 V c 4 t) xs).1)
theorem coverC (c : Dev nD) (t : Fin cfg1.N) (h0 : t.val ≠ 0) (h9 : t.val = 9) (xs : Vec F S1x64 .f32) (y : S1x4.Idx) :
    ∃ pc ∈ (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (hnA0 t h0) (hC1 t h9) (iblk1 V c 0 t) (iblk1 V c 1 t) (iblk1 V c 2 t) (iblk1 V c 3 t) (iblk1 V c 4 t) xs).1, y ∈ pc.1.set :=
  View.cover_of_tiledL (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (hnA0 t h0) (hC1 t h9) (iblk1 V c 0 t) (iblk1 V c 1 t) (iblk1 V c 2 t) (iblk1 V c 3 t) (iblk1 V c 4 t) xs).1 S1x4.size (by sl_kernel_rfl) y

/-! ## The accumulation over the points -/

/-- The accumulator row after the body at position `n`. -/
def accAt (c : Dev nD) : (n : ℕ) → n < cfg1.N → Vec F S1x64 .f32
  | 0, hn => sA V c ⟨0, hn⟩ rfl (by show (0 : ℕ) ≠ 9; omega)
  | n + 1, hn =>
    if h9 : n + 1 = 9 then sC V c ⟨n + 1, hn⟩ (Nat.succ_ne_zero n) h9 (accAt c n (Nat.lt_of_succ_lt hn))
    else sB V c ⟨n + 1, hn⟩ (Nat.succ_ne_zero n) h9 (accAt c n (Nat.lt_of_succ_lt hn))

theorem accAt_A (c : Dev nD) (t : Fin cfg1.N) (h0 : t.val = 0) (h9 : t.val ≠ 9) :
    accAt V c t.val t.isLt = sA V c t h0 h9 := by
  obtain ⟨n, hn⟩ := t
  cases n with
  | zero => rfl
  | succ n => exact absurd h0 (Nat.succ_ne_zero n)

theorem accAt_B (c : Dev nD) (t : Fin cfg1.N) (h0 : t.val ≠ 0) (h9 : t.val ≠ 9) :
    accAt V c t.val t.isLt = sB V c t h0 h9 (accAt V c (t.val - 1) (Nat.lt_of_le_of_lt (Nat.sub_le _ _) t.isLt)) := by
  obtain ⟨n, hn⟩ := t
  cases n with
  | zero => exact absurd rfl h0
  | succ n => exact dif_neg h9

theorem accAt_C (c : Dev nD) (t : Fin cfg1.N) (h0 : t.val ≠ 0) (h9 : t.val = 9) :
    accAt V c t.val t.isLt = sC V c t h0 h9 (accAt V c (t.val - 1) (Nat.lt_of_le_of_lt (Nat.sub_le _ _) t.isLt)) := by
  obtain ⟨n, hn⟩ := t
  cases n with
  | zero => exact absurd rfl h0
  | succ n => exact dif_pos h9

/-- The output row's staging buffer after the body at point `t`: stored at the last point only (elsewhere the window
    is idle: a placeholder nothing consults). -/
def outAt (c : Dev nD) (t : Fin cfg1.N) : Vec F S1x4 .f32 :=
  if h9 : t.val = 9 then
    oC V c t (by omega) h9 (accAt V c (t.val - 1) (Nat.lt_of_le_of_lt (Nat.sub_le _ _) t.isLt))
  else VO1_5.read (Elt F) VO1_5.junk

theorem outAt_C (c : Dev nD) (t : Fin cfg1.N) (h0 : t.val ≠ 0) (h9 : t.val = 9) :
    outAt V c t = oC V c t h0 h9 (accAt V c (t.val - 1) (Nat.lt_of_le_of_lt (Nat.sub_le _ _) t.isLt)) := dif_pos h9

/-! ## The region's invariant -/

/-- Before position `n`: the plain invariant before the first point; afterwards the accumulator row at what the point
    before left, the other region's staging buffers at anything and the generator register at some state. -/
def PhiS (c : Dev nD) : (n : ℕ) → n ≤ cfg1.N → sProp 𝕄
  | 0, _ => Pipeline.ΦA spec1 c
  | n + 1, hn => iprop(others1 (F := F) c ∗ owns (c : Thread nD τ) scM1_0 fullShare (accAt V c n hn) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(others1 (F := F) c ∗ owns (c : Thread nD τ) scM1_0 fullShare (accAt V c n hn) ∗ (∃ r, prngReg c r)) := rfl

theorem PhiS_pos (c : Dev nD) (n : ℕ) (h : n ≤ cfg1.N) (hz : n ≠ 0) :
    PhiS V c n h = iprop(others1 (F := F) c ∗ owns (c : Thread nD τ) scM1_0 fullShare (accAt V c (n - 1) (by omega)) ∗ (∃ r, prngReg c r)) := by
  cases n with
  | zero => exact absurd rfl hz
  | succ n => rfl

/-! ## The region's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => outAt V c t
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = outAt V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t ∗ (dat1 V c).leavesExact 5 t)

set_option maxHeartbeats 4800000 in
/-- The body at any point: the inputs' memrefs hold their blocks; the point's position says which case it is in; the
    invariant hands the body the accumulator row at what the point before left (at anything at the first point) and
    takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  have hN : t.val < 10 := lt_of_lt_of_eq t.isLt (show cfg1.N = 10 from N_1)
  by_cases h0 : t.val = 0
  · have h9 : t.val ≠ 9 := by omega
    rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [show (dat1 V c).leavesExact 3 t = owns (c : Thread nD τ) (ms1_3 t) fullShare ((dat1 V c).after 3 t) from by
      unfold Dat.leavesExact; rw [liveAt1_3 t], after1_3]
    rw [show (dat1 V c).leavesExact 4 t = owns (c : Thread nD τ) (ms1_4 t) fullShare ((dat1 V c).after 4 t) from by
      unfold Dat.leavesExact; rw [liveAt1_4 t], after1_4]
    rw [Dat.leavesExact_idle (dat1 V c) 5 t (idleAt1_5 t (hnC1 t h9)) (noFlush1_5 t (hnC1 t h9))]
    rw [accAt_A V c t h0 h9]
    unfold sA; (try dsimp only)
    rw [PhiS_castSucc V c t, PhiS_zero V c _ _ h0]
    iintro ⟨HΦ, Ho, ⟨%d0, H0⟩, ⟨%d1, H1⟩, ⟨%d2, H2⟩, ⟨%d3, H3⟩, ⟨%d4, H4⟩, ⟨%d5, H5⟩⟩
    ihave HΦ' := (PhiA1_entails (F := F) c) $$ HΦ
    icases HΦ' with ⟨Hoth, HS0, Hg⟩
    iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (hA0 t h0) (hnC1 t h9) (iblk1 V c 0 t) (iblk1 V c 1 t) (iblk1 V c 2 t) (iblk1 V c 3 t) (iblk1 V c 4 t)).2.2 _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    iintro ⟨H0, H1, H2, H3, H4, H5, ⟨%es0, HS0⟩⟩
    isplitl [Hoth HS0 Hg]
    · isplitl [Hoth]; · iexact Hoth
      isplitl [HS0]
      · unfold owns; iexists _; isplitr
        swap; · iexact HS0
        ipureintro; exact View.read_writes_of_cover _ _ _ _ _ (scoverA V c t h0 h9)
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · by_cases h9 : t.val = 9
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t (hC1 t h9)], after1_5]
      rw [accAt_C V c t h0 h9, outAt_C V c t h0 h9]
      unfold sC oC; (try dsimp only)
      rw [PhiS_castSucc V c t, PhiS_pos V c _ _ h0]
      iintro ⟨⟨Hoth, HS0, Hg⟩, Ho, ⟨%d0, H0⟩, ⟨%d1, H1⟩, ⟨%d2, H2⟩, ⟨%d3, H3⟩, ⟨%d4, H4⟩, ⟨%d5, H5⟩⟩
      iapply ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (hnA0 t h0) (hC1 t h9) (iblk1 V c 0 t) (iblk1 V c 1 t) (iblk1 V c 2 t) (iblk1 V c 3 t) (iblk1 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [Hoth HS0 Hg]
      · isplitl [Hoth]; · iexact Hoth
        isplitl [HS0]
        · unfold owns; iexists _; isplitr
          swap; · iexact HS0
          ipureintro; exact View.read_writes_of_cover _ _ _ _ _ (scoverC V c t h0 h9 _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverC V c t h0 h9 _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5 t (hnC1 t h9)) (noFlush1_5 t (hnC1 t h9))]
      rw [accAt_B V c t h0 h9]
      unfold sB; (try dsimp only)
      rw [PhiS_castSucc V c t, PhiS_pos V c _ _ h0]
      iintro ⟨⟨Hoth, HS0, Hg⟩, Ho, ⟨%d0, H0⟩, ⟨%d1, H1⟩, ⟨%d2, H2⟩, ⟨%d3, H3⟩, ⟨%d4, H4⟩, ⟨%d5, H5⟩⟩
      iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (hnA0 t h0) (hnC1 t h9) (iblk1 V c 0 t) (iblk1 V c 1 t) (iblk1 V c 2 t) (iblk1 V c 3 t) (iblk1 V c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [Hoth HS0 Hg]
      · isplitl [Hoth]; · iexact Hoth
        isplitl [HS0]
        · unfold owns; iexists _; isplitr
          swap; · iexact HS0
          ipureintro; exact View.read_writes_of_cover _ _ _ _ _ (scoverB V c t h0 h9 _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the plain one back: the accumulator row's contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 10 := N_1; omega
  rw [show (dat1 V c).Φ (Fin.last cfg1.N) = PhiS V c (Fin.last cfg1.N).val (Nat.le_of_lt_succ (Fin.last cfg1.N).isLt) from rfl,
    PhiS_pos V c _ _ hne]
  iintro ⟨Hoth, HS0, Hg⟩
  iapply (PhiA1_of (F := F) c)
  isplitl [Hoth]; · iexact Hoth
  isplitl [HS0]; · iexists _; iexact HS0
  iexact Hg

end Cert.KernelIdeal.Run

end
-- ==== Proof.RunAll.lean ====
/-
  The kernel program run whole, at any float instance: @main is three stretches of host operations, the first kernel
  region, one more stretch, the second kernel region. Between two items every unscoped buffer of the TensorCore is
  held whole at named contents: the launch memory folded through the host stretches, and across a region its windows'
  arrays replaced by what the pipeline's write-backs leave (the inputs as entered, the output at the fold of the
  blocks the points wrote). Every weakly fair execution terminates with every unscoped buffer at the last of these
  contents; the argument arrays walk back through the folds to the launch memory, and the result array is what the
  second region's write-back leaves.
-/
import proofs.«130671_j88399016886916_2_alg».proof.Proof.RunR0
import proofs.«130671_j88399016886916_2_alg».proof.Proof.RunR1d

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- The contents when the first region is entered (the launch memory after the three host stretches), read at the
    TensorCore's references. -/
abbrev V3r : (c : Dev nD) → (b : Ref sig .tc) → Buf (Elt F) ((c : Thread nD τ).loc b) := fun c b => Gen.V3 m c b
/-- At the first region's exit: its arrays at what the pipeline leaves, every other buffer as entered. -/
def W4 (c : Dev nD) : Valuation τ sig (Elt F) :=
  Pipeline.withArrays spec0 c (Gen.V3 m c) fun w => (dat0 (V3r m) c).arrAt w cfg0.N
theorem W4_arr (c : Dev nD) (w : Fin cfg0.W) :
    W4 m c (Proc.devRef .tc (Pipeline.arrRef spec0 w)) = (dat0 (V3r m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = Gen.V3 m c (Proc.devRef .tc b) := by
  unfold W4; exact Pipeline.withArrays_of_ne spec0 c _ _ b hb
abbrev V4r : (c : Dev nD) → (b : Ref sig .tc) → Buf (Elt F) ((c : Thread nD τ).loc b) := fun c b => W4 m c b
theorem hF0 (c : Dev nD) (w : Fin cfg0.W) : (dat0 (V3r m) c).arrAt w cfg0.N = V4r m c (Pipeline.arrRef spec0 w) :=
  (W4_arr m c w).symm
theorem hrest0 (c : Dev nD) : ∀ b, b ∉ Finset.univ.image (Pipeline.arrRef spec0) → V4r m c b = V3r m c b :=
  fun b hb => W4_of_ne m c b fun w e => hb (Finset.mem_image.mpr ⟨w, Finset.mem_univ _, e⟩)

/-- After the fourth host stretch: the second region's entry. -/
abbrev W5 : Dev nD → Valuation τ sig (Elt F) := fun c => StableHlo.after hostOps1 (W4 m c)
abbrev V5r : (c : Dev nD) → (b : Ref sig .tc) → Buf (Elt F) ((c : Thread nD τ).loc b) := fun c b => W5 m c b
/-- At the second region's exit. -/
def W6 (c : Dev nD) : Valuation τ sig (Elt F) :=
  Pipeline.withArrays spec1 c (W5 m c) fun w => (dat1 (V5r m) c).arrAt w cfg1.N
theorem W6_arr (c : Dev nD) (w : Fin cfg1.W) :
    W6 m c (Proc.devRef .tc (Pipeline.arrRef spec1 w)) = (dat1 (V5r m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev V6r : (c : Dev nD) → (b : Ref sig .tc) → Buf (Elt F) ((c : Thread nD τ).loc b) := fun c b => W6 m c b
theorem hF1 (c : Dev nD) (w : Fin cfg1.W) : (dat1 (V5r m) c).arrAt w cfg1.N = V6r m c (Pipeline.arrRef spec1 w) :=
  (W6_arr m c w).symm
theorem hrest1 (c : Dev nD) : ∀ b, b ∉ Finset.univ.image (Pipeline.arrRef spec1) → V6r m c b = V5r m c b :=
  fun b hb => W6_of_ne m c b fun w e => hb (Finset.mem_image.mpr ⟨w, Finset.mem_univ _, e⟩)

/-! ## The arguments end as launched -/

theorem W6_main_arg0 (c : Dev nD) : W6 m c (Proc.devRef .tc main_arg0) = m ((c : Thread nD τ).loc main_arg0) :=
  calc W6 m c (Proc.devRef .tc main_arg0)
    _ = W5 m c (Proc.devRef .tc main_arg0) := W6_of_ne m c main_arg0 (by decide)
    _ = W4 m c (Proc.devRef .tc main_arg0) := StableHlo.after_of_writes_sub hostOps1 _ hostOps1_writes (r := main_arg0) (by decide)
    _ = Gen.V3 m c (Proc.devRef .tc main_arg0) := W4_of_ne m c main_arg0 (by decide)
    _ = m ((c : Thread nD τ).loc main_arg0) :=
      (Gen.V3_of m c main_arg0 (by decide)).trans ((Gen.V2_of m c main_arg0 (by decide)).trans ((Gen.V1_of m c main_arg0 (by decide)).trans rfl))

theorem W6_main_arg1 (c : Dev nD) : W6 m c (Proc.devRef .tc main_arg1) = m ((c : Thread nD τ).loc main_arg1) :=
  calc W6 m c (Proc.devRef .tc main_arg1)
    _ = W5 m c (Proc.devRef .tc main_arg1) := W6_of_ne m c main_arg1 (by decide)
    _ = W4 m c (Proc.devRef .tc main_arg1) := StableHlo.after_of_writes_sub hostOps1 _ hostOps1_writes (r := main_arg1) (by decide)
    _ = Gen.V3 m c (Proc.devRef .tc main_arg1) := W4_of_ne m c main_arg1 (by decide)
    _ = m ((c : Thread nD τ).loc main_arg1) :=
      (Gen.V3_of m c main_arg1 (by decide)).trans ((Gen.V2_of m c main_arg1 (by decide)).trans ((Gen.V1_of m c main_arg1 (by decide)).trans rfl))

theorem W6_main_arg2 (c : Dev nD) : W6 m c (Proc.devRef .tc main_arg2) = m ((c : Thread nD τ).loc main_arg2) :=
  calc W6 m c (Proc.devRef .tc main_arg2)
    _ = W5 m c (Proc.devRef .tc main_arg2) := W6_of_ne m c main_arg2 (by decide)
    _ = W4 m c (Proc.devRef .tc main_arg2) := StableHlo.after_of_writes_sub hostOps1 _ hostOps1_writes (r := main_arg2) (by decide)
    _ = Gen.V3 m c (Proc.devRef .tc main_arg2) := (W4_arr m c 2).trans (((dat0 (V3r m) c).arrAt_in 2 rfl _).trans (A_eq0 (V3r m) c 2))
    _ = m ((c : Thread nD τ).loc main_arg2) :=
      (Gen.V3_of m c main_arg2 (by decide)).trans ((Gen.V2_of m c main_arg2 (by decide)).trans ((Gen.V1_of m c main_arg2 (by decide)).trans rfl))

theorem W6_main_arg3 (c : Dev nD) : W6 m c (Proc.devRef .tc main_arg3) = m ((c : Thread nD τ).loc main_arg3) :=
  calc W6 m c (Proc.devRef .tc main_arg3)
    _ = W5 m c (Proc.devRef .tc main_arg3) := W6_of_ne m c main_arg3 (by decide)
    _ = W4 m c (Proc.devRef .tc main_arg3) := StableHlo.after_of_writes_sub hostOps1 _ hostOps1_writes (r := main_arg3) (by decide)
    _ = Gen.V3 m c (Proc.devRef .tc main_arg3) := W4_of_ne m c main_arg3 (by decide)
    _ = m ((c : Thread nD τ).loc main_arg3) :=
      (Gen.V3_of m c main_arg3 (by decide)).trans ((Gen.V2_of m c main_arg3 (by decide)).trans ((Gen.V1_of m c main_arg3 (by decide)).trans rfl))

theorem W6_main_arg4 (c : Dev nD) : W6 m c (Proc.devRef .tc main_arg4) = m ((c : Thread nD τ).loc main_arg4) :=
  calc W6 m c (Proc.devRef .tc main_arg4)
    _ = W5 m c (Proc.devRef .tc main_arg4) := W6_of_ne m c main_arg4 (by decide)
    _ = W4 m c (Proc.devRef .tc main_arg4) := StableHlo.after_of_writes_sub hostOps1 _ hostOps1_writes (r := main_arg4) (by decide)
    _ = Gen.V3 m c (Proc.devRef .tc main_arg4) := (W4_arr m c 4).trans (((dat0 (V3r m) c).arrAt_in 4 rfl _).trans (A_eq0 (V3r m) c 4))
    _ = m ((c : Thread nD τ).loc main_arg4) :=
      (Gen.V3_of m c main_arg4 (by decide)).trans ((Gen.V2_of m c main_arg4 (by decide)).trans ((Gen.V1_of m c main_arg4 (by decide)).trans rfl))

theorem W6_main_arg5 (c : Dev nD) : W6 m c (Proc.devRef .tc main_arg5) = m ((c : Thread nD τ).loc main_arg5) :=
  calc W6 m c (Proc.devRef .tc main_arg5)
    _ = W5 m c (Proc.devRef .tc main_arg5) := W6_of_ne m c main_arg5 (by decide)
    _ = W4 m c (Proc.devRef .tc main_arg5) := StableHlo.after_of_writes_sub hostOps1 _ hostOps1_writes (r := main_arg5) (by decide)
    _ = Gen.V3 m c (Proc.devRef .tc main_arg5) := W4_of_ne m c main_arg5 (by decide)
    _ = m ((c : Thread nD τ).loc main_arg5) :=
      (Gen.V3_of m c main_arg5 (by decide)).trans ((Gen.V2_of m c main_arg5 (by decide)).trans ((Gen.V1_of m c main_arg5 (by decide)).trans rfl))

theorem W6_main_arg6 (c : Dev nD) : W6 m c (Proc.devRef .tc main_arg6) = m ((c : Thread nD τ).loc main_arg6) :=
  calc W6 m c (Proc.devRef .tc main_arg6)
    _ = W5 m c (Proc.devRef .tc main_arg6) := (W6_arr m c 3).trans (((dat1 (V5r m) c).arrAt_in 3 rfl _).trans (A_eq1 (V5r m) c 3))
    _ = W4 m c (Proc.devRef .tc main_arg6) := StableHlo.after_of_writes_sub hostOps1 _ hostOps1_writes (r := main_arg6) (by decide)
    _ = Gen.V3 m c (Proc.devRef .tc main_arg6) := W4_of_ne m c main_arg6 (by decide)
    _ = m ((c : Thread nD τ).loc main_arg6) :=
      (Gen.V3_of m c main_arg6 (by decide)).trans ((Gen.V2_of m c main_arg6 (by decide)).trans ((Gen.V1_of m c main_arg6 (by decide)).trans rfl))

theorem W6_main_arg7 (c : Dev nD) : W6 m c (Proc.devRef .tc main_arg7) = m ((c : Thread nD τ).loc main_arg7) :=
  calc W6 m c (Proc.devRef .tc main_arg7)
    _ = W5 m c (Proc.devRef .tc main_arg7) := W6_of_ne m c main_arg7 (by decide)
    _ = W4 m c (Proc.devRef .tc main_arg7) := StableHlo.after_of_writes_sub hostOps1 _ hostOps1_writes (r := main_arg7) (by decide)
    _ = Gen.V3 m c (Proc.devRef .tc main_arg7) := W4_of_ne m c main_arg7 (by decide)
    _ = m ((c : Thread nD τ).loc main_arg7) :=
      (Gen.V3_of m c main_arg7 (by decide)).trans ((Gen.V2_of m c main_arg7 (by decide)).trans ((Gen.V1_of m c main_arg7 (by decide)).trans rfl))

/-- The result array ends at what the second region's write-back leaves. -/
theorem W6_main_v44 (c : Dev nD) : W6 m c (Proc.devRef .tc main_v44) = (dat1 (V5r m) c).arrAt 5 cfg1.N := W6_arr m c 5

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V3r m) c
  | ⟨1, _⟩ => fun c => dat1 (V5r m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3r m) c).loose
  hwaits := Pipeline.hwaits_of_owed_zero _ _ _ _ L lv 0 fun _ _ => rfl
  pre c := iprop(StableHlo.held (c : Thread nD τ) (Pipeline.ucRefs τ sig) (Gen.V3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (V3r m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V3r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V3r m c) (V4r m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5r m) c).loose
  hwaits := Pipeline.hwaits_of_owed_zero _ _ _ _ L lv 1 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V5r m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V5r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (V5r m) c).Φ 0 from rfl]
    iintro ⟨Hp, -, Hr⟩
    iapply (hin1 (V5r m) c)
    unfold Pipeline.ΦA
    isplitl [Hr]; · iexact Hr
    iexact Hp
  hout c := by
    rw [Pipeline.ownSems0_none]
    have h2 : (Pipeline.ΦA spec1 c : sProp 𝕄) ⊢ iprop((∃ r, prngReg c r) ∗ BI.emp ∗ Pipeline.scopedRest spec1 c) := by
      unfold Pipeline.ΦA
      iintro ⟨Hr, Hp⟩
      isplitl [Hp]; · iexact Hp
      isplitr; · iempintro
      iexact Hr
    rw [show (pdats m 1 c).Φ (Fin.last _) = (dat1 (V5r m) c).Φ (Fin.last cfg1.N) from rfl]
    exact (hout1 (V5r m) c).trans h2
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V5r m c) (V6r m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg hostOps0 hostOps0_sub Gen.hostOps0_fresh (Gen.V0 m)),
    .host (hseg hostOps0_1 hostOps0_1_sub Gen.hostOps0_1_fresh (Gen.V1 m)),
    .host (hseg hostOps0_2 hostOps0_2_sub Gen.hostOps0_2_fresh (Gen.V2 m)),
    .region (reg0 m),
    .host (hseg hostOps1 hostOps1_sub Gen.hostOps1_fresh (W4 m)),
    .region (reg1 m) ]

theorem main_run (c : Dev nD) : main (F := F) c = Pipeline.Seg.run (segs m) := (main_chain c).trans (by chain_rfl)

set_option backward.isDefEq.respectTransparency.types false in
/-- Every weakly fair execution of @main from memory `m` with zero counters terminates, nothing faulting, with every
    unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

/-- The run with the result array and the argument arrays named. -/
theorem run_named : θ_run defs (onTc (τ := τ) (main (F := F))) ⟨m, fun _ => 0, ρ⟩ (fun r => ∀ c : Dev nD,
      r.2.mem ((c.tc : Thread nD τ).loc main_v44) = (dat1 (V5r m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_v44 (by decide))).trans (W6_main_v44 m c),
     (h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c),
     (h c _ (mem_uc main_arg4 (by decide))).trans (W6_main_arg4 m c),
     (h c _ (mem_uc main_arg5 (by decide))).trans (W6_main_arg5 m c),
     (h c _ (mem_uc main_arg6 (by decide))).trans (W6_main_arg6 m c),
     (h c _ (mem_uc main_arg7 (by decide))).trans (W6_main_arg7 m c)⟩) (run_all m ρ)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => (h c).2) (run_named m ρ)

end Cert.KernelIdeal.Run

end
-- ==== Proof.KerVal1.lean ====
/-
  What the second region computes, as values, at any float instance: the pieces its three cases' stores leave, read
  back, are the skeleton's payloads of the point's blocks — the accumulator row after a point is the update payload of
  the point's blocks over the row the point found (the zero row at the first point), and the output row after the last
  point is the head payload of that point's accumulator row; the result array, whose one block is the whole array and
  is written back after the last point only, ends holding that output row.
-/
import proofs.«130671_j88399016886916_2_alg».proof.Proof.RunR1d
import Idealize.ShloMosaic.Lib.Pipeline.Value

set_option maxRecDepth 16384
set_option pp.maxSteps 8000
set_option pp.deepTerms false

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

theorem hz2 : (![0, 0] : Fin 2 → Nat) = fun _ => 0 := funext fun a => by fin_cases a <;> rfl

/-- A middle point's accumulator row: the update payload of the point's blocks over the row found. -/
theorem sB_eq (c : Dev nD) (t : Fin cfg1.N) (h0 : t.val ≠ 0) (h9 : t.val ≠ 9) (xs : Vec F S1x64 .f32) :
    sB V c t h0 h9 xs = k1_pay2 (iblk1 V c 1 t) (iblk1 V c 0 t) (iblk1 V c 2 t) xs := by
  unfold sB
  rw [View.read_writes_eq_canon _ _ _ (scoverB V c t h0 h9 xs)]
  unfold kernelRun1_B
  dsimp only
  rw [View.canon_unit_zero hz2]
  simp only [View.readAt_eq_ld, Memref.IsWhole.read_unread, View.ld_unit_zero (S := S5000x1) hz2,
    View.ld_unit_zero (S := S5000x64) hz2, View.ld_unit_zero (S := S1x64) hz2, View.ld_unit_zero (S := S64x4) hz2,
    View.ld_unit_zero (S := S1x4) hz2]
  first
    | rfl
    | exact congrArg (k1_pay2 _ _ _) ((Memref.isWhole_whole cc1_scratch0).read_unread xs)

/-- The first point's accumulator row: the update payload over the zero row. -/
theorem sA_eq (c : Dev nD) (t : Fin cfg1.N) (h0 : t.val = 0) (h9 : t.val ≠ 9) :
    sA V c t h0 h9 = k1_pay2 (iblk1 V c 1 t) (iblk1 V c 0 t) (iblk1 V c 2 t) (k1_pay1 (F := F)) := by
  unfold sA
  rw [View.read_writes_eq_canon _ _ _ (scoverA V c t h0 h9)]
  unfold kernelRun1_A
  dsimp only
  sl_unfold_words
  rw [View.canon_cons_unit_zero (S := S1x64) hz2, View.readCov_unit_zero (S := S1x64) _ hz2]
  simp only [View.readAt_eq_ld, Memref.IsWhole.read_unread, View.ld_unit_zero (S := S5000x1) hz2,
    View.ld_unit_zero (S := S5000x64) hz2, View.ld_unit_zero (S := S1x64) hz2, View.ld_unit_zero (S := S64x4) hz2,
    View.ld_unit_zero (S := S1x4) hz2]

/-- The last point's accumulator row. -/
theorem sC_eq (c : Dev nD) (t : Fin cfg1.N) (h0 : t.val ≠ 0) (h9 : t.val = 9) (xs : Vec F S1x64 .f32) :
    sC V c t h0 h9 xs = k1_pay2 (iblk1 V c 1 t) (iblk1 V c 0 t) (iblk1 V c 2 t) xs := by
  unfold sC
  rw [View.read_writes_eq_canon _ _ _ (scoverC V c t h0 h9 xs)]
  unfold kernelRun1_C
  dsimp only
  sl_unfold_words
  rw [View.canon_unit_zero hz2]
  simp only [View.readAt_eq_ld, Memref.IsWhole.read_unread, View.ld_unit_zero (S := S5000x1) hz2,
    View.ld_unit_zero (S := S5000x64) hz2, View.ld_unit_zero (S := S1x64) hz2, View.ld_unit_zero (S := S64x4) hz2,
    View.ld_unit_zero (S := S1x4) hz2]
  first
    | rfl
    | exact congrArg (k1_pay2 _ _ _) ((Memref.isWhole_whole cc1_scratch0).read_unread xs)

/-- The last point's output row: the head payload of that point's accumulator row. -/
theorem oC_eq (c : Dev nD) (t : Fin cfg1.N) (h0 : t.val ≠ 0) (h9 : t.val = 9) (xs : Vec F S1x64 .f32) :
    oC V c t h0 h9 xs = k1_pay3 (k1_pay2 (iblk1 V c 1 t) (iblk1 V c 0 t) (iblk1 V c 2 t) xs) (iblk1 V c 3 t) (iblk1 V c 4 t) := by
  unfold oC
  rw [View.read_writes_eq_canon _ _ _ (coverC V c t h0 h9 xs)]
  unfold kernelRun1_C
  dsimp only
  sl_unfold_words
  rw [View.canon_unit_zero hz2, View.readCov_unit_zero (S := S1x64) _ hz2]
  simp only [View.readAt_eq_ld, Memref.IsWhole.read_unread, View.ld_unit_zero (S := S5000x1) hz2,
    View.ld_unit_zero (S := S5000x64) hz2, View.ld_unit_zero (S := S1x64) hz2, View.ld_unit_zero (S := S64x4) hz2,
    View.ld_unit_zero (S := S1x4) hz2]
  first
    | rfl
    | exact congrArg (fun z => k1_pay3 (k1_pay2 _ _ _ z) _ _) ((Memref.isWhole_whole cc1_scratch0).read_unread xs)

/-! ## The result array -/

theorem val_t1_9 : (t1_9 : Fin cfg1.N).val = 9 := rfl

/-- The accumulator row after the last point. -/
abbrev accLast (c : Dev nD) : Vec F S1x64 .f32 := accAt V c 9 (by rw [show cfg1.N = 10 from N_1]; decide)

/-- The output row the last point stores, as contents of the result array (its one block is the array). -/
abbrev result1 (c : Dev nD) : Buf (Elt F) ((c : Thread nD τ).loc main_v44) :=
  k1_pay3 (accLast V c) (iblk1 V c 3 t1_9) (iblk1 V c 4 t1_9)

theorem outAt_last (c : Dev nD) : outAt V c t1_9 = result1 V c := by
  rw [outAt_C V c t1_9 (by decide) val_t1_9, oC_eq]
  exact congrArg (fun z => k1_pay3 z (iblk1 V c 3 t1_9) (iblk1 V c 4 t1_9))
    (((accAt_C V c t1_9 (by decide) val_t1_9).trans (sC_eq V c t1_9 (by decide) val_t1_9 _)).symm)

/-- The one write-back, after the last point, writes it. -/
theorem flushed1_eq (c : Dev nD) (t : Fin cfg1.N) (hf : (cfg1.win 5).flush t = true) :
    (dat1 V c).flushed 5 t = ((cfg1.win 5).blk t).view.read (Elt F) (result1 V c) := by
  have hN : cfg1.N = 10 := N_1
  have h9 : t.val = 9 := by have := (flush1_5 t).mp hf; have := t.isLt; omega
  obtain rfl : t = t1_9 := Fin.ext h9
  show (cfg1.win 5).cut (grid1.coords t1_9) ((dat1 V c).after 5 t1_9) = _
  rw [after1_5, outAt_last]
  have hz' : (fun a => win1_5.index t1_9 a * main_v44.ty.shape.size a) = fun _ => 0 := funext fun a => by fin_cases a <;> decide
  exact (Memref.read_access_unit_zero (Elt F) main_v44 hz' (fun a => by rw [congrFun hz' a]; simp) (result1 V c)).symm

/-- So the result array ends holding the output row the last point stores. -/
theorem final1 (c : Dev nD) : (dat1 V c).arrAt 5 cfg1.N = result1 V c :=
  (dat1 V c).arrAt_eq_of_cover 5 (result1 V c) (flushed1_eq V c) fun i =>
    ⟨t1_9, (flush1_5 t1_9).mpr rfl, by
      show i ∈ ((View.whole main_v44).slice (win1_5.rect t1_9)).set
      rw [View.set_slice_whole, Rect.mem_set_unit]
      intro a
      have h0 : (i 0 : Nat) < 1 := (i 0).isLt
      have h1 : (i 1 : Nat) < 4 := (i 1).isLt
      match a with
      | ⟨0, _⟩ => show win1_5.index t1_9 0 * win1_5.size 0 ≤ (i 0 : Nat) ∧ (i 0 : Nat) < win1_5.index t1_9 0 * win1_5.size 0 + win1_5.xsize (grid1.coords t1_9) 0
                  rw [show win1_5.index t1_9 0 * win1_5.size 0 = 0 from by decide +kernel, show win1_5.xsize (grid1.coords t1_9) 0 = 1 from by decide +kernel]; omega
      | ⟨1, _⟩ => show win1_5.index t1_9 1 * win1_5.size 1 ≤ (i 1 : Nat) ∧ (i 1 : Nat) < win1_5.index t1_9 1 * win1_5.size 1 + win1_5.xsize (grid1.coords t1_9) 1
                  rw [show win1_5.index t1_9 1 * win1_5.size 1 = 0 from by decide +kernel, show win1_5.xsize (grid1.coords t1_9) 1 = 4 from by decide +kernel]; omega⟩

/-- The accumulator row point by point: the update payload over the zero row, then over the row before. -/
theorem accAt_zero (c : Dev nD) (h : 0 < cfg1.N) :
    accAt V c 0 h = k1_pay2 (iblk1 V c 1 ⟨0, h⟩) (iblk1 V c 0 ⟨0, h⟩) (iblk1 V c 2 ⟨0, h⟩) (k1_pay1 (F := F)) :=
  (accAt_A V c ⟨0, h⟩ rfl (by show (0 : ℕ) ≠ 9; omega)).trans (sA_eq V c ⟨0, h⟩ rfl _)

theorem accAt_succ (c : Dev nD) (n : ℕ) (h : n + 1 < cfg1.N) :
    accAt V c (n + 1) h = k1_pay2 (iblk1 V c 1 ⟨n + 1, h⟩) (iblk1 V c 0 ⟨n + 1, h⟩) (iblk1 V c 2 ⟨n + 1, h⟩)
      (accAt V c n (Nat.lt_of_succ_lt h)) := by
  by_cases h9 : n + 1 = 9
  · exact (accAt_C V c ⟨n + 1, h⟩ (Nat.succ_ne_zero n) h9).trans (sC_eq V c ⟨n + 1, h⟩ (Nat.succ_ne_zero n) h9 _)
  · exact (accAt_B V c ⟨n + 1, h⟩ (Nat.succ_ne_zero n) h9).trans (sB_eq V c ⟨n + 1, h⟩ (Nat.succ_ne_zero n) h9 _)

end Cert.KernelIdeal.Run

end
-- ==== Proof.LibGcnSpec.lean ====
/-
  Two arrangements of a two-layer graph convolution with symmetric normalisation, mean pooling and a
  classifier head, as plain functions.

  An edge list is given as it is resolved on both sides: every edge `e` has a source node `src e` (the row a
  gather by the edge's first endpoint reads), a node `tgt e` (the row a gather by its second endpoint reads), and
  every node `n` the finite set `lands n` of the edges a scatter-add by the second endpoint adds into row `n`;
  an edge that lands on `n` has `tgt e = n`.

  With `d` the inverse square roots of the degrees, the first arrangement scales by `d n` OUTSIDE the sum over the
  edges landing on `n` (and folds the rank-one first layer into one scalar sum per node); the second scales every
  edge's message by `d (src e) * d (tgt e)` INSIDE the sum. Over the reals the two agree (`pool_eq`): on the edges
  landing on `n` the factor `d (tgt e)` is the constant `d n`, and a constant factor moves across a finite sum.
  The head (`tail`) — a product with the classifier weights, a bias, and the logarithm of the softmax shifted by
  the largest logit — is stated on the extended reals, where both sides apply it to the same pooled vector.
-/
import Idealize.ShloMosaic.PureOps.Ideal
import Mathlib.Algebra.BigOperators.Fin
import Mathlib.Tactic.Ring

noncomputable section

namespace Cert.Gcn

open Idealize.ShloMosaic

/-- The edge list as both programs resolve it. -/
structure Edges (N M : ℕ) where
  src : Fin M → Fin N
  tgt : Fin M → Fin N
  lands : Fin N → Finset (Fin M)
  tgt_lands : ∀ n, ∀ e ∈ lands n, tgt e = n

variable {N M C Q : ℕ} (g : Edges N M) (d x : Fin N → ℝ) (W1 b1 : Fin C → ℝ) (W2 : Fin C → Fin C → ℝ)
  (b2 : Fin C → ℝ)

/-! ## The arrangement with the normalisation outside the sums -/

/-- The scalar first-layer aggregate of node `n`. -/
def kS (n : Fin N) : ℝ := ∑ e ∈ g.lands n, d (g.src e) * x (g.src e)
/-- The first layer's output. -/
def kH1 (n : Fin N) (k : Fin C) : ℝ := max (d n * kS g d x n * W1 k + b1 k) 0
/-- The second layer's product, pre-scaled by the sender's factor. -/
def kH2 (n : Fin N) (c : Fin C) : ℝ := d n * ∑ k, kH1 g d x W1 b1 n k * W2 k c
/-- Its aggregate over the edges landing on `n`. -/
def kA2 (n : Fin N) (c : Fin C) : ℝ := ∑ e ∈ g.lands n, kH2 g d x W1 b1 W2 (g.src e) c
/-- The second layer's output. -/
def kOut (n : Fin N) (c : Fin C) : ℝ := max (d n * kA2 g d x W1 b1 W2 n c + b2 c) 0
/-- The pooled vector: the column sums times `1 / 50000`. -/
def kPool (c : Fin C) : ℝ := (∑ n, kOut g d x W1 b1 W2 b2 n c) * (1 / 50000)

/-! ## The arrangement with the normalisation inside the sums -/

/-- The first layer's aggregate. -/
def rB1 (n : Fin N) (k : Fin C) : ℝ := ∑ e ∈ g.lands n, (d (g.src e) * d (g.tgt e)) * (x (g.src e) * W1 k)
def rH1 (n : Fin N) (k : Fin C) : ℝ := max (rB1 g d x W1 n k + b1 k) 0
def rP2 (n : Fin N) (c : Fin C) : ℝ := ∑ k, rH1 g d x W1 b1 n k * W2 k c
def rB2 (n : Fin N) (c : Fin C) : ℝ := ∑ e ∈ g.lands n, (d (g.src e) * d (g.tgt e)) * rP2 g d x W1 b1 W2 (g.src e) c
def rOut (n : Fin N) (c : Fin C) : ℝ := max (rB2 g d x W1 b1 W2 n c + b2 c) 0
/-- The pooled vector: the column sums divided by `50000`. -/
def rPool (c : Fin C) : ℝ := (∑ n, rOut g d x W1 b1 W2 b2 n c) / 50000

/-! ## The two arrangements agree -/

theorem rB1_eq (n : Fin N) (k : Fin C) : rB1 g d x W1 n k = d n * kS g d x n * W1 k := by
  unfold rB1 kS
  rw [Finset.mul_sum, Finset.sum_mul]
  refine Finset.sum_congr rfl fun e he => ?_
  rw [g.tgt_lands n e he]; ring

theorem rH1_eq (n : Fin N) (k : Fin C) : rH1 g d x W1 b1 n k = kH1 g d x W1 b1 n k := by
  unfold rH1 kH1; rw [rB1_eq]

theorem rB2_eq (n : Fin N) (c : Fin C) : rB2 g d x W1 b1 W2 n c = d n * kA2 g d x W1 b1 W2 n c := by
  unfold rB2 kA2
  rw [Finset.mul_sum]
  refine Finset.sum_congr rfl fun e he => ?_
  rw [g.tgt_lands n e he]
  unfold kH2 rP2
  simp only [rH1_eq]
  ring

theorem rOut_eq (n : Fin N) (c : Fin C) : rOut g d x W1 b1 W2 b2 n c = kOut g d x W1 b1 W2 b2 n c := by
  unfold rOut kOut; rw [rB2_eq]

/-- The pooled vectors agree. -/
theorem pool_eq (c : Fin C) : kPool g d x W1 b1 W2 b2 c = rPool g d x W1 b1 W2 b2 c := by
  unfold kPool rPool
  simp only [rOut_eq]
  ring

/-! ## The head, on the extended reals -/

/-- The logits of a pooled vector. -/
def logits (p : Fin C → EReal) (Wfc : Fin C → Fin Q → EReal) (bfc : Fin Q → EReal) (q : Fin Q) : EReal :=
  (∑ c, p c * Wfc c q) + bfc q

/-- The shift: the largest logit, a fold of `max` from the value of the word of −∞, once more against that value. -/
def shift (L : Fin Q → EReal) : EReal :=
  max (Ideal.ofBits .f32 0xFF800000#32) ((Finset.univ : Finset (Fin Q)).fold max (Ideal.ofBits .f32 0xFF800000#32) L)

/-- The head: the logarithm of the softmax of the logits, shifted by the largest one. -/
def tail (p : Fin C → EReal) (Wfc : Fin C → Fin Q → EReal) (bfc : Fin Q → EReal) (j : Fin Q) : EReal :=
  (logits p Wfc bfc j - shift (logits p Wfc bfc))
    - Ideal.log (∑ q, Ideal.exp (logits p Wfc bfc q - shift (logits p Wfc bfc)))

end Cert.Gcn

end
-- ==== Proof.LibPlainDot.lean ====
/-
  A plain matrix product read at one entry.

  For the dimension numbers of an `M × K` by `K × N` product (the left operand contracted on its columns, the
  right on its rows, no batch axis) the entry at row `p`, column `q` of a `tpu.matmul` into the zero
  accumulator, and of the host's `dot_general`, is at the ideal values the sum over `k` of the left operand at
  `(p, k)` times the right operand at `(k, q)`. The contraction index of the dimension numbers is re-indexed by
  its one coordinate, so the sum runs over the literal `Fin K`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : Nat}

/-- The left operand's index at output entry `(p, q)` and contraction position `k` is `(p, k)`. -/
theorem lhsIdx_plain (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p q) _).trans hk

/-- The right operand's index at output entry `(p, q)` and contraction position `k` is `(k, q)`. -/
theorem rhsIdx_plain (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 p q) _).trans hk
  | ⟨1, _⟩ => rfl

/-- A `tpu.matmul` into the zero accumulator, at entry `(p, q)`. -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  exact Finset.sum_congr rfl fun k _ => by rw [lhsIdx_plain, rhsIdx_plain]

/-- The host's `dot_general`, at entry `(p, q)`. -/
theorem dotGeneral_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  exact Finset.sum_congr rfl fun k _ => by rw [lhsIdx_plain, rhsIdx_plain]

end Cert.Lib.PlainDot

end
-- ==== Proof.LibColumn.lean ====
/-
  General facts about a column of row values, read at an entry.

  * A vector of length `M` viewed as an `M × 1` column reads, at `(p, 0)`, the vector at `p` (`col_apply`).
  * An `M × 1` column repeated along `N` lanes reads, at `(p, q)`, the column at `(p, 0)` (`colBroadcast_apply`).
  * Summing an `M × 1` column down its rows gives, at the one entry, the sum of the column's entries (`colSum_apply`).
-/
import Idealize.ShloMosaic.Lib.ValueIdx
import Idealize.ShloMosaic.Lib.Pipeline.Value
import Idealize.ShloMosaic.PureOps.Ideal.Laws

noncomputable section

open scoped BigOperators

namespace Cert.Lib.Column

open Idealize.ShloMosaic Idealize.ShloMosaic.ValueIdx

variable {α : Type} {M N : Nat}

/-- A vector of length `M` viewed as an `M × 1` column: at `(p, 0)`, the vector at `p`. -/
theorem col_apply (v : (⟨1, ![M]⟩ : Shape).Idx → α) (hc : (⟨1, ![M]⟩ : Shape).ShapeCasts ⟨2, ![M, 1]⟩) (p : Fin M) :
    shapeCast ⟨2, ![M, 1]⟩ v hc (ix2 p (0 : Fin 1)) = v (ix1 p) := by
  refine shapeCast_apply v hc (ix2 p (0 : Fin 1)) (ix1 p) ?_
  rw [Shape.rowMajor_val_one, Shape.rowMajor_val_two]
  show p.val = p.val * 1 + 0
  omega

/-- An `M × 1` column repeated along `N` lanes: at `(p, q)`, the column at `(p, 0)`. -/
theorem colBroadcast_apply (v : (⟨2, ![M, 1]⟩ : Shape).Idx → α) (hb : (⟨2, ![M, 1]⟩ : Shape).Broadcasts ⟨2, ![M, N]⟩)
    (p : Fin M) (q : Fin N) :
    broadcastTo ⟨2, ![M, N]⟩ v hb (ix2 p q) = v (ix2 p (0 : Fin 1)) := by
  refine broadcastTo_apply _ hb (ix2 p q) (ix2 p (0 : Fin 1)) (fun a => ?_)
  match a with
  | ⟨0, _⟩ =>
    show p.val = if M = 1 then 0 else p.val
    split
    · have := p.isLt; omega
    · rfl
  | ⟨1, _⟩ => exact (if_pos rfl).symm

/-- Over the one entry of the result, the index with `k` put on the row axis is `(k, 0)`. -/
theorem lift_col (h : (⟨2, ![M, 1]⟩ : Shape).Reduces [0] ⟨1, ![1]⟩) (k : Fin M) :
    h.lift (ix1 (0 : Fin 1)) k = ix2 k (0 : Fin 1) := by
  funext a
  apply Fin.ext
  match a with
  | ⟨0, _⟩ => rfl
  | ⟨1, _⟩ => rfl

/-- The sum of an `M × 1` column down its rows. -/
theorem colSum_apply {φ : FTy} (src : FVec Ideal ⟨2, ![M, 1]⟩ φ) (acc : BitVec φ.bits)
    (h : (⟨2, ![M, 1]⟩ : Shape).Reduces [0] ⟨1, ![1]⟩) (hφ : FKind.Formats φ) (hacc : acc = FKind.add.neutral φ hφ) :
    multiReduction .add [0] ⟨1, ![1]⟩ src acc h hφ hacc (ix1 (0 : Fin 1)) = ∑ k : Fin M, src (ix2 k (0 : Fin 1)) := by
  rw [Ideal.multiReduction_add_single]
  exact Finset.sum_congr rfl fun k _ => congrArg src (lift_col h k)

end Cert.Lib.Column

end
-- ==== Proof.KerBody1.lean ====
/-
  The second kernel body's arithmetic, read at one entry.

  The body keeps a 1 × 64 row of running column sums. Its first store puts the zero row there. For a block of 5000 nodes
  it then adds to the row, in column `c`, the sum over the block's nodes `r` of `max (factor r · aggregate (r, c) + b2 c) 0`.
  On the last block it scales the row by the constant 1 / 50000, multiplies by the 64 × 4 classifier matrix, adds the
  classifier's bias and takes the logarithm of the softmax, shifted by the largest logit: the head of the specification.
-/
import proofs.«130671_j88399016886916_2_alg».proof.Proof.Gen.KernelIdeal.Skeleton
import proofs.«130671_j88399016886916_2_alg».proof.Proof.LibGcnSpec
import proofs.«130671_j88399016886916_2_alg».proof.Proof.LibPlainDot
import proofs.«130671_j88399016886916_2_alg».proof.Proof.LibColumn
import Idealize.ShloMosaic.Lib.ValueLayout
import Idealize.ShloMosaic.PureOps.IdealRules

noncomputable section

open scoped BigOperators

namespace Cert.Gcn.Ker

open Idealize.ShloMosaic Idealize.ShloMosaic.ValueIdx Cert.KernelIdeal Cert.KernelIdeal.Gen

/-- The zero word is the extended real `0`. -/
theorem ofBits_zero : (FloatOps.ofBits .f32 0x00000000#32 : Ideal .f32) = 0 := Ideal.ofBits_zero_f32

/-- The first store's row is zero everywhere. -/
theorem k1_pay1_apply (c : Fin 64) : k1_pay1 (F := Ideal) (ix2 0 c) = 0 := by
  unfold k1_pay1
  simp only [shapeCast_self, broadcast_apply]
  exact ofBits_zero

/-- Over a 5000 × 64 block reduced along its rows, the index with row `r` put back at column `c` is `(r, c)`. -/
theorem lift_rows (c : Fin 64) (r : Fin 5000) : reduces_S5000x64_S64.lift (ix1 c) r = ix2 r c := by
  funext a
  apply Fin.ext
  match a with
  | ⟨0, _⟩ => rfl
  | ⟨1, _⟩ => rfl

/-- The column sums of a 5000 × 64 block, from the zero word: at column `c`, the sum over the rows. -/
theorem colsum_apply (src : FVec Ideal S5000x64 .f32) (hφ : FKind.Formats .f32)
    (hacc : (0x00000000#32 : BitVec 32) = 0x00000000#32) (c : Fin 64) :
    multiReduction .add [0] S64 src 0x00000000#32 reduces_S5000x64_S64 hφ hacc (ix1 c)
      = ∑ r : Fin 5000, src (ix2 r c) := by
  refine (Ideal.multiReduction_add_single src 0x00000000#32 reduces_S5000x64_S64 hφ hacc (ix1 c)).trans ?_
  exact Finset.sum_congr rfl fun r _ => congrArg src (lift_rows c r)

/-- The accumulator's update at column `c`: the old entry plus the block's column sum of the second layer's output. -/
theorem k1_pay2_apply (v3 : Vec Ideal S5000x1 .f32) (v5 : Vec Ideal S5000x64 .f32) (v9 v15 : Vec Ideal S1x64 .f32)
    (c : Fin 64) :
    k1_pay2 (F := Ideal) v3 v5 v9 v15 (ix2 0 c)
      = v15 (ix2 0 c) + ∑ r : Fin 5000, max (v3 (ix2 r 0) * v5 (ix2 r c) + v9 (ix2 0 c)) 0 := by
  unfold k1_pay2
  simp only [shapeCast_self, addf_apply]
  rw [shapeCast_a_1a_apply, colsum_apply]
  congr 1
  refine Finset.sum_congr rfl fun r _ => ?_
  simp only [maximumf_apply, addf_apply, mulf_apply, broadcast_apply]
  rw [Cert.Lib.Column.colBroadcast_apply, broadcastTo_1b_ab_apply, ofBits_zero]

/-! ## The head -/

/-- The named constant is the real `1 / 50000`. -/
theorem inv_50000 :
    Named.named (F := Ideal) Cert.KernelIdeal.κ "inv_50000" (φ := .f32) 0x37A7C5AC#32 = ((1 / 50000 : ℝ) : EReal) :=
  IdealRules.named_const.ideal_named_scalar _ _ _ _ rfl

/-- The dimension numbers of the classifier's product are those of a plain 1 × 64 by 64 × 4 product. -/
theorem dot1_eq_plain : dot_S1x64_S64x4_S1x4_1_0_0_1_n_n = DotDims.plain 1 64 4 := rfl

/-- Over a 1 × 4 row reduced along its lanes, the index with lane `k` put back is `(0, k)`. -/
theorem lift_lanes (k : Fin 4) : reduces_S1x4_S1.lift (ix1 (0 : Fin 1)) k = ix2 (0 : Fin 1) k := by
  funext a
  apply Fin.ext
  match a with
  | ⟨0, _⟩ => rfl
  | ⟨1, _⟩ => rfl

/-- The largest entry of a 1 × 4 row, from the word of −∞: a fold of `max` over the lanes. -/
theorem rowmax_apply (src : FVec Ideal S1x4 .f32) (hφ : FKind.Formats .f32)
    (hacc : (0xFF800000#32 : BitVec 32) = 0xFF800000#32) :
    multiReduction .maximumf [1] S1 src 0xFF800000#32 reduces_S1x4_S1 hφ hacc (ix1 (0 : Fin 1))
      = (Finset.univ : Finset (Fin 4)).fold max (Ideal.ofBits .f32 0xFF800000#32) (fun k => src (ix2 (0 : Fin 1) k)) := by
  refine (Ideal.multiReduction_maximumf_single src 0xFF800000#32 reduces_S1x4_S1 hφ hacc (ix1 (0 : Fin 1))).trans ?_
  have h : (src ∘ reduces_S1x4_S1.lift (ix1 (0 : Fin 1))) = fun k : Fin 4 => src (ix2 (0 : Fin 1) k) :=
    funext fun k => congrArg src (lift_lanes k)
  exact congrArg (fun f : Fin 4 → EReal => (Finset.univ : Finset (Fin 4)).fold max (Ideal.ofBits .f32 0xFF800000#32) f) h

/-- The sum of a 1 × 4 row, from the zero word. -/
theorem rowsum_apply (src : FVec Ideal S1x4 .f32) (hφ : FKind.Formats .f32)
    (hacc : (0x00000000#32 : BitVec 32) = 0x00000000#32) :
    multiReduction .add [1] S1 src 0x00000000#32 reduces_S1x4_S1 hφ hacc (ix1 (0 : Fin 1))
      = ∑ k : Fin 4, src (ix2 (0 : Fin 1) k) := by
  refine (Ideal.multiReduction_add_single src 0x00000000#32 reduces_S1x4_S1 hφ hacc (ix1 (0 : Fin 1))).trans ?_
  exact Finset.sum_congr rfl fun k _ => congrArg src (lift_lanes k)

/-- The exponential and the logarithm of a vector, at an index. -/
theorem exp_at {s : Shape} {φ : FTy} (v : FVec Ideal s φ) (i : s.Idx) : Idealize.ShloMosaic.exp v i = Ideal.exp (v i) := rfl
theorem log_at {s : Shape} {φ : FTy} (v : FVec Ideal s φ) (i : s.Idx) : Idealize.ShloMosaic.log v i = Ideal.log (v i) := rfl

/-- The logits row at class `j`: the accumulated row times `1 / 50000`, times the classifier matrix, plus its bias. -/
theorem logits_apply (v25 : FVec Ideal S1x64 .f32) (v28 : FVec Ideal S64x4 .f32) (v30 : FVec Ideal S1x4 .f32) (j : Fin 4) :
    addf (matmul dot_S1x64_S64x4_S1x4_1_0_0_1_n_n none
        (mulf v25 (broadcast S1x64 (Named.named (F := Ideal) κ "inv_50000" (φ := .f32) 0x37A7C5AC#32))) v28
        (constant S1x4 .f32 0x00000000#32)) v30 (ix2 0 j)
      = Cert.Gcn.logits (fun c : Fin 64 => v25 (ix2 0 c) * ((1 / 50000 : ℝ) : EReal))
          (fun (c : Fin 64) (q : Fin 4) => v28 (ix2 c q)) (fun q : Fin 4 => v30 (ix2 0 q)) j := by
  unfold Cert.Gcn.logits
  simp only [addf_apply, matmul]
  rw [dot1_eq_plain, Cert.Lib.PlainDot.matmul_zero_apply]
  simp only [mulf_apply, broadcast_apply, inv_50000]

/-- The final store at class `j`: the head of the specification applied to the accumulated row times `1 / 50000`. -/
theorem k1_pay3_apply (v25 : Vec Ideal S1x64 .f32) (v28 : Vec Ideal S64x4 .f32) (v30 : Vec Ideal S1x4 .f32) (j : Fin 4) :
    k1_pay3 (F := Ideal) v25 v28 v30 (ix2 0 j)
      = Cert.Gcn.tail (fun c : Fin 64 => v25 (ix2 0 c) * ((1 / 50000 : ℝ) : EReal)) (fun (c : Fin 64) (q : Fin 4) => v28 (ix2 c q))
          (fun q : Fin 4 => v30 (ix2 0 q)) j := by
  unfold k1_pay3 Cert.Gcn.tail Cert.Gcn.shift
  simp only [shapeCast_self, subf_apply, Cert.Lib.Column.colBroadcast_apply, Cert.Lib.Column.col_apply, log_at, exp_at,
    maximumf_apply, broadcast_apply, logits_apply, Ideal.ofBits_def]
  rw [rowsum_apply]
  simp only [subf_apply, Cert.Lib.Column.colBroadcast_apply, Cert.Lib.Column.col_apply, exp_at, maximumf_apply,
    broadcast_apply, logits_apply, Ideal.ofBits_def]
  rw [rowmax_apply]
  simp only [logits_apply]

end Cert.Gcn.Ker

end
-- ==== Proof.LibRealOps.lean ====
/-
  The reals are closed under the ideal operations a normalisation uses.

  At the ideal instance a float is an extended real, and most laws that join two spellings of one formula (a variance,
  a product moved across a sum) hold only where every value is a REAL. These lemmas carry "is a real" through the
  operations, one value at a time, each naming the real the result is:
  * `rsqrt_coe_of_pos`: the reciprocal square root of a real `r > 0` is the real `(√r)⁻¹`, which is positive
    (`inv_sqrt_pos`); `rsqrt_add_eps`: so is that of `v + ε` for `v ≥ 0`, `ε > 0` (a variance plus its epsilon);
  * `coe_max`: the maximum of two reals; `dot_coe`: the inner product of two real rows; `sum_ones`: a sum of ones
    over a finite set is the number of its elements (a node's degree, counted by scattering ones);
  * `cmp_ogt_eq_one_iff`: the comparison `x > y` is the flag 1 exactly when `y < x`;
  * `gcn_coeff_coe`: the symmetric-normalisation coefficient `where(d > 0, rsqrt(max(d, 1)), 0)` of a real degree
    `d` is a real, and `gcn_coeff_nonneg`: it is non-negative — what lets it move across a neighbourhood sum.
-/
import Idealize.ShloMosaic.PureOps.Ideal
import Mathlib.Algebra.BigOperators.Fin
import Mathlib.Tactic.Linarith

noncomputable section

namespace ProofLib.RealOps

open Idealize.ShloMosaic

variable {ι : Type*}

/-- The inclusion of the reals in the extended reals commutes with finite sums. -/
theorem coe_sum (s : Finset ι) (f : ι → ℝ) : ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- The reciprocal square root of a positive real is the real `(√r)⁻¹`. -/
theorem rsqrt_coe_of_pos {r : ℝ} (hr : 0 < r) : Ideal.rsqrt (r : EReal) = (((Real.sqrt r)⁻¹ : ℝ) : EReal) := by
  rw [Ideal.rsqrt_coe, if_neg (not_lt.mpr hr.le), if_neg hr.ne']

/-- That real is positive. -/
theorem inv_sqrt_pos {r : ℝ} (hr : 0 < r) : 0 < (Real.sqrt r)⁻¹ := inv_pos.mpr (Real.sqrt_pos.mpr hr)

/-- The reciprocal square root of `v + ε`, `v ≥ 0` and `ε > 0` reals: a variance plus its epsilon. -/
theorem rsqrt_add_eps {v eps : ℝ} (hv : 0 ≤ v) (he : 0 < eps) :
    Ideal.rsqrt ((v : EReal) + (eps : EReal)) = (((Real.sqrt (v + eps))⁻¹ : ℝ) : EReal) := by
  rw [← EReal.coe_add, rsqrt_coe_of_pos (add_pos_of_nonneg_of_pos hv he)]

/-- The maximum of two reals, in the extended reals, is their real maximum. -/
theorem coe_max (x y : ℝ) : ((max x y : ℝ) : EReal) = max (x : EReal) (y : EReal) :=
  EReal.coe_strictMono.monotone.map_max

/-- The inner product of two real rows is the real inner product. -/
theorem dot_coe (s : Finset ι) (a b : ι → ℝ) :
    ∑ k ∈ s, (a k : EReal) * (b k : EReal) = ((∑ k ∈ s, a k * b k : ℝ) : EReal) := by
  rw [coe_sum]; exact Finset.sum_congr rfl fun k _ => (EReal.coe_mul _ _).symm

/-- A sum of ones over a finite set is the number of its elements. -/
theorem sum_ones (s : Finset ι) : ∑ _i ∈ s, (1 : EReal) = ((s.card : ℝ) : EReal) := by
  have h1 : ∑ _i ∈ s, (1 : EReal) = ∑ _i ∈ s, ((1 : ℝ) : EReal) := by simp
  rw [h1, ← coe_sum]; simp

/-- The comparison `x > y` is the flag 1 exactly when `y < x`. -/
theorem cmp_ogt_eq_one_iff (x y : EReal) : Ideal.cmp .ogt x y = 1#1 ↔ y < x := by
  unfold Ideal.cmp
  by_cases h : y < x <;> simp [h]

/-- The symmetric-normalisation coefficient of a real degree `d`: `(√(max d 1))⁻¹` where `d > 0`, else `0`. -/
def gcnCoeff (d : ℝ) : ℝ := if 0 < d then (Real.sqrt (max d 1))⁻¹ else 0

/-- `where(d > 0, rsqrt(max(d, 1)), 0)` at a real `d` is the real `gcnCoeff d`. -/
theorem gcn_coeff_coe (d : ℝ) :
    Scalar.select (Ideal.cmp .ogt (d : EReal) 0) (Ideal.rsqrt (max (d : EReal) 1)) (0 : EReal) = ((gcnCoeff d : ℝ) : EReal) := by
  have h1 : (1 : EReal) = ((1 : ℝ) : EReal) := EReal.coe_one.symm
  have hpos : (0 : ℝ) < max d 1 := lt_of_lt_of_le one_pos (le_max_right d 1)
  unfold Scalar.select gcnCoeff
  by_cases hd : 0 < d
  · have hc : Ideal.cmp .ogt (d : EReal) 0 = (1 : BitVec 1) := (cmp_ogt_eq_one_iff _ _).mpr (by exact_mod_cast hd)
    rw [if_pos hc, if_pos hd, h1, ← coe_max, rsqrt_coe_of_pos hpos]
  · have hc : ¬ Ideal.cmp .ogt (d : EReal) 0 = (1 : BitVec 1) := fun e => hd (by exact_mod_cast (cmp_ogt_eq_one_iff _ _).mp e)
    rw [if_neg hc, if_neg hd, EReal.coe_zero]

/-- The coefficient is non-negative. -/
theorem gcn_coeff_nonneg (d : ℝ) : 0 ≤ gcnCoeff d := by
  unfold gcnCoeff
  split
  · exact inv_nonneg.mpr (Real.sqrt_nonneg _)
  · exact le_rfl

end ProofLib.RealOps

end
-- ==== Proof.KerBody0.lean ====
/-
  The first kernel body's arithmetic, read at one entry.

  For a block of 5000 nodes the body takes the nodes' normalisation factors (a 5000 × 1 column), the nodes' scalar
  first-layer aggregates (a 5000 × 1 column), the first layer's weight row and bias row (1 × 64) and the second layer's
  weight matrix (64 × 64). At node `p` and output column `q` it computes the factor of `p` times the sum over the 64
  hidden columns `k` of the first layer's output `max (factor · aggregate · W1 k + b1 k) 0` times `W2 k q`. The format
  changes in between are the identity on the extended reals.
-/
import proofs.«130671_j88399016886916_2_alg».proof.Proof.Gen.KernelIdeal.Skeleton
import proofs.«130671_j88399016886916_2_alg».proof.Proof.LibPlainDot
import proofs.«130671_j88399016886916_2_alg».proof.Proof.LibColumn
import proofs.«130671_j88399016886916_2_alg».proof.Proof.LibRealOps
import Idealize.ShloMosaic.Lib.ValueLayout

noncomputable section

open scoped BigOperators

namespace Cert.Gcn.Ker

open Idealize.ShloMosaic Idealize.ShloMosaic.ValueIdx Cert.KernelIdeal Cert.KernelIdeal.Gen

/-- The dimension numbers of the body's product are those of a plain 5000 × 64 by 64 × 64 product. -/
theorem dot0_eq_plain : dot_S5000x64_S64x64_S5000x64_1_0_0_1_n_n = DotDims.plain 5000 64 64 := rfl

/-- The first body's stored block at node `p`, column `q`. -/
theorem k0_pay1_apply (x1 x0 : Vec Ideal S5000x1 .f32) (w1 b1 : Vec Ideal S1x64 .f32) (w2 : Vec Ideal S64x64 .f32)
    (p : Fin 5000) (q : Fin 64) :
    k0_pay1 (F := Ideal) x1 x0 w1 b1 w2 (ix2 p q)
      = x1 (ix2 p 0) * ∑ k : Fin 64,
          max (x1 (ix2 p 0) * x0 (ix2 p 0) * w1 (ix2 0 k) + b1 (ix2 0 k)) 0 * w2 (ix2 k q) := by
  unfold k0_pay1
  simp only [truncf_apply, mulf_apply, shapeCast_self, matmul]
  rw [Cert.Lib.Column.colBroadcast_apply, dot0_eq_plain, Cert.Lib.PlainDot.matmul_zero_apply]
  congr 1
  refine Finset.sum_congr rfl fun k _ => ?_
  simp only [truncf_apply, maximumf_apply, addf_apply, mulf_apply, broadcast_apply]
  rw [Cert.Lib.Column.colBroadcast_apply, broadcastTo_1b_ab_apply, broadcastTo_1b_ab_apply, mulf_apply]
  have hz : (FloatOps.ofBits .f32 0x00000000#32 : Ideal .f32) = 0 := Ideal.ofBits_zero_f32
  rw [hz]

/-- The same entry when the entries it reads are real numbers: the real
    `d · ∑ k, max (d · s · W1 k + B1 k) 0 · W2 k q`. -/
theorem k0_pay1_real (x1 x0 : Vec Ideal S5000x1 .f32) (w1 b1 : Vec Ideal S1x64 .f32) (w2 : Vec Ideal S64x64 .f32)
    (p : Fin 5000) (q : Fin 64) (d s : ℝ) (W1 B1 : Fin 64 → ℝ) (W2 : Fin 64 → Fin 64 → ℝ)
    (hd : x1 (ix2 p 0) = ((d : ℝ) : EReal)) (hs : x0 (ix2 p 0) = ((s : ℝ) : EReal))
    (hw1 : ∀ k : Fin 64, w1 (ix2 0 k) = ((W1 k : ℝ) : EReal)) (hb1 : ∀ k : Fin 64, b1 (ix2 0 k) = ((B1 k : ℝ) : EReal))
    (hw2 : ∀ k q : Fin 64, w2 (ix2 k q) = ((W2 k q : ℝ) : EReal)) :
    k0_pay1 (F := Ideal) x1 x0 w1 b1 w2 (ix2 p q)
      = ((d * ∑ k : Fin 64, max (d * s * W1 k + B1 k) 0 * W2 k q : ℝ) : EReal) := by
  rw [k0_pay1_apply, hd, hs, EReal.coe_mul, ProofLib.RealOps.coe_sum]
  congr 1
  refine Finset.sum_congr rfl fun k _ => ?_
  rw [hw1, hb1, hw2, EReal.coe_mul, ProofLib.RealOps.coe_max, EReal.coe_add, EReal.coe_mul, EReal.coe_mul, EReal.coe_zero]

end Cert.Gcn.Ker

end
-- ==== Proof.KerVal0.lean ====
/-
  The first kernel region's result array as one function of the arrays the region finds.

  The region walks ten points; point `t` stores, through the whole output block, the body's payload of the five input
  blocks at `t`, and writes that block back to rows `5000 t … 5000 t + 4999` of the result array. The two column
  windows move with the point (block `(t, 0)`), the weight and bias windows sit at block `(0, 0)`. An element of a block
  sits in its array at block index × block size + its coordinate, so the block written back at `t` is block `t` of one
  whole-array function: at row `n` and column `q`, the factor of `n` times the sum over the hidden columns `k` of
  `max (factor · aggregate · W1 k + b1 k) 0 · W2 k q`. The ten blocks tile the array (row `n` lies in block `n / 5000`),
  so the array ends holding that function.
-/
import proofs.«130671_j88399016886916_2_alg».proof.Proof.RunR0
import proofs.«130671_j88399016886916_2_alg».proof.Proof.KerBody0
import Idealize.ShloMosaic.Lib.Pipeline.Value

set_option maxRecDepth 16384

noncomputable section

open scoped BigOperators

namespace Cert.KernelIdeal.Run

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz0 : (![0, 0] : Fin 2 → Nat) = fun _ => 0 := funext fun a => by fin_cases a <;> rfl

/-- The arrays the region finds, as functions into the extended reals: the normalisation column, the aggregate column,
    the first weight row, the first bias row, the second weight matrix. -/
abbrev dCol (c : Dev nD) : S50000x1.Idx → EReal := V c main_v27
abbrev sCol (c : Dev nD) : S50000x1.Idx → EReal := V c main_v28
abbrev w1Row (c : Dev nD) : S1x64.Idx → EReal := V c main_arg2
abbrev b1Row (c : Dev nD) : S1x64.Idx → EReal := V c main_v29
abbrev w2Mat (c : Dev nD) : S64x64.Idx → EReal := V c main_arg4

/-- The result at row `n`, column `q`, from the arrays the region finds. -/
def g0 (c : Dev nD) (n : Fin 50000) (q : Fin 64) : EReal :=
  dCol V c (ix2 n 0) * ∑ k : Fin 64,
    max (dCol V c (ix2 n 0) * sCol V c (ix2 n 0) * w1Row V c (ix2 0 k) + b1Row V c (ix2 0 k)) 0
      * w2Mat V c (ix2 k q)

/-- The whole result array. -/
def G0 (c : Dev nD) : Buf (Elt Ideal) ((c : Thread nD τ).loc main_v30) := fun i => g0 V c (i 0) (i 1)

/-- The printed index maps, decided over the grid. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## The input blocks, read in their arrays -/

/-- The aggregate column's block at point `t`: rows `5000 t …` of the column. -/
theorem iblk0_0_apply (c : Dev nD) (t : Fin cfg0.N) (p : Fin 5000) (n : Fin 50000) (hn : n.val = t.val * 5000 + p.val) :
    (iblk0 V c 0 t : Vec Ideal S5000x1 .f32) (ix2 p 0) = sCol V c (ix2 n 0) := by
  obtain ⟨e0, e1, -⟩ := idx_facts0 t
  unfold iblk0
  rw [View.read_apply]
  show V c main_v28 _ = V c main_v28 _
  congr 1
  funext a
  apply Fin.ext
  match a with
  | ⟨0, _⟩ => show win0_0.index t 0 * 5000 + 1 * p.val = n.val; rw [e0, hn]; omega
  | ⟨1, _⟩ => show win0_0.index t 1 * 1 + 1 * 0 = 0; rw [e1]

/-- The normalisation column's block at point `t`: rows `5000 t …` of the column. -/
theorem iblk0_1_apply (c : Dev nD) (t : Fin cfg0.N) (p : Fin 5000) (n : Fin 50000) (hn : n.val = t.val * 5000 + p.val) :
    (iblk0 V c 1 t : Vec Ideal S5000x1 .f32) (ix2 p 0) = dCol V c (ix2 n 0) := by
  obtain ⟨-, -, e0, e1, -⟩ := idx_facts0 t
  unfold iblk0
  rw [View.read_apply]
  show V c main_v27 _ = V c main_v27 _
  congr 1
  funext a
  apply Fin.ext
  match a with
  | ⟨0, _⟩ => show win0_1.index t 0 * 5000 + 1 * p.val = n.val; rw [e0, hn]; omega
  | ⟨1, _⟩ => show win0_1.index t 1 * 1 + 1 * 0 = 0; rw [e1]

/-- The first weight row's block is the row, at every point. -/
theorem iblk0_2_apply (c : Dev nD) (t : Fin cfg0.N) (k : Fin 64) :
    (iblk0 V c 2 t : Vec Ideal S1x64 .f32) (ix2 0 k) = w1Row V c (ix2 0 k) := by
  obtain ⟨-, -, -, -, e0, e1, -⟩ := idx_facts0 t
  unfold iblk0
  rw [View.read_apply]
  show V c main_arg2 _ = V c main_arg2 _
  congr 1
  funext a
  apply Fin.ext
  match a with
  | ⟨0, _⟩ => show win0_2.index t 0 * 1 + 1 * 0 = 0; rw [e0]
  | ⟨1, _⟩ => show win0_2.index t 1 * 64 + 1 * k.val = k.val; rw [e1]; omega

/-- The first bias row's block is the row, at every point. -/
theorem iblk0_3_apply (c : Dev nD) (t : Fin cfg0.N) (k : Fin 64) :
    (iblk0 V c 3 t : Vec Ideal S1x64 .f32) (ix2 0 k) = b1Row V c (ix2 0 k) := by
  obtain ⟨-, -, -, -, -, -, e0, e1, -⟩ := idx_facts0 t
  unfold iblk0
  rw [View.read_apply]
  show V c main_v29 _ = V c main_v29 _
  congr 1
  funext a
  apply Fin.ext
  match a with
  | ⟨0, _⟩ => show win0_3.index t 0 * 1 + 1 * 0 = 0; rw [e0]
  | ⟨1, _⟩ => show win0_3.index t 1 * 64 + 1 * k.val = k.val; rw [e1]; omega

/-- The second weight matrix's block is the matrix, at every point. -/
theorem iblk0_4_apply (c : Dev nD) (t : Fin cfg0.N) (k q : Fin 64) :
    (iblk0 V c 4 t : Vec Ideal S64x64 .f32) (ix2 k q) = w2Mat V c (ix2 k q) := by
  obtain ⟨-, -, -, -, -, -, -, -, e0, e1, -⟩ := idx_facts0 t
  unfold iblk0
  rw [View.read_apply]
  show V c main_arg4 _ = V c main_arg4 _
  congr 1
  funext a
  apply Fin.ext
  match a with
  | ⟨0, _⟩ => show win0_4.index t 0 * 64 + 1 * k.val = k.val; rw [e0]; omega
  | ⟨1, _⟩ => show win0_4.index t 1 * 64 + 1 * q.val = q.val; rw [e1]; omega

/-- WHAT POINT `t` WRITES BACK is block `t` of the whole-array function. -/
theorem flushed0_eq (c : Dev nD) (t : Fin cfg0.N) :
    (dat0 V c).flushed 5 t = ((cfg0.win 5).blk t).view.read (Elt Ideal) (G0 V c) := by
  show (cfg0.win 5).cut (grid0.coords t) ((dat0 V c).after 5 t) = _
  rw [after0_5]
  unfold out0_5
  rw [View.canon_unit_zero hz0]
  simp only [View.ld_unit_zero (S := S5000x1) hz0, View.ld_unit_zero (S := S1x64) hz0, View.ld_unit_zero (S := S64x64) hz0]
  funext j
  have hp : (j 0).val < 5000 := Nat.lt_of_lt_of_le (j 0).isLt (win0_5.xsize_le (grid0.coords t) 0)
  have hq : (j 1).val < 64 := Nat.lt_of_lt_of_le (j 1).isLt (win0_5.xsize_le (grid0.coords t) 1)
  have hx : (win0_5.xinj (grid0.coords t) j : S5000x64.Idx)
      = ix2 (⟨(j 0).val, hp⟩ : Fin 5000) (⟨(j 1).val, hq⟩ : Fin 64) :=
    funext fun a => Fin.ext (by match a with | ⟨0, _⟩ => rfl | ⟨1, _⟩ => rfl)
  show k0_pay1 (F := Ideal) (iblk0 V c 1 t) (iblk0 V c 0 t) (iblk0 V c 2 t) (iblk0 V c 3 t) (iblk0 V c 4 t)
      (win0_5.xinj (grid0.coords t) j) = _
  rw [hx, Cert.Gcn.Ker.k0_pay1_apply]
  have hN : cfg0.N = 10 := N_0
  have ht : t.val < 10 := hN ▸ t.isLt
  obtain ⟨-, -, -, -, -, -, -, -, -, -, e0, e1⟩ := idx_facts0 t
  have hemb : ((cfg0.win 5).blk t).view.emb j
      = ix2 (⟨t.val * 5000 + (j 0).val, by omega⟩ : Fin 50000) (⟨(j 1).val, hq⟩ : Fin 64) :=
    funext fun a => Fin.ext (by
      match a with
      | ⟨0, _⟩ => show win0_5.index t 0 * 5000 + 1 * (j 0).val = t.val * 5000 + (j 0).val; rw [e0]; omega
      | ⟨1, _⟩ => show win0_5.index t 1 * 64 + 1 * (j 1).val = (j 1).val; rw [e1]; omega)
  show _ = G0 V c (((cfg0.win 5).blk t).view.emb j)
  rw [hemb]
  show _ = g0 V c (⟨t.val * 5000 + (j 0).val, by omega⟩ : Fin 50000) (⟨(j 1).val, hq⟩ : Fin 64)
  unfold g0
  rw [iblk0_1_apply V c t ⟨(j 0).val, hp⟩ ⟨t.val * 5000 + (j 0).val, by omega⟩ rfl,
    iblk0_0_apply V c t ⟨(j 0).val, hp⟩ ⟨t.val * 5000 + (j 0).val, by omega⟩ rfl]
  congr 1
  refine Finset.sum_congr rfl fun k _ => ?_
  rw [iblk0_2_apply, iblk0_3_apply, iblk0_4_apply]

/-! ## The ten blocks tile the array -/

/-- An index of the array is in point `t`'s block iff each coordinate is in the block's range on its axis. -/
theorem mem_blk0 (t : Fin cfg0.N) (i : S50000x64.Idx) :
    i ∈ ((cfg0.win 5).blk t).view.set
      ↔ ∀ a : Fin 2, win0_5.index t a * S5000x64.size a ≤ (i a).val
          ∧ (i a).val < win0_5.index t a * S5000x64.size a + S5000x64.size a := by
  show i ∈ ((View.whole main_v30).slice (win0_5.rect t)).set ↔ _
  rw [View.set_slice_whole, Rect.mem_set_unit]
  exact Iff.rfl

/-- Row `r` lies in the block of point `r / 5000`, which is written back. -/
theorem cover0 (i : S50000x64.Idx) :
    ∃ t : Fin cfg0.N, (cfg0.win 5).flush t = true ∧ i ∈ ((cfg0.win 5).blk t).view.set := by
  have hN : cfg0.N = 10 := N_0
  have hi0 : (i 0).val < 50000 := (i 0).isLt
  have hi1 : (i 1).val < 64 := (i 1).isLt
  refine ⟨⟨(i 0).val / 5000, by rw [hN]; omega⟩, flush0_5 _, ?_⟩
  rw [mem_blk0]
  obtain ⟨-, -, -, -, -, -, -, -, -, -, e0, e1⟩ := idx_facts0 ⟨(i 0).val / 5000, by rw [hN]; omega⟩
  intro a
  match a with
  | ⟨0, _⟩ =>
    show win0_5.index _ 0 * 5000 ≤ (i 0).val ∧ (i 0).val < win0_5.index _ 0 * 5000 + 5000
    rw [e0]
    show (i 0).val / 5000 * 5000 ≤ (i 0).val ∧ (i 0).val < (i 0).val / 5000 * 5000 + 5000
    omega
  | ⟨1, _⟩ =>
    show win0_5.index _ 1 * 64 ≤ (i 1).val ∧ (i 1).val < win0_5.index _ 1 * 64 + 64
    rw [e1]
    omega

/-- THE RESULT ARRAY after the region: the whole-array function. -/
theorem final0' (c : Dev nD) : (dat0 V c).arrAt 5 cfg0.N = G0 V c :=
  (dat0 V c).arrAt_eq_of_cover 5 (G0 V c) (fun t _ => flushed0_eq V c t) cover0

/-- THE RESULT ARRAY at row `n`, column `q`. -/
theorem final0 (c : Dev nD) (n : Fin 50000) (q : Fin 64) :
    (dat0 V c).arrAt 5 cfg0.N (ix2 n q)
      = dCol V c (ix2 n 0) * ∑ k : Fin 64,
          max (dCol V c (ix2 n 0) * sCol V c (ix2 n 0) * w1Row V c (ix2 0 k) + b1Row V c (ix2 0 k)) 0
            * w2Mat V c (ix2 k q) := by
  rw [final0']
  rfl

end Cert.KernelIdeal.Run

end
-- ==== Proof.LibBatchNormVar.lean ====
/-
  Batch statistics of a column of finitely many REAL entries, read on the extended reals.

  A column `h i` (`i` over a finite index type of `n > 0` elements) has two spellings of its biased variance:
  the mean of the squared deviations from the mean, `(1/n) Σ (h i − μ)²` with `μ = (1/n) Σ h i`, and the mean
  of the squares less the squared mean, `(1/n) Σ (h i)² − μ²`, clamped below at zero. Over the reals the two are
  one number, and it is non-negative, so the clamp is the identity (`var_clamped_eq`). On the extended reals this
  needs every entry to be a real: with an infinite entry `⊤ − ⊤` appears and the two spellings part.

  Beside it: the inclusion of the reals commutes with finite sums (`coe_sum`) and with a quotient by a non-zero
  real at the ideal instance's division (`div_coe_coe`); a real factor `c ≥ 0` distributes over ANY finite sum of
  extended reals, infinite terms included (`mul_sum_of_nonneg_real`); a sum over `T · R` rows is the sum over
  `T` blocks of the sums over the `R` rows of a block (`sum_blocks`, row `r + R · t` in block `t`); and a running
  total that starts at zero and grows by `b t` at step `t` ends at `Σ b t` (`acc_eq_sum`).
-/
import Idealize.ShloMosaic.PureOps.Ideal
import Mathlib.Algebra.BigOperators.Fin
import Mathlib.Tactic.FieldSimp
import Mathlib.Tactic.Ring
import Mathlib.Tactic.Linarith

noncomputable section

namespace ProofLib.BatchNorm

local notation "idiv" => Idealize.ShloMosaic.Ideal.div

variable {ι : Type*}

/-- The inclusion of the reals in the extended reals commutes with finite sums. -/
theorem coe_sum (s : Finset ι) (f : ι → ℝ) : ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- At the ideal instance a real divided by a non-zero real is the real quotient. -/
theorem div_coe_coe (x : ℝ) {n : ℝ} (hn : n ≠ 0) : idiv (x : EReal) (n : EReal) = ((x / n : ℝ) : EReal) := by
  rw [Idealize.ShloMosaic.Ideal.div_coe hn, ← EReal.coe_mul, mul_one_div]

/-- The sum of the squared deviations from any centre `μ`, expanded. -/
theorem real_sum_sq_dev [Fintype ι] (f : ι → ℝ) (μ : ℝ) {n : ℝ} (hcard : (Fintype.card ι : ℝ) = n) :
    ∑ i, (f i - μ) * (f i - μ) = (∑ i, f i * f i) - 2 * μ * (∑ i, f i) + n * (μ * μ) := by
  calc ∑ i, (f i - μ) * (f i - μ) = ∑ i, (f i * f i - 2 * μ * f i + μ * μ) :=
        Finset.sum_congr rfl fun i _ => by ring
    _ = (∑ i, f i * f i) - 2 * μ * (∑ i, f i) + n * (μ * μ) := by
        rw [Finset.sum_add_distrib, Finset.sum_sub_distrib, ← Finset.mul_sum, Finset.sum_const, Finset.card_univ,
          nsmul_eq_mul, hcard]

/-- Over the reals: the mean of the squares less the squared mean is the mean of the squared deviations from the mean. -/
theorem real_var_eq [Fintype ι] (f : ι → ℝ) {n : ℝ} (hn : n ≠ 0) (hcard : (Fintype.card ι : ℝ) = n) :
    (∑ i, f i * f i) / n - ((∑ i, f i) / n) * ((∑ i, f i) / n)
      = (∑ i, (f i - (∑ j, f j) / n) * (f i - (∑ j, f j) / n)) / n := by
  rw [real_sum_sq_dev f _ hcard]
  field_simp
  ring

/-- The mean of squared deviations is non-negative. -/
theorem real_var_nonneg [Fintype ι] (f : ι → ℝ) (μ : ℝ) {n : ℝ} (hn : 0 < n) :
    0 ≤ (∑ i, (f i - μ) * (f i - μ)) / n :=
  div_nonneg (Finset.sum_nonneg fun i _ => mul_self_nonneg _) hn.le

/-- On the extended reals, for a column of REAL entries: the mean of squares less the squared mean, clamped below at
    zero, is the mean of the squared deviations from the mean (divisions the ideal instance's, by the real `n`, the
    number of entries). -/
theorem var_clamped_eq [Fintype ι] (h : ι → EReal) (f : ι → ℝ) (hh : ∀ i, h i = (f i : EReal))
    {n : ℝ} (hn : 0 < n) (hcard : (Fintype.card ι : ℝ) = n) :
    max (idiv (∑ i, h i * h i) (n : EReal) - idiv (∑ i, h i) (n : EReal) * idiv (∑ i, h i) (n : EReal)) 0
      = idiv (∑ i, (h i - idiv (∑ j, h j) (n : EReal)) * (h i - idiv (∑ j, h j) (n : EReal))) (n : EReal) := by
  have hn0 : n ≠ 0 := hn.ne'
  have e1 : ∑ i, h i = ((∑ i, f i : ℝ) : EReal) := by
    rw [coe_sum]; exact Finset.sum_congr rfl fun i _ => hh i
  have e2 : ∑ i, h i * h i = ((∑ i, f i * f i : ℝ) : EReal) := by
    rw [coe_sum]; exact Finset.sum_congr rfl fun i _ => by rw [hh i, EReal.coe_mul]
  have e4 : ∑ i, (h i - (((∑ j, f j) / n : ℝ) : EReal)) * (h i - (((∑ j, f j) / n : ℝ) : EReal))
      = ((∑ i, (f i - (∑ j, f j) / n) * (f i - (∑ j, f j) / n) : ℝ) : EReal) := by
    rw [coe_sum]; exact Finset.sum_congr rfl fun i _ => by rw [hh i, EReal.coe_mul, EReal.coe_sub]
  rw [e1, e2, div_coe_coe _ hn0, div_coe_coe _ hn0, e4, div_coe_coe _ hn0, ← EReal.coe_mul, ← EReal.coe_sub,
    real_var_eq f hn0 hcard]
  exact max_eq_left (EReal.coe_nonneg.mpr (real_var_nonneg f _ hn))

/-- The mean of a column of real entries is a real: the ideal instance's quotient of their sum by `n ≠ 0`. -/
theorem mean_coe [Fintype ι] (h : ι → EReal) (f : ι → ℝ) (hh : ∀ i, h i = (f i : EReal)) {n : ℝ} (hn : n ≠ 0) :
    idiv (∑ i, h i) (n : EReal) = (((∑ i, f i) / n : ℝ) : EReal) := by
  have e1 : ∑ i, h i = ((∑ i, f i : ℝ) : EReal) := by
    rw [coe_sum]; exact Finset.sum_congr rfl fun i _ => hh i
  rw [e1, div_coe_coe _ hn]

/-- A real factor `c ≥ 0` distributes over a finite sum of extended reals, whatever the terms (an infinite term
    included: `c · (⊤ + ⊥) = c · ⊤ + c · ⊥` for `0 ≤ c < ⊤`). -/
theorem mul_sum_of_nonneg_real (c : ℝ) (hc : 0 ≤ c) (s : Finset ι) (g : ι → EReal) :
    (c : EReal) * ∑ i ∈ s, g i = ∑ i ∈ s, (c : EReal) * g i := by
  classical
  refine Finset.induction_on s ?_ ?_
  · simp
  · intro a s ha ih
    rw [Finset.sum_insert ha, Finset.sum_insert ha,
      EReal.left_distrib_of_nonneg_of_ne_top (EReal.coe_nonneg.mpr hc) (EReal.coe_ne_top c), ih]

/-- A sum over `T · R` rows is the sum over `T` blocks of the sums over the `R` rows of each block: row
    `r + R · t` is row `r` of block `t`. -/
theorem sum_blocks {M : Type*} [AddCommMonoid M] (T R : ℕ) (f : Fin (T * R) → M) :
    ∑ i, f i = ∑ t : Fin T, ∑ r : Fin R, f (finProdFinEquiv (t, r)) :=
  (Equiv.sum_comp finProdFinEquiv f).symm.trans (Fintype.sum_prod_type _)

/-- A running total that starts at zero and grows by `b t` at step `t` ends, after `T` steps, at `Σ_{t < T} b t`. -/
theorem acc_eq_sum {M : Type*} [AddCommMonoid M] (b : ℕ → M) (acc : ℕ → M) (h0 : acc 0 = 0) :
    ∀ T : ℕ, (∀ t, t < T → acc (t + 1) = acc t + b t) → acc T = ∑ t ∈ Finset.range T, b t := by
  intro T
  induction T with
  | zero => intro _; simp [h0]
  | succ k ih =>
    intro hs
    rw [hs k (Nat.lt_succ_self k), Finset.sum_range_succ, ih fun t ht => hs t (Nat.lt_succ_of_lt ht)]

end ProofLib.BatchNorm

end
-- ==== Proof.KerGlue1.lean ====
/-
  The second region's accumulator row as a sum, on the extended reals. A block of a window that moves with the grid
  point is the window's array at the rows 5000·t … 5000·t + 4999; a block of a window that does not move is the whole
  (small) array. With the update payload read at an entry — the row found plus the block's column sums of
  max(dᵣ·aᵣ꜀ + b꜀, 0) — the accumulator row after point n is the sum of the first n + 1 blocks' column sums, from zero.
-/
import proofs.«130671_j88399016886916_2_alg».proof.Proof.KerVal1
import proofs.«130671_j88399016886916_2_alg».proof.Proof.KerBody1
import proofs.«130671_j88399016886916_2_alg».proof.Proof.KerVal0
import proofs.«130671_j88399016886916_2_alg».proof.Proof.LibBatchNormVar

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (V : (c : Dev nD) → (b : Ref sig .tc) → Buf (Elt Ideal) ((c : Thread nD τ).loc b))

/-! ## The blocks read at an entry -/

theorem idx1_0 : ∀ t : Fin cfg1.N, win1_0.index t 0 = t.val ∧ win1_0.index t 1 = 0 :=
  (by decide +kernel : ∀ t : Fin grid1.N, win1_0.index t 0 = t.val ∧ win1_0.index t 1 = 0)
theorem idx1_1 : ∀ t : Fin cfg1.N, win1_1.index t 0 = t.val ∧ win1_1.index t 1 = 0 :=
  (by decide +kernel : ∀ t : Fin grid1.N, win1_1.index t 0 = t.val ∧ win1_1.index t 1 = 0)
theorem idx1_2 : ∀ t : Fin cfg1.N, win1_2.index t 0 = 0 ∧ win1_2.index t 1 = 0 :=
  (by decide +kernel : ∀ t : Fin grid1.N, win1_2.index t 0 = 0 ∧ win1_2.index t 1 = 0)
theorem idx1_3 : ∀ t : Fin cfg1.N, win1_3.index t 0 = 0 ∧ win1_3.index t 1 = 0 :=
  (by decide +kernel : ∀ t : Fin grid1.N, win1_3.index t 0 = 0 ∧ win1_3.index t 1 = 0)
theorem idx1_4 : ∀ t : Fin cfg1.N, win1_4.index t 0 = 0 ∧ win1_4.index t 1 = 0 :=
  (by decide +kernel : ∀ t : Fin grid1.N, win1_4.index t 0 = 0 ∧ win1_4.index t 1 = 0)

theorem lt_rows (t : Fin cfg1.N) (r : Fin 5000) : t.val * 5000 + r.val < 50000 := by
  have hN : t.val < 10 := lt_of_lt_of_eq t.isLt (show cfg1.N = 10 from N_1)
  have := r.isLt; omega

/-- The aggregated array's block at point `t`: its rows from 5000·t on. -/
theorem iblk1_0_apply (c : Dev nD) (t : Fin cfg1.N) (r : Fin 5000) (cc : Fin 64) :
    iblk1 V c 0 t (ix2 r cc) = V c main_v41 (ix2 (⟨t.val * 5000 + r.val, lt_rows t r⟩ : Fin 50000) cc) := by
  show V c main_v41 (((cfg1.win 0).blk t).view.emb (ix2 r cc)) = _
  refine congrArg _ (funext fun a => Fin.ext ?_)
  match a with
  | ⟨0, _⟩ => show win1_0.index t 0 * 5000 + 1 * r.val = t.val * 5000 + r.val
              rw [(idx1_0 t).1]; omega
  | ⟨1, _⟩ => show win1_0.index t 1 * 64 + 1 * cc.val = cc.val
              rw [(idx1_0 t).2]; omega

/-- The inverse-root-degree column's block at point `t`. -/
theorem iblk1_1_apply (c : Dev nD) (t : Fin cfg1.N) (r : Fin 5000) :
    iblk1 V c 1 t (ix2 r (0 : Fin 1)) = V c main_v27 (ix2 (⟨t.val * 5000 + r.val, lt_rows t r⟩ : Fin 50000) (0 : Fin 1)) := by
  show V c main_v27 (((cfg1.win 1).blk t).view.emb (ix2 r (0 : Fin 1))) = _
  refine congrArg _ (funext fun a => Fin.ext ?_)
  match a with
  | ⟨0, _⟩ => show win1_1.index t 0 * 5000 + 1 * r.val = t.val * 5000 + r.val
              rw [(idx1_1 t).1]; omega
  | ⟨1, _⟩ => show win1_1.index t 1 * 1 + 1 * (0 : Fin 1).val = (0 : Fin 1).val
              rw [(idx1_1 t).2]; rfl

/-- The bias row's block is the row. -/
theorem iblk1_2_apply (c : Dev nD) (t : Fin cfg1.N) (cc : Fin 64) :
    iblk1 V c 2 t (ix2 (0 : Fin 1) cc) = V c main_v42 (ix2 (0 : Fin 1) cc) := by
  show V c main_v42 (((cfg1.win 2).blk t).view.emb (ix2 (0 : Fin 1) cc)) = _
  refine congrArg _ (funext fun a => Fin.ext ?_)
  match a with
  | ⟨0, _⟩ => show win1_2.index t 0 * 1 + 1 * (0 : Fin 1).val = (0 : Fin 1).val
              rw [(idx1_2 t).1]; rfl
  | ⟨1, _⟩ => show win1_2.index t 1 * 64 + 1 * cc.val = cc.val
              rw [(idx1_2 t).2]; omega

/-- The classifier weight's block is the weight. -/
theorem iblk1_3_apply (c : Dev nD) (t : Fin cfg1.N) (cc : Fin 64) (q : Fin 4) :
    iblk1 V c 3 t (ix2 cc q) = V c main_arg6 (ix2 cc q) := by
  show V c main_arg6 (((cfg1.win 3).blk t).view.emb (ix2 cc q)) = _
  refine congrArg _ (funext fun a => Fin.ext ?_)
  match a with
  | ⟨0, _⟩ => show win1_3.index t 0 * 64 + 1 * cc.val = cc.val
              rw [(idx1_3 t).1]; omega
  | ⟨1, _⟩ => show win1_3.index t 1 * 4 + 1 * q.val = q.val
              rw [(idx1_3 t).2]; omega

/-- The classifier bias row's block is the row. -/
theorem iblk1_4_apply (c : Dev nD) (t : Fin cfg1.N) (q : Fin 4) :
    iblk1 V c 4 t (ix2 (0 : Fin 1) q) = V c main_v43 (ix2 (0 : Fin 1) q) := by
  show V c main_v43 (((cfg1.win 4).blk t).view.emb (ix2 (0 : Fin 1) q)) = _
  refine congrArg _ (funext fun a => Fin.ext ?_)
  match a with
  | ⟨0, _⟩ => show win1_4.index t 0 * 1 + 1 * (0 : Fin 1).val = (0 : Fin 1).val
              rw [(idx1_4 t).1]; rfl
  | ⟨1, _⟩ => show win1_4.index t 1 * 4 + 1 * q.val = q.val
              rw [(idx1_4 t).2]; omega

/-! ## The accumulator row as a sum -/

/-- The region's aggregated array and bias row as arrays of extended reals (the inverse-root-degree column is `dCol`). -/
abbrev aggArr (c : Dev nD) : S50000x64.Idx → EReal := V c main_v41
abbrev b2Row (c : Dev nD) : S1x64.Idx → EReal := V c main_v42

/-- One row's contribution to column `cc`: max(dₙ·aₙ꜀ + b꜀, 0). -/
def term (c : Dev nD) (n : Fin 50000) (cc : Fin 64) : EReal :=
  max (dCol V c (ix2 n (0 : Fin 1)) * aggArr V c (ix2 n cc) + b2Row V c (ix2 (0 : Fin 1) cc)) 0

/-- Block `t`'s column sum. -/
def blockSum (c : Dev nD) (t : ℕ) (cc : Fin 64) : EReal :=
  if ht : t < 10 then ∑ r : Fin 5000, term V c ⟨t * 5000 + r.val, by have := r.isLt; omega⟩ cc else 0

theorem lt10 (t : Fin cfg1.N) : t.val < 10 := lt_of_lt_of_eq t.isLt (show cfg1.N = 10 from N_1)

/-- The update payload of point `t`'s blocks over a row `acc`: the row plus block `t`'s column sums. -/
theorem pay2_block (c : Dev nD) (t : Fin cfg1.N) (acc : Vec Ideal S1x64 .f32) (cc : Fin 64) :
    k1_pay2 (F := Ideal) (iblk1 V c 1 t) (iblk1 V c 0 t) (iblk1 V c 2 t) acc (ix2 (0 : Fin 1) cc)
      = acc (ix2 (0 : Fin 1) cc) + blockSum V c t.val cc := by
  refine (Cert.Gcn.Ker.k1_pay2_apply _ _ _ _ cc).trans ?_
  unfold blockSum
  rw [dif_pos (lt10 t)]
  refine congrArg _ (Finset.sum_congr rfl fun r _ => ?_)
  unfold term
  rw [iblk1_1_apply, iblk1_0_apply, iblk1_2_apply]
  try rfl

/-- The accumulator row after point `n`: the first `n + 1` blocks' column sums. -/
theorem accAt_apply (c : Dev nD) : ∀ (n : ℕ) (h : n < cfg1.N) (cc : Fin 64),
    accAt V c n h (ix2 (0 : Fin 1) cc) = ∑ t ∈ Finset.range (n + 1), blockSum V c t cc
  | 0, h, cc => by
    rw [accAt_zero, pay2_block V c ⟨0, h⟩, Cert.Gcn.Ker.k1_pay1_apply, zero_add, Finset.sum_range_one]
  | n + 1, h, cc => by
    rw [accAt_succ, pay2_block V c ⟨n + 1, h⟩, accAt_apply c n _ cc, Finset.sum_range_succ _ (n + 1)]

/-- After the last point: the sum over all 50000 rows. -/
theorem accLast_apply (c : Dev nD) (cc : Fin 64) :
    accLast V c (ix2 (0 : Fin 1) cc) = ∑ n : Fin 50000, term V c n cc := by
  rw [accLast, accAt_apply]
  rw [show (∑ n : Fin 50000, term V c n cc) = ∑ n : Fin (10 * 5000), term V c n cc from rfl,
    ProofLib.BatchNorm.sum_blocks 10 5000 (fun n => term V c n cc), Finset.sum_range]
  refine Finset.sum_congr rfl fun t _ => ?_
  unfold blockSum
  rw [dif_pos t.isLt]
  refine Finset.sum_congr rfl fun r _ => ?_
  refine congrArg (fun n => term V c n cc) (Fin.ext ?_)
  show t.val * 5000 + r.val = (finProdFinEquiv (t, r)).val
  simp [finProdFinEquiv, Nat.mul_comm, Nat.add_comm]

end Cert.KernelIdeal.Run

end
-- ==== Proof.KerGlue2.lean ====
/-
  The second region's result row on the extended reals, given real readings of what the region is entered with: if the
  inverse-root-degree column holds the reals d, the aggregated array the reals kA2, the bias row b2, then the result row
  is the head (product with the classifier weights, bias, shifted logarithm of the softmax) of the pooled vector kPool.
-/
import proofs.«130671_j88399016886916_2_alg».proof.Proof.KerGlue1
import proofs.«130671_j88399016886916_2_alg».proof.Proof.LibGcnSpec

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Gcn

variable (V : (c : Dev nD) → (b : Ref sig .tc) → Buf (Elt Ideal) ((c : Thread nD τ).loc b))

abbrev wfcArr (c : Dev nD) : S64x4.Idx → EReal := V c main_arg6
abbrev bfcRow (c : Dev nD) : S1x4.Idx → EReal := V c main_v43

theorem coe_max' (a b : ℝ) : ((max a b : ℝ) : EReal) = max (a : EReal) (b : EReal) := by
  rcases le_total a b with h | h
  · rw [max_eq_right h, max_eq_right (EReal.coe_le_coe_iff.mpr h)]
  · rw [max_eq_left h, max_eq_left (EReal.coe_le_coe_iff.mpr h)]

theorem region1_value {N M : ℕ} (c : Dev nD) (g : Edges 50000 M) (d x : Fin 50000 → ℝ) (W1 b1 : Fin 64 → ℝ)
    (W2 : Fin 64 → Fin 64 → ℝ) (b2 : Fin 64 → ℝ) (A6 : S64x4.Idx → EReal) (A7 : S4.Idx → EReal)
    (h27 : ∀ n : Fin 50000, dCol V c (ix2 n (0 : Fin 1)) = ((d n : ℝ) : EReal))
    (h41 : ∀ (n : Fin 50000) (cc : Fin 64), aggArr V c (ix2 n cc) = ((kA2 g d x W1 b1 W2 n cc : ℝ) : EReal))
    (h42 : ∀ cc : Fin 64, b2Row V c (ix2 (0 : Fin 1) cc) = ((b2 cc : ℝ) : EReal))
    (h6 : ∀ (cc : Fin 64) (q : Fin 4), wfcArr V c (ix2 cc q) = A6 (ix2 cc q))
    (h43 : ∀ q : Fin 4, bfcRow V c (ix2 (0 : Fin 1) q) = A7 (ix1 q)) (j : Fin 4) :
    (result1 V c : S1x4.Idx → EReal) (ix2 (0 : Fin 1) j)
      = tail (fun cc : Fin 64 => ((kPool g d x W1 b1 W2 b2 cc : ℝ) : EReal)) (fun (cc : Fin 64) (q : Fin 4) => A6 (ix2 cc q))
          (fun q : Fin 4 => A7 (ix1 q)) j := by
  refine (Cert.Gcn.Ker.k1_pay3_apply _ _ _ j).trans ?_
  have hterm : ∀ (n : Fin 50000) (cc : Fin 64), term V c n cc = ((kOut g d x W1 b1 W2 b2 n cc : ℝ) : EReal) := fun n cc => by
    unfold term kOut
    rw [h27, h41, h42, ← EReal.coe_mul, ← EReal.coe_add, coe_max', EReal.coe_zero]
  have e1 : (fun cc : Fin 64 => accLast V c (ix2 (0 : Fin 1) cc) * ((1 / 50000 : ℝ) : EReal))
      = fun cc : Fin 64 => ((kPool g d x W1 b1 W2 b2 cc : ℝ) : EReal) := funext fun cc => by
    rw [accLast_apply]
    simp only [hterm]
    rw [← ProofLib.BatchNorm.coe_sum, ← EReal.coe_mul]
    rfl
  have e2 : (fun (cc : Fin 64) (q : Fin 4) => iblk1 V c 3 t1_9 (ix2 cc q)) = fun (cc : Fin 64) (q : Fin 4) => A6 (ix2 cc q) :=
    funext fun cc => funext fun q => (iblk1_3_apply V c t1_9 cc q).trans (h6 cc q)
  have e3 : (fun q : Fin 4 => iblk1 V c 4 t1_9 (ix2 (0 : Fin 1) q)) = fun q : Fin 4 => A7 (ix1 q) :=
    funext fun q => (iblk1_4_apply V c t1_9 q).trans (h43 q)
  rw [e1]
  exact congrArg₂ (fun a b => tail _ a b j) e2 e3

end Cert.KernelIdeal.Run

end
-- ==== Proof.LibRowScatter.lean ====
/-
  A row gather and a row scatter-add, read at an index.

  For a table `x` of `N` rows and `C` columns and a column `idx` of `M` integer words:

  * the gather of rows takes result row `e` from the operand row `idx[e]` read as a signed integer and clamped into
    `[0, N − 1]`: entry `(e, c)` of the result is `x (gatherRow idx e, c)`;
  * the scatter-add of rows adds update row `e` into the operand row `idx[e]` read as a signed integer and not
    clamped (an update whose row is outside `[0, N − 1]` is dropped): entry `(n, c)` of the result is
    `x (n, c) + ∑ e ∈ landsOn idx N n, upd (e, c)`, the sum over the update rows whose index is `n`.

  Neither the row `gatherRow idx e` nor the set `landsOn idx N n` depends on the number of columns or on the entries.
-/
import Idealize.ShloMosaic.Lib.ValueIdx
import Idealize.ShloMosaic.PureOps.Ideal.Laws
import Idealize.ShloMosaic.Lib.Pipeline.Value

noncomputable section

open scoped BigOperators

namespace Cert.Lib.RowScatter

open Idealize.ShloMosaic Idealize.ShloMosaic.ValueIdx

/-! ## The gather of rows -/

section Gather
variable {α : Type}

/-- The dimension numbers of a gather of whole rows: operand `[N, C]`, start indices `[M, 1]`, result `[M, C]`;
    the result's axis 1 is the offset axis, the operand's axis 0 is collapsed and is the one the start index names,
    the index vector lies along axis 1 of the start indices, and a slice is one row, `1 × C`. Their conditions `wf`
    are decided on literal shapes. -/
abbrev rowGatherDims (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The operand row that result row `e` reads: the word `idx (e, 0)` as a signed integer, negative values taken to
    `0`, then cut to at most `N − 1`. It depends on neither the number of columns nor the entries. -/
def gatherRow (N : Nat) (hN : 0 < N) {M w : Nat} (idx : IVec ⟨2, ![M, 1]⟩ w) (e : Fin M) : Fin N :=
  ⟨min (idx (ix2 e (0 : Fin 1))).toInt.toNat (N - 1), by omega⟩

/-- On the row axis the operand index of result entry `(e, c)` is the clamped start index: no batching coordinate,
    and no offset coordinate on a collapsed axis. -/
theorem gather_operandIdx_zero {N M C w : Nat}
    (wf : GatherDims.WF ⟨2, ![N, C]⟩ ⟨2, ![M, 1]⟩ ⟨2, ![M, C]⟩ [1] [0] [] [0] [] 1 ![1, C])
    (idx : IVec ⟨2, ![M, 1]⟩ w) (e : Fin M) (c : Fin C) :
    ((rowGatherDims N M C wf).operandIdx (ix2 e c) idx 0).val = min (idx (ix2 e (0 : Fin 1))).toInt.toNat (N - 1) := by
  show (rowGatherDims N M C wf).start (ix2 e c) idx 0 + (rowGatherDims N M C wf).batchCoord (ix2 e c) 0
    + (rowGatherDims N M C wf).offCoord (ix2 e c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGatherDims N M C wf).startIndexMap from List.mem_singleton.mpr rfl)]
  have hsi : (rowGatherDims N M C wf).siIdx (ix2 e c) ⟨List.idxOf (0 : Fin 2) (rowGatherDims N M C wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- On the column axis the operand index of result entry `(e, c)` is `c`: the start is `0` on an axis the start
    index does not name, and the offset coordinate is the result's column. -/
theorem gather_operandIdx_one {N M C w : Nat}
    (wf : GatherDims.WF ⟨2, ![N, C]⟩ ⟨2, ![M, 1]⟩ ⟨2, ![M, C]⟩ [1] [0] [] [0] [] 1 ![1, C])
    (idx : IVec ⟨2, ![M, 1]⟩ w) (e : Fin M) (c : Fin C) :
    ((rowGatherDims N M C wf).operandIdx (ix2 e c) idx 1).val = c.val := by
  show (rowGatherDims N M C wf).start (ix2 e c) idx 1 + (rowGatherDims N M C wf).batchCoord (ix2 e c) 1
    + (rowGatherDims N M C wf).offCoord (ix2 e c) 1 = _
  rw [GatherDims.batchCoord_eq_zero _ _ _ List.not_mem_nil]
  have hs : (rowGatherDims N M C wf).start (ix2 e c) idx 1 = 0 := by
    unfold GatherDims.start
    rw [dif_neg (fun h => absurd (List.mem_singleton.mp h) (show ¬ ((1 : Fin 2) = 0) by decide))]
  rw [hs]
  simp only [Nat.add_zero, Nat.zero_add]
  unfold GatherDims.offCoord
  rw [dif_pos ((GatherDims.mem_sKept _ _).mpr
    ⟨fun h => absurd (List.mem_singleton.mp h) (show ¬ ((1 : Fin 2) = 0) by decide), List.not_mem_nil⟩)]
  rfl

/-- THE GATHER OF ROWS READ AT `(e, c)`: the operand at row `gatherRow N hN idx e` — the start index `idx (e, 0)` read
    signed and clamped into `[0, N − 1]` — and column `c`. -/
theorem gather_rows_apply {N M C w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (c : Fin C) :
    Host.gather (rowGatherDims N M C wf) x idx (ix2 e c) = x (ix2 (gatherRow N hN idx e) c) := by
  unfold Host.gather
  congr 1
  funext a
  match a with
  | ⟨0, _⟩ => exact Fin.ext (gather_operandIdx_zero wf idx e c)
  | ⟨1, _⟩ => exact Fin.ext (gather_operandIdx_one wf idx e c)

end Gather

/-! ## The scatter-add of rows -/

section Scatter

/-- The dimension numbers of a scatter of whole rows: operand `[N, C]`, scatter indices `[M, 1]`, updates `[M, C]`;
    the updates' axis 1 is the window axis, the operand's axis 0 is inserted and is the one the scatter index names,
    and the index vector lies along axis 1 of the scatter indices. Their conditions `wf` are decided on literal
    shapes. -/
abbrev rowScatterDims (N M C : Nat)
    (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- The update rows that land on operand row `n`: the rows `e` whose index word `idx (e, 0)`, read as a signed
    integer and not clamped, is `n`. It depends on neither the number of columns nor the entries. -/
def landsOn {M w : Nat} (idx : IVec ⟨2, ![M, 1]⟩ w) (N : Nat) (n : Fin N) : Finset (Fin M) :=
  Finset.univ.filter (fun e => (idx (ix2 e (0 : Fin 1))).toInt = (n.val : Int))

/-- An axis is among the kept axes exactly when it is not among the removed ones. -/
theorem mem_kept {s : Shape} (axes : List (Fin s.rank)) (a : Fin s.rank) : a ∈ s.kept axes ↔ a ∉ axes := by
  simp [Shape.kept, List.mem_filter, List.mem_finRange]

/-- An update index `j` lands at the operand index `i` exactly when, on every axis, the signed start plus the window
    coordinate is `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h a
    split at h
    · rename_i hb
      have h' := Option.some.inj h
      have h2 : (d.start j idx a + (d.window j a : Int)).toNat = (i a).val := congrArg Fin.val (congrFun h' a)
      have := hb a
      omega
    · cases h
  · intro h
    have hb : ∀ a, 0 ≤ d.start j idx a + (d.window j a : Int) ∧ d.start j idx a + (d.window j a : Int) < s.size a := by
      intro a
      rw [h a]
      exact ⟨Int.natCast_nonneg _, by exact_mod_cast (i a).isLt⟩
    rw [dif_pos hb]
    congr 1
    funext a
    apply Fin.ext
    show (d.start j idx a + (d.window j a : Int)).toNat = (i a).val
    rw [h a]
    exact Int.toNat_natCast _

/-- On the row axis the start of update entry `(e, c)` is the index word `idx (e, 0)` read as a signed integer. -/
theorem scatter_start_zero {N M C w : Nat} (wf : ScatterDims.WF ⟨2, ![N, C]⟩ ⟨2, ![M, 1]⟩ ⟨2, ![M, C]⟩ [1] [0] [0] 1)
    (idx : IVec ⟨2, ![M, 1]⟩ w) (e : Fin M) (c : Fin C) :
    (rowScatterDims N M C wf).start (ix2 e c) idx 0 = (idx (ix2 e (0 : Fin 1))).toInt := by
  unfold ScatterDims.start
  rw [dif_pos (show (0 : Fin 2) ∈ (rowScatterDims N M C wf).scatterDimsToOperandDims from List.mem_singleton.mpr rfl)]
  have hsi : (rowScatterDims N M C wf).siIdx (ix2 e c)
      ⟨List.idxOf (0 : Fin 2) (rowScatterDims N M C wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis, which the scatter index does not name, the start is `0`. -/
theorem scatter_start_one {N M C w : Nat} (wf : ScatterDims.WF ⟨2, ![N, C]⟩ ⟨2, ![M, 1]⟩ ⟨2, ![M, C]⟩ [1] [0] [0] 1)
    (idx : IVec ⟨2, ![M, 1]⟩ w) (e : Fin M) (c : Fin C) :
    (rowScatterDims N M C wf).start (ix2 e c) idx 1 = 0 := by
  unfold ScatterDims.start
  rw [dif_neg (fun h => absurd (List.mem_singleton.mp h) (show ¬ ((1 : Fin 2) = 0) by decide))]

/-- On the row axis, an inserted one, the window coordinate is `0`. -/
theorem scatter_window_zero {N M C : Nat} (wf : ScatterDims.WF ⟨2, ![N, C]⟩ ⟨2, ![M, 1]⟩ ⟨2, ![M, C]⟩ [1] [0] [0] 1)
    (e : Fin M) (c : Fin C) :
    (rowScatterDims N M C wf).window (ix2 e c) 0 = 0 := by
  unfold ScatterDims.window
  rw [dif_neg (fun h => (mem_kept _ _).mp h (List.mem_singleton.mpr rfl))]

/-- On the column axis the window coordinate of update entry `(e, c)` is `c`. -/
theorem scatter_window_one {N M C : Nat} (wf : ScatterDims.WF ⟨2, ![N, C]⟩ ⟨2, ![M, 1]⟩ ⟨2, ![M, C]⟩ [1] [0] [0] 1)
    (e : Fin M) (c : Fin C) :
    (rowScatterDims N M C wf).window (ix2 e c) 1 = c.val := by
  unfold ScatterDims.window
  rw [dif_pos ((mem_kept _ _).mpr
    (fun h => absurd (List.mem_singleton.mp h) (show ¬ ((1 : Fin 2) = 0) by decide)))]
  rfl

/-- Update entry `(e, c')` lands at operand entry `(n, c)` exactly when the columns agree and the signed index word
    of row `e` is `n`. -/
theorem resultIdx?_rows {N M C w : Nat} (wf : ScatterDims.WF ⟨2, ![N, C]⟩ ⟨2, ![M, 1]⟩ ⟨2, ![M, C]⟩ [1] [0] [0] 1)
    (idx : IVec ⟨2, ![M, 1]⟩ w) (e : Fin M) (c' c : Fin C) (n : Fin N) :
    (rowScatterDims N M C wf).resultIdx? (ix2 e c') idx = some (ix2 n c)
      ↔ c' = c ∧ (idx (ix2 e (0 : Fin 1))).toInt = (n.val : Int) := by
  rw [resultIdx?_eq_some_iff]
  rw [Fin.forall_fin_two]
  rw [scatter_start_zero, scatter_window_zero, scatter_start_one, scatter_window_one]
  show ((idx (ix2 e (0 : Fin 1))).toInt + ((0 : Nat) : Int) = (n.val : Int)
    ∧ (0 : Int) + (c'.val : Int) = (c.val : Int)) ↔ _
  constructor
  · rintro ⟨h0, h1⟩
    exact ⟨Fin.ext (by omega), by omega⟩
  · rintro ⟨rfl, h⟩
    exact ⟨by omega, by omega⟩

/-- THE SCATTER-ADD OF ROWS READ AT `(n, c)`: the operand's entry plus the sum, over the update rows `e` whose signed
    index word is `n`, of the update's entry `(e, c)`. -/
theorem scatterAdd_rows_apply {N M C w : Nat}
    (wf : ScatterDims.WF ⟨2, ![N, C]⟩ ⟨2, ![M, 1]⟩ ⟨2, ![M, C]⟩ [1] [0] [0] 1)
    (x : FVec Ideal ⟨2, ![N, C]⟩ .f32) (idx : IVec ⟨2, ![M, 1]⟩ w) (upd : FVec Ideal ⟨2, ![M, C]⟩ .f32)
    (n : Fin N) (c : Fin C) :
    Host.scatterAdd (F := Ideal) (rowScatterDims N M C wf) x idx upd (ix2 n c)
      = x (ix2 n c) + ∑ e ∈ landsOn idx N n, upd (ix2 e c) := by
  unfold Host.scatterAdd
  rw [Ideal.hostScatterAdd_def]
  unfold Ideal.hostScatterAdd
  congr 1
  rw [Finset.sum_filter, sum_idx2]
  unfold landsOn
  rw [Finset.sum_filter]
  refine Finset.sum_congr rfl (fun e _ => ?_)
  simp only [resultIdx?_rows]
  by_cases hP : (idx (ix2 e (0 : Fin 1))).toInt = (n.val : Int)
  · simp [hP]
  · simp [hP]

end Scatter

end Cert.Lib.RowScatter

end
-- ==== Proof.LibScatter1.lean ====
/-
  A scatter-add into a column, read at an index.

  For a column `x` of `N` entries, a column `idx` of `M` integer words (shape `[M, 1]`) and `M` updates, the
  scatter-add puts update `e` onto the operand entry `idx[e]` read as a signed integer and not clamped (an update
  whose entry is outside `[0, N − 1]` is dropped): entry `n` of the result is
  `x n + ∑ e ∈ landsOn idx N n, upd e`, the sum over the updates whose index is `n` — the same set of updates a
  scatter-add of whole rows sends to row `n`.
-/
import Idealize.ShloMosaic.Lib.ValueIdx
import Idealize.ShloMosaic.PureOps.Ideal.Laws
import Idealize.ShloMosaic.Lib.Pipeline.Value
import proofs.«130671_j88399016886916_2_alg».proof.Proof.LibRowScatter

noncomputable section

open scoped BigOperators

namespace Cert.Lib.Scatter1

open Idealize.ShloMosaic Idealize.ShloMosaic.ValueIdx Cert.Lib.RowScatter

/-- The indices of a column of `M` entries are the numbers below `M`. -/
def idx1Equiv (M : Nat) : Fin M ≃ (⟨1, ![M]⟩ : Shape).Idx where
  toFun := ix1
  invFun j := j 0
  left_inv _ := rfl
  right_inv j := (eq_ix1 j).symm

/-- A sum over the indices of a column is the sum over its entries' numbers. -/
theorem sum_idx1 {A : Type*} [AddCommMonoid A] {M : Nat} (f : (⟨1, ![M]⟩ : Shape).Idx → A) :
    ∑ i, f i = ∑ e : Fin M, f (ix1 e) :=
  (Equiv.sum_comp (idx1Equiv M) f).symm

/-- The dimension numbers of a scatter of single entries into a column: operand `[N]`, scatter indices `[M, 1]`,
    updates `[M]`; no window axis, the operand's axis 0 inserted and named by the scatter index, the index vector along
    axis 1 of the scatter indices. Their conditions `wf` are decided on literal shapes. -/
abbrev scatter1Dims (N M : Nat)
    (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- The start of update `e` is the index word `idx (e, 0)` read as a signed integer. -/
theorem scatter1_start {N M w : Nat} (wf : ScatterDims.WF ⟨1, ![N]⟩ ⟨2, ![M, 1]⟩ ⟨1, ![M]⟩ [] [0] [0] 1)
    (idx : IVec ⟨2, ![M, 1]⟩ w) (e : Fin M) :
    (scatter1Dims N M wf).start (ix1 e) idx 0 = (idx (ix2 e (0 : Fin 1))).toInt := by
  unfold ScatterDims.start
  rw [dif_pos (show (0 : Fin 1) ∈ (scatter1Dims N M wf).scatterDimsToOperandDims from List.mem_singleton.mpr rfl)]
  have hsi : (scatter1Dims N M wf).siIdx (ix1 e)
      ⟨List.idxOf (0 : Fin 1) (scatter1Dims N M wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the one axis, an inserted one, the window coordinate is `0`. -/
theorem scatter1_window {N M : Nat} (wf : ScatterDims.WF ⟨1, ![N]⟩ ⟨2, ![M, 1]⟩ ⟨1, ![M]⟩ [] [0] [0] 1) (e : Fin M) :
    (scatter1Dims N M wf).window (ix1 e) 0 = 0 := by
  unfold ScatterDims.window
  rw [dif_neg (fun h => (mem_kept _ _).mp h (List.mem_singleton.mpr rfl))]

/-- Update `e` lands at operand entry `n` exactly when its signed index word is `n`. -/
theorem resultIdx?_one {N M w : Nat} (wf : ScatterDims.WF ⟨1, ![N]⟩ ⟨2, ![M, 1]⟩ ⟨1, ![M]⟩ [] [0] [0] 1)
    (idx : IVec ⟨2, ![M, 1]⟩ w) (e : Fin M) (n : Fin N) :
    (scatter1Dims N M wf).resultIdx? (ix1 e) idx = some (ix1 n)
      ↔ (idx (ix2 e (0 : Fin 1))).toInt = (n.val : Int) := by
  rw [resultIdx?_eq_some_iff]
  constructor
  · intro h
    have h0 := h 0
    rw [scatter1_start, scatter1_window] at h0
    change (idx (ix2 e (0 : Fin 1))).toInt + ((0 : Nat) : Int) = (n.val : Int) at h0
    omega
  · intro h a
    obtain rfl : a = 0 := Subsingleton.elim _ _
    rw [scatter1_start, scatter1_window]
    show _ + ((0 : Nat) : Int) = (n.val : Int)
    omega

/-- THE SCATTER-ADD INTO A COLUMN READ AT `n`: the operand's entry plus the sum, over the updates `e` whose signed
    index word is `n`, of update `e`. -/
theorem scatterAdd1_apply {N M w : Nat}
    (wf : ScatterDims.WF ⟨1, ![N]⟩ ⟨2, ![M, 1]⟩ ⟨1, ![M]⟩ [] [0] [0] 1)
    (x : FVec Ideal ⟨1, ![N]⟩ .f32) (idx : IVec ⟨2, ![M, 1]⟩ w) (upd : FVec Ideal ⟨1, ![M]⟩ .f32) (n : Fin N) :
    Host.scatterAdd (F := Ideal) (scatter1Dims N M wf) x idx upd (ix1 n)
      = x (ix1 n) + ∑ e ∈ landsOn idx N n, upd (ix1 e) := by
  unfold Host.scatterAdd
  rw [Ideal.hostScatterAdd_def]
  unfold Ideal.hostScatterAdd
  congr 1
  rw [Finset.sum_filter, sum_idx1]
  unfold landsOn
  rw [Finset.sum_filter]
  refine Finset.sum_congr rfl (fun e _ => ?_)
  simp only [resultIdx?_one]

end Cert.Lib.Scatter1

end
-- ==== Proof.LibGather1.lean ====
/-
  A gather from a column, read at an index, and two facts about the row a gather reads.

  For a column `x` of `N` entries and a column `idx` of `M` integer words (shape `[M, 1]`), the gather takes result entry
  `e` from the operand entry `idx[e]` read as a signed integer and clamped into `[0, N − 1]`: entry `e` of the result is
  `x (gatherRow idx e)`, the same clamped row that a gather of whole rows reads.

  * An index word whose signed reading is `n < N` makes the gather read row `n`: the clamp does nothing.
  * The usual wrap of a possibly negative index, `select (w < 0) (w + k) w`, leaves a non-negative word as it is.
-/
import Idealize.ShloMosaic.Lib.ValueIdx
import Idealize.ShloMosaic.Lib.Pipeline.Value
import proofs.«130671_j88399016886916_2_alg».proof.Proof.LibRowScatter

noncomputable section

namespace Cert.Lib.Gather1

open Idealize.ShloMosaic Idealize.ShloMosaic.ValueIdx Cert.Lib.RowScatter

section Gather
variable {α : Type}

/-- The dimension numbers of a gather of single entries from a column: operand `[N]`, start indices `[M, 1]`, result
    `[M]`; no offset axis, the operand's axis 0 collapsed and named by the start index, the index vector along axis 1
    of the start indices, a slice one entry. Their conditions `wf` are decided on literal shapes. -/
abbrev gather1Dims (N M : Nat)
    (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE GATHER FROM A COLUMN READ AT `e`: the operand at `gatherRow N hN idx e`, the start index `idx (e, 0)` read signed
    and clamped into `[0, N − 1]`. -/
theorem gather1_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (gather1Dims N M wf) x idx (ix1 e) = x (ix1 (gatherRow N hN idx e)) := by
  unfold Host.gather
  congr 1
  funext a
  obtain rfl : a = 0 := Subsingleton.elim _ _
  refine Fin.ext ?_
  show (gather1Dims N M wf).start (ix1 e) idx 0 + (gather1Dims N M wf).batchCoord (ix1 e) 0
    + (gather1Dims N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gather1Dims N M wf).startIndexMap from List.mem_singleton.mpr rfl)]
  have hsi : (gather1Dims N M wf).siIdx (ix1 e) ⟨List.idxOf (0 : Fin 1) (gather1Dims N M wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Gather

/-- An index word whose signed reading is the row `n` makes a gather read row `n`. -/
theorem gatherRow_eq_of_toInt {N M w : Nat} (hN : 0 < N) (idx : IVec ⟨2, ![M, 1]⟩ w) (e : Fin M) (n : Fin N)
    (h : (idx (ix2 e (0 : Fin 1))).toInt = (n.val : Int)) : gatherRow N hN idx e = n := by
  refine Fin.ext ?_
  show min (idx (ix2 e (0 : Fin 1))).toInt.toNat (N - 1) = n.val
  rw [h, Int.toNat_natCast]
  have := n.isLt
  omega

/-- The wrap of a possibly negative index leaves a word whose signed reading is not negative as it is. -/
theorem select_wrap_of_nonneg (x k : BitVec 32) (h : 0 ≤ x.toInt) :
    Scalar.select (IntOp.cmpi .slt x 0#32) (IntOp.addi x k) x = x := by
  have hs : x.slt 0#32 = false := by
    rw [Bool.eq_false_iff]
    intro hs
    have hlt := BitVec.slt_iff_toInt_lt.mp hs
    rw [BitVec.toInt_zero] at hlt
    omega
  show Scalar.select (BitVec.ofBool (x.slt 0#32)) (IntOp.addi x k) x = x
  rw [hs]
  exact select_zero _ _

end Cert.Lib.Gather1

end
-- ==== Proof.LibAggregate.lean ====
/-
  The normalised aggregation of a graph layer, read at an entry.

  For a table `h` of `N` rows and `C` columns, a column `src` of `M` source words, a column `dst` of `M` destination
  words and a weight `w e` per edge `e`, the aggregation gathers row `src e` of `h` for every edge, scales it by `w e`
  and adds it into row `dst e` of a table of zeros. Entry `(n, c)` of the result is
  `0 + ∑ e ∈ edges landing on n, h (row read by e, c) · w e`:
  neither the set of edges landing on `n` nor the row an edge reads depends on the column or on the number of columns, which
  is what lets two tables laid side by side be aggregated at once.
-/
import proofs.«130671_j88399016886916_2_alg».proof.Proof.LibRowScatter

noncomputable section

open scoped BigOperators

namespace Cert.Lib.Aggregate

open Idealize.ShloMosaic Idealize.ShloMosaic.ValueIdx Cert.Lib.RowScatter

/-- A vector of `M` entries made a column and spread along `C` columns, read at `(e, c)`: entry `e`. -/
theorem spread_apply {α : Type} {M C : Nat} (hM : M ≠ 1)
    (h₁ : (⟨1, ![M]⟩ : Shape).BroadcastsInDim ⟨2, ![M, 1]⟩ (![0] : Fin 1 → Fin 2))
    (h₂ : (⟨2, ![M, 1]⟩ : Shape).BroadcastsInDim ⟨2, ![M, C]⟩ (![0, 1] : Fin 2 → Fin 2))
    (v : (⟨1, ![M]⟩ : Shape).Idx → α) (e : Fin M) (c : Fin C) :
    broadcastInDim ⟨2, ![M, C]⟩ ![0, 1] h₂ (broadcastInDim ⟨2, ![M, 1]⟩ ![0] h₁ v) (ix2 e c) = v (ix1 e) := by
  rw [broadcastInDim_apply ![0, 1] h₂ _ (ix2 e c) (ix2 e (0 : Fin 1)) (fun a => by
      match a with
      | ⟨0, _⟩ => show e.val = if M = 1 then 0 else e.val; rw [if_neg hM]
      | ⟨1, _⟩ => show 0 = if (1 : Nat) = 1 then 0 else c.val; rw [if_pos rfl]),
    broadcastInDim_apply ![0] h₁ v (ix2 e (0 : Fin 1)) (ix1 e) (fun a => by
      match a with
      | ⟨0, _⟩ => show e.val = if M = 1 then 0 else e.val; rw [if_neg hM])]

/-- A vector of `M` words made a column, read at `(e, 0)`: word `e`. -/
theorem column_apply {α : Type} {M : Nat} (hM : M ≠ 1)
    (h₁ : (⟨1, ![M]⟩ : Shape).BroadcastsInDim ⟨2, ![M, 1]⟩ (![0] : Fin 1 → Fin 2))
    (v : (⟨1, ![M]⟩ : Shape).Idx → α) (e : Fin M) :
    broadcastInDim ⟨2, ![M, 1]⟩ ![0] h₁ v (ix2 e (0 : Fin 1)) = v (ix1 e) :=
  broadcastInDim_apply ![0] h₁ v (ix2 e (0 : Fin 1)) (ix1 e) (fun a => by
    match a with
    | ⟨0, _⟩ => show e.val = if M = 1 then 0 else e.val; rw [if_neg hM])

/-- The aggregation as the host spells it: a scatter-add, into a table of zeros, of the gathered rows each scaled by its
    edge's weight. -/
def aggregate {N M C : Nat}
    (wfS : ScatterDims.WF ⟨2, ![N, C]⟩ ⟨2, ![M, 1]⟩ ⟨2, ![M, C]⟩ [1] [0] [0] 1)
    (wfG : GatherDims.WF ⟨2, ![N, C]⟩ ⟨2, ![M, 1]⟩ ⟨2, ![M, C]⟩ [1] [0] [] [0] [] 1 ![1, C])
    (hz : (⟨0, ![]⟩ : Shape).BroadcastsInDim ⟨2, ![N, C]⟩ (![] : Fin 0 → Fin 2))
    (h₁ : (⟨1, ![M]⟩ : Shape).BroadcastsInDim ⟨2, ![M, 1]⟩ (![0] : Fin 1 → Fin 2))
    (h₂ : (⟨2, ![M, 1]⟩ : Shape).BroadcastsInDim ⟨2, ![M, C]⟩ (![0, 1] : Fin 2 → Fin 2))
    (h : FVec Ideal ⟨2, ![N, C]⟩ .f32) (src dst : IVec ⟨2, ![M, 1]⟩ 32) (w : FVec Ideal ⟨1, ![M]⟩ .f32) :
    FVec Ideal ⟨2, ![N, C]⟩ .f32 :=
  Host.scatterAdd (F := Ideal) (rowScatterDims N M C wfS)
    (broadcastInDim ⟨2, ![N, C]⟩ ![] hz (constant (F := Ideal) ⟨0, ![]⟩ .f32 0x00000000#32)) dst
    (mulf (Host.gather (rowGatherDims N M C wfG) h src)
      (broadcastInDim ⟨2, ![M, C]⟩ ![0, 1] h₂ (broadcastInDim ⟨2, ![M, 1]⟩ ![0] h₁ w)))

/-- THE AGGREGATION READ AT `(n, c)`: the zero word plus the sum, over the edges whose signed destination word is `n`,
    of the table's entry at the edge's clamped source row and column `c` times the edge's weight. -/
theorem aggregate_apply {N M C : Nat} (hN : 0 < N) (hM : M ≠ 1)
    (wfS : ScatterDims.WF ⟨2, ![N, C]⟩ ⟨2, ![M, 1]⟩ ⟨2, ![M, C]⟩ [1] [0] [0] 1)
    (wfG : GatherDims.WF ⟨2, ![N, C]⟩ ⟨2, ![M, 1]⟩ ⟨2, ![M, C]⟩ [1] [0] [] [0] [] 1 ![1, C])
    (hz : (⟨0, ![]⟩ : Shape).BroadcastsInDim ⟨2, ![N, C]⟩ (![] : Fin 0 → Fin 2))
    (h₁ : (⟨1, ![M]⟩ : Shape).BroadcastsInDim ⟨2, ![M, 1]⟩ (![0] : Fin 1 → Fin 2))
    (h₂ : (⟨2, ![M, 1]⟩ : Shape).BroadcastsInDim ⟨2, ![M, C]⟩ (![0, 1] : Fin 2 → Fin 2))
    (h : FVec Ideal ⟨2, ![N, C]⟩ .f32) (src dst : IVec ⟨2, ![M, 1]⟩ 32) (w : FVec Ideal ⟨1, ![M]⟩ .f32)
    (n : Fin N) (c : Fin C) :
    aggregate wfS wfG hz h₁ h₂ h src dst w (ix2 n c)
      = Ideal.ofBits .f32 0x00000000#32 + ∑ e ∈ landsOn dst N n, h (ix2 (gatherRow N hN src e) c) * w (ix1 e) := by
  unfold aggregate
  rw [scatterAdd_rows_apply]
  congr 1
  refine Finset.sum_congr rfl fun e _ => ?_
  show (Host.gather (rowGatherDims N M C wfG) h src (ix2 e c) : EReal)
      * broadcastInDim ⟨2, ![M, C]⟩ ![0, 1] h₂ (broadcastInDim ⟨2, ![M, 1]⟩ ![0] h₁ w) (ix2 e c) = _
  rw [gather_rows_apply hN, spread_apply hM]

end Cert.Lib.Aggregate

end
-- ==== Proof.LibSpread.lean ====
/-
  Spread and column forms of small arrays, read at an entry.

  * A scalar constant spread over any shape reads the constant's value (`splat_apply`).
  * A vector of length `M` made an `M × 1` column reads the vector (`col_apply`); spread further along `N` lanes it reads,
    at `(p, q)`, the vector at `p` (`colSpread_apply`).
  * An `M × 1` column, or a `1 × M` row, read back as a vector (`colVec_apply`, `rowVec_apply`).
  * Row 0 of a `2 × M` table of words, sliced off, read as a vector and made a column, is the column `srcCol` of the
    table's first row (`srcCol_eq`) — the index column of a scatter or gather keyed by an edge list's source row.
-/
import Idealize.ShloMosaic.Lib.ValueIdx
import Idealize.ShloMosaic.Lib.Pipeline.Value
import Idealize.ShloMosaic.PureOps.Ideal.Laws

noncomputable section

namespace Cert.Lib.Spread

open Idealize.ShloMosaic Idealize.ShloMosaic.ValueIdx

variable {α : Type} {M N : Nat}

/-- A scalar constant spread over any shape reads the constant's value. -/
theorem splat_apply {s : Shape} (h : (⟨0, ![]⟩ : Shape).BroadcastsInDim s (![] : Fin 0 → Fin s.rank))
    (w : BitVec 32) (i : s.Idx) :
    broadcastInDim s ![] h (constant (F := Ideal) ⟨0, ![]⟩ .f32 w) i = Ideal.ofBits .f32 w := by
  rw [broadcastInDim_apply _ h _ i (fun a => a.elim0) (fun a => a.elim0), constant_apply]

/-- A vector of length `M` made a column and spread along `N` lanes reads, at `(p, q)`, the vector at `p`. -/
theorem colSpread_apply (v : (⟨1, ![M]⟩ : Shape).Idx → α)
    (h1 : (⟨1, ![M]⟩ : Shape).BroadcastsInDim ⟨2, ![M, 1]⟩ (![0] : Fin 1 → Fin 2))
    (h2 : (⟨2, ![M, 1]⟩ : Shape).BroadcastsInDim ⟨2, ![M, N]⟩ (![0, 1] : Fin 2 → Fin 2)) (p : Fin M) (q : Fin N) :
    broadcastInDim ⟨2, ![M, N]⟩ ![0, 1] h2 (broadcastInDim ⟨2, ![M, 1]⟩ ![0] h1 v) (ix2 p q) = v (ix1 p) := by
  refine (broadcastInDim_apply _ h2 _ (ix2 p q) (ix2 p (0 : Fin 1)) (fun a => ?_)).trans ?_
  · match a with
    | ⟨0, _⟩ =>
      show p.val = if M = 1 then 0 else p.val
      split
      · have := p.isLt; omega
      · rfl
    | ⟨1, _⟩ => exact (if_pos rfl).symm
  · refine broadcastInDim_apply _ h1 v (ix2 p (0 : Fin 1)) (ix1 p) (fun a => ?_)
    match a with
    | ⟨0, _⟩ =>
      show p.val = if M = 1 then 0 else p.val
      split
      · have := p.isLt; omega
      · rfl

/-- A vector of length `M` made a column reads, at `(e, 0)`, the vector at `e`. -/
theorem col_apply (v : (⟨1, ![M]⟩ : Shape).Idx → α)
    (h1 : (⟨1, ![M]⟩ : Shape).BroadcastsInDim ⟨2, ![M, 1]⟩ (![0] : Fin 1 → Fin 2)) (e : Fin M) :
    broadcastInDim ⟨2, ![M, 1]⟩ ![0] h1 v (ix2 e (0 : Fin 1)) = v (ix1 e) := by
  refine broadcastInDim_apply _ h1 v (ix2 e (0 : Fin 1)) (ix1 e) (fun a => ?_)
  match a with
  | ⟨0, _⟩ =>
    show e.val = if M = 1 then 0 else e.val
    split
    · have := e.isLt; omega
    · rfl

/-- An `M × 1` column read back as a vector reads, at `p`, the column at `(p, 0)`. -/
theorem colVec_apply (v : (⟨2, ![M, 1]⟩ : Shape).Idx → α) (h : (⟨2, ![M, 1]⟩ : Shape).ShapeCasts ⟨1, ![M]⟩) (p : Fin M) :
    shapeCast ⟨1, ![M]⟩ v h (ix1 p) = v (ix2 p (0 : Fin 1)) :=
  shapeCast_apply v h (ix1 p) (ix2 p (0 : Fin 1)) (by
    rw [Shape.rowMajor_val_one, Shape.rowMajor_val_two]
    show p.val * 1 + 0 = p.val
    omega)

/-- A `1 × M` row read back as a vector reads, at `e`, the row at `(0, e)`. -/
theorem rowVec_apply (v : (⟨2, ![1, M]⟩ : Shape).Idx → α) (h : (⟨2, ![1, M]⟩ : Shape).ShapeCasts ⟨1, ![M]⟩) (e : Fin M) :
    shapeCast ⟨1, ![M]⟩ v h (ix1 e) = v (ix2 (0 : Fin 1) e) :=
  shapeCast_apply v h (ix1 e) (ix2 (0 : Fin 1) e) (by
    rw [Shape.rowMajor_val_one, Shape.rowMajor_val_two]
    show 0 * M + e.val = e.val
    omega)

/-- The column of source words: row 0 of the `2 × M` edge index, one word per edge. -/
def srcCol (EI : (⟨2, ![2, M]⟩ : Shape).Idx → BitVec 32) : (⟨2, ![M, 1]⟩ : Shape).Idx → BitVec 32 :=
  fun i => EI (ix2 (0 : Fin 2) ⟨(i 0).val, (i 0).isLt⟩)

/-- Slicing row 0 off the edge index, reading it as a vector and making that a column gives `srcCol`. -/
theorem srcCol_eq (EI : (⟨2, ![2, M]⟩ : Shape).Idx → BitVec 32)
    (hs : (⟨2, ![2, M]⟩ : Shape).Slices ![0, 0] ⟨2, ![1, M]⟩) (hc : (⟨2, ![1, M]⟩ : Shape).ShapeCasts ⟨1, ![M]⟩)
    (h1 : (⟨1, ![M]⟩ : Shape).BroadcastsInDim ⟨2, ![M, 1]⟩ (![0] : Fin 1 → Fin 2)) :
    broadcastInDim ⟨2, ![M, 1]⟩ ![0] h1 (shapeCast ⟨1, ![M]⟩ (extractStridedSlice ⟨2, ![1, M]⟩ ![0, 0] EI hs) hc)
      = srcCol EI := by
  funext i
  obtain ⟨e, z, rfl⟩ : ∃ (e : Fin M) (z : Fin 1), i = ix2 e z := ⟨i 0, i 1, eq_ix2 i⟩
  obtain rfl : z = 0 := Subsingleton.elim _ _
  rw [col_apply, rowVec_apply]
  exact extractStridedSlice_apply ![0, 0] EI hs (ix2 (0 : Fin 1) e) (ix2 (0 : Fin 2) e) (fun a => by
    match a with
    | ⟨0, _⟩ => rfl
    | ⟨1, _⟩ => show e.val = 0 + e.val; omega)

end Cert.Lib.Spread

end
-- ==== Proof.GcnGraph.lean ====
/-
  The graph both programs build from the edge-index array, and the normalisation vector they derive from it.

  The edge-index array holds two rows of 1250000 signed words: the first endpoints and the second endpoints of the
  edges. Each row is followed by the words 0, 1, …, 49999 (one self-loop per node), which gives two vectors of
  1300000 words, `rowVec` and `colVec`. A scatter-add by the second endpoints uses `colVec` as a column as it stands
  (`colS`): an edge whose word, read signed, is outside `[0, 50000)` is dropped. A gather first wraps a negative word
  by adding 50000 and then clamps (`rowG`, `colG`).

  * `edges` packages this as the abstract edge list of the specification: the row a gather by the first endpoint
    reads, the row a gather by the second endpoint reads, and for every node the set of edges a scatter-add by the
    second endpoint adds into it. An edge that lands on node `n` has the word `n ≥ 0`, which the wrap and the clamp
    leave alone, so the gather by its second endpoint reads row `n`.
  * `dinvVec` is the normalisation vector: the degree of a node is the number of edges landing on it (a scatter-add of
    ones into zeros); where the degree is positive the vector holds its reciprocal square root, elsewhere zero. Every
    entry is a real (`dinv_real`).
-/
import proofs.«130671_j88399016886916_2_alg».proof.Proof.LibGcnSpec
import proofs.«130671_j88399016886916_2_alg».proof.Proof.LibRowScatter
import proofs.«130671_j88399016886916_2_alg».proof.Proof.LibScatter1
import proofs.«130671_j88399016886916_2_alg».proof.Proof.LibGather1
import proofs.«130671_j88399016886916_2_alg».proof.Proof.LibAggregate
import proofs.«130671_j88399016886916_2_alg».proof.Proof.LibSpread
import proofs.«130671_j88399016886916_2_alg».proof.Proof.LibRealOps

noncomputable section

open scoped BigOperators

namespace Cert.Gcn.Graph

open Idealize.ShloMosaic Idealize.ShloMosaic.ValueIdx Cert.Lib.RowScatter

/-! ## The shape facts, decided on the literal shapes -/

theorem slices_row : (⟨2, ![2, 1250000]⟩ : Shape).Slices ![0, 0] ⟨2, ![1, 1250000]⟩ := by decide
theorem slices_col : (⟨2, ![2, 1250000]⟩ : Shape).Slices ![1, 0] ⟨2, ![1, 1250000]⟩ := by decide
theorem casts_vec : (⟨2, ![1, 1250000]⟩ : Shape).ShapeCasts ⟨1, ![1250000]⟩ := by decide
theorem concats_vec : Shape.Concatenates [⟨1, ![1250000]⟩, ⟨1, ![50000]⟩] ⟨1, ![1300000]⟩ 0 := by decide
theorem bcast_edges : (⟨0, ![]⟩ : Shape).BroadcastsInDim ⟨1, ![1300000]⟩ (![] : Fin 0 → Fin 1) := by decide
theorem bcast_nodes : (⟨0, ![]⟩ : Shape).BroadcastsInDim ⟨1, ![50000]⟩ (![] : Fin 0 → Fin 1) := by decide
theorem bcast_col : (⟨1, ![1300000]⟩ : Shape).BroadcastsInDim ⟨2, ![1300000, 1]⟩ (![0] : Fin 1 → Fin 2) := by decide
theorem scatter1_wf : ScatterDims.WF ⟨1, ![50000]⟩ ⟨2, ![1300000, 1]⟩ ⟨1, ![1300000]⟩ [] [0] [0] 1 := by decide
theorem gather1_wf : GatherDims.WF ⟨1, ![50000]⟩ ⟨2, ![1300000, 1]⟩ ⟨1, ![1300000]⟩ [] [0] [] [0] [] 1 ![1] := by decide

/-! ## The endpoint vectors and the index columns -/

/-- The first endpoints: row 0 of the edge index followed by the node numbers. -/
def rowVec (EI : IVec ⟨2, ![2, 1250000]⟩ 32) : IVec ⟨1, ![1300000]⟩ 32 :=
  concatenate ⟨1, ![1300000]⟩ 0
    [⟨⟨1, ![1250000]⟩, shapeCast ⟨1, ![1250000]⟩ (extractStridedSlice ⟨2, ![1, 1250000]⟩ ![0, 0] EI slices_row) casts_vec⟩,
     ⟨⟨1, ![50000]⟩, iotaInDim ⟨1, ![50000]⟩ 32 0⟩] concats_vec

/-- The second endpoints: row 1 of the edge index followed by the node numbers. -/
def colVec (EI : IVec ⟨2, ![2, 1250000]⟩ 32) : IVec ⟨1, ![1300000]⟩ 32 :=
  concatenate ⟨1, ![1300000]⟩ 0
    [⟨⟨1, ![1250000]⟩, shapeCast ⟨1, ![1250000]⟩ (extractStridedSlice ⟨2, ![1, 1250000]⟩ ![1, 0] EI slices_col) casts_vec⟩,
     ⟨⟨1, ![50000]⟩, iotaInDim ⟨1, ![50000]⟩ 32 0⟩] concats_vec

/-- The wrap of a vector of possibly negative node words: a negative word has 50000 added. -/
def wrap (v : IVec ⟨1, ![1300000]⟩ 32) : IVec ⟨1, ![1300000]⟩ 32 :=
  select (cmpi .slt v (broadcastInDim ⟨1, ![1300000]⟩ ![] bcast_edges (constantI ⟨0, ![]⟩ 32 0#32)))
    (addi v (broadcastInDim ⟨1, ![1300000]⟩ ![] bcast_edges (constantI ⟨0, ![]⟩ 32 50000#32))) v

/-- The column a scatter-add by the second endpoints uses. -/
def colS (EI : IVec ⟨2, ![2, 1250000]⟩ 32) : IVec ⟨2, ![1300000, 1]⟩ 32 :=
  broadcastInDim ⟨2, ![1300000, 1]⟩ ![0] bcast_col (colVec EI)

/-- The column a gather by the first endpoints uses. -/
def rowG (EI : IVec ⟨2, ![2, 1250000]⟩ 32) : IVec ⟨2, ![1300000, 1]⟩ 32 :=
  broadcastInDim ⟨2, ![1300000, 1]⟩ ![0] bcast_col (wrap (rowVec EI))

/-- The column a gather by the second endpoints uses. -/
def colG (EI : IVec ⟨2, ![2, 1250000]⟩ 32) : IVec ⟨2, ![1300000, 1]⟩ 32 :=
  broadcastInDim ⟨2, ![1300000, 1]⟩ ![0] bcast_col (wrap (colVec EI))

theorem colS_apply (EI : IVec ⟨2, ![2, 1250000]⟩ 32) (e : Fin 1300000) :
    colS EI (ix2 e (0 : Fin 1)) = colVec EI (ix1 e) :=
  Cert.Lib.Aggregate.column_apply (by decide) bcast_col (colVec EI) e

theorem wrap_apply (v : IVec ⟨1, ![1300000]⟩ 32) (e : Fin 1300000) :
    wrap v (ix1 e) = Scalar.select (IntOp.cmpi .slt (v (ix1 e)) 0#32) (IntOp.addi (v (ix1 e)) 50000#32) (v (ix1 e)) := rfl

theorem colG_apply (EI : IVec ⟨2, ![2, 1250000]⟩ 32) (e : Fin 1300000) :
    colG EI (ix2 e (0 : Fin 1)) = wrap (colVec EI) (ix1 e) :=
  Cert.Lib.Aggregate.column_apply (by decide) bcast_col (wrap (colVec EI)) e

/-- An edge whose second-endpoint word, read signed, is the node `n`: the gather by the second endpoint reads row `n`. -/
theorem colG_row_of_lands (EI : IVec ⟨2, ![2, 1250000]⟩ 32) (n : Fin 50000) (e : Fin 1300000)
    (he : e ∈ landsOn (colS EI) 50000 n) : gatherRow 50000 (by decide) (colG EI) e = n := by
  have h : (colS EI (ix2 e (0 : Fin 1))).toInt = (n.val : Int) := (Finset.mem_filter.mp he).2
  rw [colS_apply] at h
  refine Cert.Lib.Gather1.gatherRow_eq_of_toInt (by decide) (colG EI) e n ?_
  rw [colG_apply, wrap_apply, Cert.Lib.Gather1.select_wrap_of_nonneg _ _ (by rw [h]; exact Int.natCast_nonneg _)]
  exact h

/-- The edge list as both programs resolve it. -/
def edges (EI : IVec ⟨2, ![2, 1250000]⟩ 32) : Cert.Gcn.Edges 50000 1300000 where
  src e := gatherRow 50000 (by decide) (rowG EI) e
  tgt e := gatherRow 50000 (by decide) (colG EI) e
  lands n := landsOn (colS EI) 50000 n
  tgt_lands n e he := colG_row_of_lands EI n e he

/-! ## The degrees and the normalisation vector -/

/-- The degrees: a one per edge, scatter-added into zeros by the second endpoints. -/
def degVec (EI : IVec ⟨2, ![2, 1250000]⟩ 32) : FVec Ideal ⟨1, ![50000]⟩ .f32 :=
  Host.scatterAdd (F := Ideal) (Cert.Lib.Scatter1.scatter1Dims 50000 1300000 scatter1_wf)
    (broadcastInDim ⟨1, ![50000]⟩ ![] bcast_nodes (constant (F := Ideal) ⟨0, ![]⟩ .f32 0x00000000#32))
    (colS EI)
    (broadcastInDim ⟨1, ![1300000]⟩ ![] bcast_edges (constant (F := Ideal) ⟨0, ![]⟩ .f32 0x3F800000#32))

/-- The normalisation vector: the reciprocal square root of the degree where the degree is positive, else zero. -/
def dinvVec (EI : IVec ⟨2, ![2, 1250000]⟩ 32) : FVec Ideal ⟨1, ![50000]⟩ .f32 :=
  select
    (cmpf .ogt (degVec EI)
      (broadcastInDim ⟨1, ![50000]⟩ ![] bcast_nodes (constant (F := Ideal) ⟨0, ![]⟩ .f32 0x00000000#32)))
    (Host.rsqrt (F := Ideal) (degVec EI))
    (broadcastInDim ⟨1, ![50000]⟩ ![] bcast_nodes (id (constant (F := Ideal) ⟨0, ![]⟩ .f32 0x00000000#32)))

/-- The word of 1.0 denotes the real one. -/
theorem ofBits_one_f32 : Ideal.ofBits .f32 0x3F800000#32 = 1 := by
  simp [Ideal.ofBits, Ideal.ieee, -EReal.coe_mul]; norm_num

/-- The number of edges landing on node `n`. -/
def degree (EI : IVec ⟨2, ![2, 1250000]⟩ 32) (n : Fin 50000) : ℕ := (landsOn (colS EI) 50000 n).card

/-- The degree vector at node `n` is the number of edges landing on `n`, a real. -/
theorem degVec_apply (EI : IVec ⟨2, ![2, 1250000]⟩ 32) (n : Fin 50000) :
    degVec EI (ix1 n) = (((degree EI n : ℕ) : ℝ) : EReal) := by
  unfold degVec
  rw [Cert.Lib.Scatter1.scatterAdd1_apply, Cert.Lib.Spread.splat_apply, Ideal.ofBits_zero_f32, zero_add]
  refine (Finset.sum_congr rfl (fun e _ =>
    (Cert.Lib.Spread.splat_apply bcast_edges 0x3F800000#32 (ix1 e)).trans ofBits_one_f32)).trans ?_
  unfold degree
  exact ProofLib.RealOps.sum_ones (landsOn (colS EI) 50000 n)

/-- The host's reciprocal square root of a vector, read at an index. -/
theorem hostRsqrt_apply {s : Shape} (x : FVec Ideal s .f32) (i : s.Idx) :
    Host.rsqrt (F := Ideal) x i = Ideal.rsqrt (x i) := rfl

/-- The real normalisation factor of node `n`. -/
def dinvR (EI : IVec ⟨2, ![2, 1250000]⟩ 32) (n : Fin 50000) : ℝ :=
  if 0 < degree EI n then (Real.sqrt (degree EI n : ℝ))⁻¹ else 0

/-- Every entry of the normalisation vector is a real. -/
theorem dinv_real (EI : IVec ⟨2, ![2, 1250000]⟩ 32) (n : Fin 50000) :
    dinvVec EI (ix1 n) = ((dinvR EI n : ℝ) : EReal) := by
  unfold dinvVec
  rw [select_apply, cmpf_apply, Ideal.cmpf_def, hostRsqrt_apply, id_eq, Cert.Lib.Spread.splat_apply,
    Ideal.ofBits_zero_f32, degVec_apply]
  unfold dinvR Scalar.select
  by_cases hd : 0 < degree EI n
  · have hr : (0 : ℝ) < (degree EI n : ℝ) := by exact_mod_cast hd
    have hc : Ideal.cmp .ogt (((degree EI n : ℕ) : ℝ) : EReal) 0 = (1 : BitVec 1) :=
      (ProofLib.RealOps.cmp_ogt_eq_one_iff _ _).mpr (by exact_mod_cast hr)
    rw [if_pos hc, if_pos hd, ProofLib.RealOps.rsqrt_coe_of_pos hr]
  · have hc : ¬ Ideal.cmp .ogt (((degree EI n : ℕ) : ℝ) : EReal) 0 = (1 : BitVec 1) := fun e => by
      have := (ProofLib.RealOps.cmp_ogt_eq_one_iff _ _).mp e
      exact hd (by exact_mod_cast this)
    rw [if_neg hc, if_neg hd, EReal.coe_zero]

/-- The normalisation factor is not negative. -/
theorem dinvR_nonneg (EI : IVec ⟨2, ![2, 1250000]⟩ 32) (n : Fin 50000) : 0 ≤ dinvR EI n := by
  unfold dinvR
  split
  · exact inv_nonneg.mpr (Real.sqrt_nonneg _)
  · exact le_rfl

end Cert.Gcn.Graph

end
-- ==== Proof.KerHostA.lean ====
/-
  The first host operations of the kernel's program: the endpoint vectors and the normalisation vector.

  From the edge-index argument the host builds the two endpoint vectors (each row followed by the node numbers),
  counts the edges landing on every node (a scatter-add of ones into zeros by the second endpoints) and takes the
  reciprocal square root of the count where it is positive, zero elsewhere. These are the graph's `rowVec`, `colVec` and
  `dinvVec` of the edge-index argument.
-/
import proofs.«130671_j88399016886916_2_alg».proof.Proof.Gen.KernelIdeal.Regions
import proofs.«130671_j88399016886916_2_alg».proof.Proof.GcnGraph

noncomputable section

open scoped BigOperators

namespace Cert.Gcn.Ker

open Idealize.ShloMosaic Idealize.ShloMosaic.ValueIdx Idealize.ShloMosaic.TcCoe Idealize.SL.Sem
open Cert.KernelIdeal Cert.KernelIdeal.Gen Cert.Lib.RowScatter

section Where
variable (W : Valuation τ sig (Elt Ideal))

/-- The flag "the degree is positive". -/
abbrev a12 : IVec S50000 1 := W (Proc.devRef .tc main_v12)
/-- The reciprocal square roots of the degrees. -/
abbrev a13 : FVec Ideal S50000 .f32 := W (Proc.devRef .tc main_v13)
/-- The zero scalar. -/
abbrev aZ : FVec Ideal S_ .f32 := W (Proc.devRef .tc main_cst_2)
/-- The normalisation vector the second stretch leaves. -/
abbrev out14 : FVec Ideal S50000 .f32 := StableHlo.after hostOps0_1 W (Proc.devRef .tc main_v14)

/-- The second stretch selects the reciprocal square root where the flag is set and the zero elsewhere. -/
theorem out14_eq : out14 W = select (a12 W) (a13 W) (broadcastInDim S50000 ![] bcast_S_S50000 (id (aZ W))) := by
  show StableHlo.after hostOps0_1 W (Proc.devRef .tc main_v14) = _
  after_results
  rfl

end Where

variable (m : (ℓ : Loc nD τ sig) → Buf (Elt Ideal) ℓ) (c : Dev nD)

/-- The edge-index argument. -/
abbrev argEI : IVec S2x1250000 32 := m ((c : Thread nD τ).loc main_arg1)

/-- The first endpoints after the first stretch. -/
theorem V1_main_v3 : (V1 (F := Ideal) m c main_v3 : S1300000.Idx → BitVec 32) = Graph.rowVec (argEI m c) := by
  show StableHlo.after hostOps0 (V0 m c) (Proc.devRef .tc main_v3) = _
  after_results
  rfl

/-- The second endpoints after the first stretch. -/
theorem V1_main_v6 : (V1 (F := Ideal) m c main_v6 : S1300000.Idx → BitVec 32) = Graph.colVec (argEI m c) := by
  show StableHlo.after hostOps0 (V0 m c) (Proc.devRef .tc main_v6) = _
  after_results
  rfl

/-- The flag "the degree is positive" after the first stretch. -/
theorem V1_main_v12 : a12 (V1 (F := Ideal) m c)
    = cmpf .ogt (Graph.degVec (argEI m c))
        (broadcastInDim S50000 ![] bcast_S_S50000 (constant (F := Ideal) S_ .f32 0x00000000#32)) := by
  show StableHlo.after hostOps0 (V0 m c) (Proc.devRef .tc main_v12) = _
  after_results
  rfl

/-- The reciprocal square roots of the degrees after the first stretch. -/
theorem V1_main_v13 : a13 (V1 (F := Ideal) m c) = Host.rsqrt (F := Ideal) (Graph.degVec (argEI m c)) := by
  show StableHlo.after hostOps0 (V0 m c) (Proc.devRef .tc main_v13) = _
  after_results
  rfl

/-- The zero scalar after the first stretch. -/
theorem V1_main_cst_2 : aZ (V1 (F := Ideal) m c) = constant (F := Ideal) S_ .f32 0x00000000#32 := by
  show StableHlo.after hostOps0 (V0 m c) (Proc.devRef .tc main_cst_2) = _
  after_results

/-- THE NORMALISATION VECTOR after the second stretch is the graph's. -/
theorem V2_main_v14 : out14 (V1 (F := Ideal) m c) = Graph.dinvVec (argEI m c) := by
  rw [out14_eq, V1_main_v12, V1_main_v13, V1_main_cst_2]
  rfl

end Cert.Gcn.Ker

end
-- ==== Proof.KerCols.lean ====
/-
  The index columns of the host's gathers and scatters, as functions of an endpoint vector.

  A vector of 1300000 endpoint words is made a 1300000 × 1 column as it stands for a scatter-add, and after the wrap of
  negative words for a gather. The graph's columns are these functions of its two endpoint vectors.
-/
import proofs.«130671_j88399016886916_2_alg».proof.Proof.GcnGraph

noncomputable section

namespace Cert.Gcn.Ker

open Idealize.ShloMosaic Idealize.ShloMosaic.ValueIdx

/-- A vector of 1300000 words as the index column of a scatter. -/
def colOf (v : IVec ⟨1, ![1300000]⟩ 32) : IVec ⟨2, ![1300000, 1]⟩ 32 :=
  broadcastInDim ⟨2, ![1300000, 1]⟩ ![0] Graph.bcast_col v

/-- A vector of 1300000 words, wrapped, as the index column of a gather. -/
def wrapColOf (v : IVec ⟨1, ![1300000]⟩ 32) : IVec ⟨2, ![1300000, 1]⟩ 32 := colOf (Graph.wrap v)

theorem colS_eq (EI : IVec ⟨2, ![2, 1250000]⟩ 32) : Graph.colS EI = colOf (Graph.colVec EI) := rfl
theorem rowG_eq (EI : IVec ⟨2, ![2, 1250000]⟩ 32) : Graph.rowG EI = wrapColOf (Graph.rowVec EI) := rfl
theorem colG_eq (EI : IVec ⟨2, ![2, 1250000]⟩ 32) : Graph.colG EI = wrapColOf (Graph.colVec EI) := rfl

end Cert.Gcn.Ker

end
-- ==== Proof.KerHostB.lean ====
/-
  The host operations just before the first kernel, read at an index, from any contents they start from.

  From the normalisation vector, the two endpoint vectors and the node features, the host scales the features by the
  normalisation, gathers the scaled features by the wrapped first endpoints and scatter-adds them by the second endpoints
  into zeros: the scalar first-layer aggregate of every node. It lays that aggregate, the normalisation vector and the first
  layer's bias out as columns and a row.
-/
import proofs.«130671_j88399016886916_2_alg».proof.Proof.Gen.KernelIdeal.Regions
import proofs.«130671_j88399016886916_2_alg».proof.Proof.KerCols
import proofs.«130671_j88399016886916_2_alg».proof.Proof.LibScatter1
import proofs.«130671_j88399016886916_2_alg».proof.Proof.LibGather1
import proofs.«130671_j88399016886916_2_alg».proof.Proof.LibSpread
import proofs.«130671_j88399016886916_2_alg».proof.Proof.LibColumn
import Idealize.ShloMosaic.Lib.ValueLayout

noncomputable section

open scoped BigOperators

namespace Cert.Gcn.Ker

open Idealize.ShloMosaic Idealize.ShloMosaic.ValueIdx Idealize.ShloMosaic.TcCoe Idealize.SL.Sem
open Cert.KernelIdeal Cert.KernelIdeal.Gen Cert.Lib.RowScatter

variable (W : Valuation τ sig (Elt Ideal))

/-! ## Typed readings of the contents the stretch starts from, and of what it leaves -/

/-- The first endpoints' vector. -/
abbrev b3 : IVec S1300000 32 := W (Proc.devRef .tc main_v3)
/-- The second endpoints' vector. -/
abbrev b6 : IVec S1300000 32 := W (Proc.devRef .tc main_v6)
/-- The normalisation vector. -/
abbrev b14 : FVec Ideal S50000 .f32 := W (Proc.devRef .tc main_v14)
/-- The node features. -/
abbrev bX : FVec Ideal S50000x1 .f32 := W (Proc.devRef .tc main_arg0)
/-- The first layer's bias. -/
abbrev bB1 : FVec Ideal S64 .f32 := W (Proc.devRef .tc main_arg3)
/-- The normalisation column the stretch leaves. -/
abbrev out27 : FVec Ideal S50000x1 .f32 := StableHlo.after hostOps0_2 W (Proc.devRef .tc main_v27)
/-- The aggregate column the stretch leaves. -/
abbrev out28 : FVec Ideal S50000x1 .f32 := StableHlo.after hostOps0_2 W (Proc.devRef .tc main_v28)
/-- The first layer's bias as a row. -/
abbrev out29 : FVec Ideal S1x64 .f32 := StableHlo.after hostOps0_2 W (Proc.devRef .tc main_v29)

/-- The dimension numbers of the host's column scatter and column gather are the plain ones. -/
theorem scatterCol_eq : scatter_S50000_S1300000x1_S1300000_n_0_0_1
    = Cert.Lib.Scatter1.scatter1Dims 50000 1300000 scatter_S50000_S1300000x1_S1300000_n_0_0_1_wf := rfl
theorem gatherCol_eq : gather_S50000_S1300000x1_S1300000_n_0_n_n_0_1_1
    = Cert.Lib.Gather1.gather1Dims 50000 1300000 gather_S50000_S1300000x1_S1300000_n_0_n_n_0_1_1_wf := rfl

/-- The normalisation column at node `n`. -/
theorem out27_apply (n : Fin 50000) : out27 W (ix2 n 0) = b14 W (ix1 n) := by
  have e : out27 W = shapeCast S50000x1 (b14 W) shapeCasts_S50000_S50000x1 := by
    show StableHlo.after hostOps0_2 W (Proc.devRef .tc main_v27) = _
    after_results
    rfl
  rw [e, Cert.Lib.Column.col_apply]

/-- The first layer's bias laid out as a row. -/
theorem out29_apply (k : Fin 64) : out29 W (ix2 0 k) = bB1 W (ix1 k) := by
  have e : out29 W = shapeCast S1x64 (bB1 W) shapeCasts_S64_S1x64 := by
    show StableHlo.after hostOps0_2 W (Proc.devRef .tc main_v29) = _
    after_results
    rfl
  rw [e, shapeCast_a_1a_apply]

/-- The aggregate column as one term of the contents the stretch starts from. -/
theorem out28_eq :
    out28 W = shapeCast S50000x1
      (Host.scatterAdd (F := Ideal) scatter_S50000_S1300000x1_S1300000_n_0_0_1
        (broadcastInDim S50000 ![] bcast_S_S50000 (constant (F := Ideal) S_ .f32 0x00000000#32))
        (colOf (b6 W))
        (Host.gather gather_S50000_S1300000x1_S1300000_n_0_n_n_0_1_1
          (mulf (b14 W) (shapeCast S50000 (bX W) shapeCasts_S50000x1_S50000)) (wrapColOf (b3 W))))
      shapeCasts_S50000_S50000x1 := by
  show StableHlo.after hostOps0_2 W (Proc.devRef .tc main_v28) = _
  after_results_simp
  rfl

/-- The aggregate column at node `n`: zero plus the sum, over the edges landing on `n`, of the normalisation factor times
    the feature of the node the edge's wrapped first endpoint reads. -/
theorem out28_apply (n : Fin 50000) :
    out28 W (ix2 n 0)
      = 0 + ∑ e ∈ landsOn (colOf (b6 W)) 50000 n,
          b14 W (ix1 (gatherRow 50000 (by decide) (wrapColOf (b3 W)) e))
            * bX W (ix2 (gatherRow 50000 (by decide) (wrapColOf (b3 W)) e) 0) := by
  refine (congrFun (out28_eq W) (ix2 n 0)).trans ?_
  rw [Cert.Lib.Column.col_apply, scatterCol_eq, Cert.Lib.Scatter1.scatterAdd1_apply, Cert.Lib.Spread.splat_apply,
    Ideal.ofBits_zero_f32]
  refine congrArg (fun s : EReal => 0 + s) (Finset.sum_congr rfl fun e _ => ?_)
  rw [gatherCol_eq, Cert.Lib.Gather1.gather1_apply (by decide), mulf_apply, Cert.Lib.Spread.colVec_apply]

/-- The stretch writes neither the normalisation vector, the endpoint vectors nor the arguments. -/
theorem after02_of (r : Ref sig .tc) (h : r ∉ hostOps0_2_W) :
    StableHlo.after hostOps0_2 W (Proc.devRef .tc r) = W (Proc.devRef .tc r) :=
  StableHlo.after_of_writes_sub hostOps0_2 _ hostOps0_2_writes h

end Cert.Gcn.Ker

end
-- ==== Proof.KerHost.lean ====
/-
  The host operations before the first kernel, read at an index, in terms of the argument arrays.

  When the first kernel starts, the normalisation column holds the graph's normalisation vector of the edge-index argument;
  the aggregate column holds, at node `n`, zero plus the sum over the edges landing on `n` of the normalisation factor times the
  feature of the edge's source node; the bias row holds the first layer's bias; the endpoint vectors are the graph's;
  and the arguments are as launched.
-/
import proofs.«130671_j88399016886916_2_alg».proof.Proof.KerHostA
import proofs.«130671_j88399016886916_2_alg».proof.Proof.KerHostB

noncomputable section

open scoped BigOperators

namespace Cert.Gcn.Ker

open Idealize.ShloMosaic Idealize.ShloMosaic.ValueIdx Idealize.ShloMosaic.TcCoe Idealize.SL.Sem
open Cert.KernelIdeal Cert.KernelIdeal.Gen Cert.Lib.RowScatter

variable (m : (ℓ : Loc nD τ sig) → Buf (Elt Ideal) ℓ) (c : Dev nD)

/-! ## Typed readings of the launch contents and of the contents when the first kernel starts -/

/-- The node features argument. -/
abbrev argX : FVec Ideal S50000x1 .f32 := m ((c : Thread nD τ).loc main_arg0)
/-- The first layer's bias argument. -/
abbrev argB1 : FVec Ideal S64 .f32 := m ((c : Thread nD τ).loc main_arg3)
/-- The normalisation column when the first kernel starts. -/
abbrev col27 : FVec Ideal S50000x1 .f32 := V3 (F := Ideal) m c main_v27
/-- The aggregate column when the first kernel starts. -/
abbrev col28 : FVec Ideal S50000x1 .f32 := V3 (F := Ideal) m c main_v28
/-- The first layer's bias row when the first kernel starts. -/
abbrev row29 : FVec Ideal S1x64 .f32 := V3 (F := Ideal) m c main_v29

/-! ## What the third stretch starts from -/

theorem V2_b3 : b3 (V2 (F := Ideal) m c) = Graph.rowVec (argEI m c) :=
  (V2_of m c main_v3 (by decide)).trans (V1_main_v3 m c)
theorem V2_b6 : b6 (V2 (F := Ideal) m c) = Graph.colVec (argEI m c) :=
  (V2_of m c main_v6 (by decide)).trans (V1_main_v6 m c)
theorem V2_b14 : b14 (V2 (F := Ideal) m c) = Graph.dinvVec (argEI m c) := V2_main_v14 m c
theorem V2_bX : bX (V2 (F := Ideal) m c) = argX m c :=
  (V2_of m c main_arg0 (by decide)).trans ((V1_of m c main_arg0 (by decide)).trans rfl)
theorem V2_bB1 : bB1 (V2 (F := Ideal) m c) = argB1 m c :=
  (V2_of m c main_arg3 (by decide)).trans ((V1_of m c main_arg3 (by decide)).trans rfl)

/-! ## The contents when the first kernel starts -/

/-- The normalisation column at node `n`. -/
theorem col27_apply (n : Fin 50000) : col27 m c (ix2 n 0) = Graph.dinvVec (argEI m c) (ix1 n) := by
  refine (out27_apply (V2 (F := Ideal) m c) n).trans ?_
  rw [V2_b14]

/-- The aggregate column at node `n`. -/
theorem col28_apply (n : Fin 50000) :
    col28 m c (ix2 n 0)
      = 0 + ∑ e ∈ landsOn (Graph.colS (argEI m c)) 50000 n,
          Graph.dinvVec (argEI m c) (ix1 (gatherRow 50000 (by decide) (Graph.rowG (argEI m c)) e))
            * argX m c (ix2 (gatherRow 50000 (by decide) (Graph.rowG (argEI m c)) e) 0) := by
  refine (out28_apply (V2 (F := Ideal) m c) n).trans ?_
  rw [V2_b3, V2_b6, V2_b14, V2_bX, ← colS_eq, ← rowG_eq]

/-- The same with the graph's edge list: the sum over the edges landing on `n` of the factor and the feature of the edge's
    source node. -/
theorem col28_apply_edges (n : Fin 50000) :
    col28 m c (ix2 n 0)
      = 0 + ∑ e ∈ (Graph.edges (argEI m c)).lands n,
          Graph.dinvVec (argEI m c) (ix1 ((Graph.edges (argEI m c)).src e))
            * argX m c (ix2 ((Graph.edges (argEI m c)).src e) 0) :=
  col28_apply m c n

/-- The first layer's bias row at column `k`. -/
theorem row29_apply (k : Fin 64) : row29 m c (ix2 0 k) = argB1 m c (ix1 k) := by
  refine (out29_apply (V2 (F := Ideal) m c) k).trans ?_
  rw [V2_bB1]

/-- The endpoint vectors when the first kernel starts. -/
theorem V3_main_v3 : (V3 (F := Ideal) m c main_v3 : S1300000.Idx → BitVec 32) = Graph.rowVec (argEI m c) :=
  (V3_of m c main_v3 (by decide)).trans (V2_b3 m c)
theorem V3_main_v6 : (V3 (F := Ideal) m c main_v6 : S1300000.Idx → BitVec 32) = Graph.colVec (argEI m c) :=
  (V3_of m c main_v6 (by decide)).trans (V2_b6 m c)

/-- The arguments when the first kernel starts are as launched. -/
theorem V3_main_arg (r : Ref sig .tc) (h0 : r ∉ hostOps0_W) (h1 : r ∉ hostOps0_1_W) (h2 : r ∉ hostOps0_2_W) :
    V3 (F := Ideal) m c r = m ((c : Thread nD τ).loc r) :=
  (V3_of m c r h2).trans ((V2_of m c r h1).trans ((V1_of m c r h0).trans rfl))
theorem V3_main_arg2 : V3 (F := Ideal) m c main_arg2 = m ((c : Thread nD τ).loc main_arg2) :=
  V3_main_arg m c main_arg2 (by decide) (by decide) (by decide)
theorem V3_main_arg4 : V3 (F := Ideal) m c main_arg4 = m ((c : Thread nD τ).loc main_arg4) :=
  V3_main_arg m c main_arg4 (by decide) (by decide) (by decide)
theorem V3_main_arg5 : V3 (F := Ideal) m c main_arg5 = m ((c : Thread nD τ).loc main_arg5) :=
  V3_main_arg m c main_arg5 (by decide) (by decide) (by decide)
theorem V3_main_arg6 : V3 (F := Ideal) m c main_arg6 = m ((c : Thread nD τ).loc main_arg6) :=
  V3_main_arg m c main_arg6 (by decide) (by decide) (by decide)
theorem V3_main_arg7 : V3 (F := Ideal) m c main_arg7 = m ((c : Thread nD τ).loc main_arg7) :=
  V3_main_arg m c main_arg7 (by decide) (by decide) (by decide)

end Cert.Gcn.Ker

end
-- ==== Proof.KerHostC.lean ====
/-
  The host operations between the two kernels, read at an index, from any contents they start from.

  From the first kernel's result table (50000 × 64, stored narrow), the endpoint vectors and the arguments, the host
  gathers the table's rows by the wrapped first endpoints, widens them (the identity on the extended reals) and
  scatter-adds them by the second endpoints into a table of zeros; it also lays the second bias and the classifier's bias
  out as rows.
-/
import proofs.«130671_j88399016886916_2_alg».proof.Proof.Gen.KernelIdeal.Regions
import proofs.«130671_j88399016886916_2_alg».proof.Proof.KerCols
import proofs.«130671_j88399016886916_2_alg».proof.Proof.LibRowScatter
import proofs.«130671_j88399016886916_2_alg».proof.Proof.LibSpread
import Idealize.ShloMosaic.Lib.ValueLayout

noncomputable section

open scoped BigOperators

namespace Cert.Gcn.Ker

open Idealize.ShloMosaic Idealize.ShloMosaic.ValueIdx Idealize.ShloMosaic.TcCoe Idealize.SL.Sem
open Cert.KernelIdeal Cert.KernelIdeal.Gen Cert.Lib.RowScatter

variable (W : Valuation τ sig (Elt Ideal))

/-! ## Typed readings of the contents the stretch starts from, and of what it leaves -/

/-- The first endpoints' vector. -/
abbrev vec3 : IVec S1300000 32 := W (Proc.devRef .tc main_v3)
/-- The second endpoints' vector. -/
abbrev vec6 : IVec S1300000 32 := W (Proc.devRef .tc main_v6)
/-- The first kernel's result table. -/
abbrev tab30 : FVec Ideal S50000x64 .bf16 := W (Proc.devRef .tc main_v30)
/-- The second layer's bias. -/
abbrev bias5 : FVec Ideal S64 .f32 := W (Proc.devRef .tc main_arg5)
/-- The classifier's bias. -/
abbrev bias7 : FVec Ideal S4 .f32 := W (Proc.devRef .tc main_arg7)
/-- The aggregated table the stretch leaves. -/
abbrev out41 : FVec Ideal S50000x64 .f32 := StableHlo.after hostOps1 W (Proc.devRef .tc main_v41)
/-- The second bias as a row. -/
abbrev out42 : FVec Ideal S1x64 .f32 := StableHlo.after hostOps1 W (Proc.devRef .tc main_v42)
/-- The classifier's bias as a row. -/
abbrev out43 : FVec Ideal S1x4 .f32 := StableHlo.after hostOps1 W (Proc.devRef .tc main_v43)

/-- The aggregated table as one term of the contents the stretch starts from. -/
theorem out41_eq :
    out41 W = Host.scatterAdd (F := Ideal) scatter_S50000x64_S1300000x1_S1300000x64_1_0_0_1
          (broadcastInDim S50000x64 ![] bcast_S_S50000x64 (constant (F := Ideal) S_ .f32 0x00000000#32))
          (colOf (vec6 W))
          (extf .f32 (Host.gather gather_S50000x64_S1300000x1_S1300000x64_1_0_n_n_0_1_164
            (tab30 W) (wrapColOf (vec3 W))) bitsLt_bf16_f32) := by
  show StableHlo.after hostOps1 W (Proc.devRef .tc main_v41) = _
  after_results
  rfl

/-- The dimension numbers of the host's row scatter and row gather are the plain ones. -/
theorem scatterRows_eq : scatter_S50000x64_S1300000x1_S1300000x64_1_0_0_1
    = rowScatterDims 50000 1300000 64 scatter_S50000x64_S1300000x1_S1300000x64_1_0_0_1_wf := rfl
theorem gatherRows_eq : gather_S50000x64_S1300000x1_S1300000x64_1_0_n_n_0_1_164
    = rowGatherDims 50000 1300000 64 gather_S50000x64_S1300000x1_S1300000x64_1_0_n_n_0_1_164_wf := rfl

/-- The aggregated table at node `n`, column `c'`: zero plus the sum, over the edges landing on `n`, of the first kernel's
    table at the row the edge's wrapped first endpoint reads and column `c'`. -/
theorem out41_apply (n : Fin 50000) (c' : Fin 64) :
    out41 W (ix2 n c')
      = 0 + ∑ e ∈ landsOn (colOf (vec6 W)) 50000 n,
          tab30 W (ix2 (gatherRow 50000 (by decide) (wrapColOf (vec3 W)) e) c') := by
  refine (congrFun (out41_eq W) (ix2 n c')).trans ?_
  rw [scatterRows_eq, scatterAdd_rows_apply, Cert.Lib.Spread.splat_apply, Ideal.ofBits_zero_f32]
  refine congrArg (fun s : EReal => 0 + s) (Finset.sum_congr rfl fun e _ => ?_)
  rw [extf_apply, gatherRows_eq, gather_rows_apply (by decide)]

/-- The second bias laid out as a row. -/
theorem out42_apply (k : Fin 64) : out42 W (ix2 0 k) = bias5 W (ix1 k) := by
  have e : out42 W = shapeCast S1x64 (bias5 W) shapeCasts_S64_S1x64 := by
    show StableHlo.after hostOps1 W (Proc.devRef .tc main_v42) = _
    after_results
    rfl
  rw [e, shapeCast_a_1a_apply]

/-- The classifier's bias laid out as a row. -/
theorem out43_apply (q : Fin 4) : out43 W (ix2 0 q) = bias7 W (ix1 q) := by
  have e : out43 W = shapeCast S1x4 (bias7 W) shapeCasts_S4_S1x4 := by
    show StableHlo.after hostOps1 W (Proc.devRef .tc main_v43) = _
    after_results
    rfl
  rw [e, shapeCast_a_1a_apply]

/-- The stretch writes neither the normalisation column nor the classifier matrix. -/
theorem after1_main_v27 : StableHlo.after hostOps1 W (Proc.devRef .tc main_v27) = W (Proc.devRef .tc main_v27) :=
  StableHlo.after_of_writes_sub hostOps1 _ hostOps1_writes (r := main_v27) (by decide)
theorem after1_main_arg6 : StableHlo.after hostOps1 W (Proc.devRef .tc main_arg6) = W (Proc.devRef .tc main_arg6) :=
  StableHlo.after_of_writes_sub hostOps1 _ hostOps1_writes (r := main_arg6) (by decide)

end Cert.Gcn.Ker

end
-- ==== Proof.KerGlue3.lean ====
/-
  The kernel program's result on the extended reals, for real arguments: the first region is entered with the column
  d of inverse root degrees and the column kS of first-layer aggregates, so its result table is kH2; the host gathers
  and scatter-adds it into kA2; the second region, entered with d, kA2 and the second bias, leaves the head of kPool.
-/
import proofs.«130671_j88399016886916_2_alg».proof.Proof.RunAll
import proofs.«130671_j88399016886916_2_alg».proof.Proof.KerGlue2
import proofs.«130671_j88399016886916_2_alg».proof.Proof.KerHost
import proofs.«130671_j88399016886916_2_alg».proof.Proof.KerHostC
import proofs.«130671_j88399016886916_2_alg».proof.Proof.GcnGraph

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Gcn Cert.Gcn.Ker Cert.Lib.RowScatter

variable (m : (ℓ : Loc nD τ sig) → Buf (Elt Ideal) ℓ) (c : Dev nD)
variable (x : Fin 50000 → ℝ) (W1 b1 : Fin 64 → ℝ) (W2 : Fin 64 → Fin 64 → ℝ) (b2 : Fin 64 → ℝ)

/-! ## The arguments as arrays of extended reals -/

abbrev aX : S50000x1.Idx → EReal := m ((c : Thread nD τ).loc main_arg0)
abbrev aW1 : S1x64.Idx → EReal := m ((c : Thread nD τ).loc main_arg2)
abbrev aB1 : S64.Idx → EReal := m ((c : Thread nD τ).loc main_arg3)
abbrev aW2 : S64x64.Idx → EReal := m ((c : Thread nD τ).loc main_arg4)
abbrev aB2 : S64.Idx → EReal := m ((c : Thread nD τ).loc main_arg5)
abbrev aWfc : S64x4.Idx → EReal := m ((c : Thread nD τ).loc main_arg6)
abbrev aBfc : S4.Idx → EReal := m ((c : Thread nD τ).loc main_arg7)

/-- The five arguments the law needs real hold the reals `x W1 b1 W2 b2`. -/
structure RealArgs : Prop where
  hx : ∀ n : Fin 50000, aX m c (ix2 n (0 : Fin 1)) = ((x n : ℝ) : EReal)
  hW1 : ∀ k : Fin 64, aW1 m c (ix2 (0 : Fin 1) k) = ((W1 k : ℝ) : EReal)
  hb1 : ∀ k : Fin 64, aB1 m c (ix1 k) = ((b1 k : ℝ) : EReal)
  hW2 : ∀ k q : Fin 64, aW2 m c (ix2 k q) = ((W2 k q : ℝ) : EReal)
  hb2 : ∀ k : Fin 64, aB2 m c (ix1 k) = ((b2 k : ℝ) : EReal)

local notation "gE" => Graph.edges (argEI m c)
local notation "dR" => Graph.dinvR (argEI m c)

/-! ## What the first region is entered with -/

theorem e27 (n : Fin 50000) : dCol (V3r m) c (ix2 n (0 : Fin 1)) = ((dR n : ℝ) : EReal) :=
  (col27_apply m c n).trans (Graph.dinv_real _ n)

variable {x W1 b1 W2 b2}

theorem e28 (h : RealArgs m c x W1 b1 W2 b2) (n : Fin 50000) :
    sCol (V3r m) c (ix2 n (0 : Fin 1)) = ((kS gE dR x n : ℝ) : EReal) := by
  refine (col28_apply m c n).trans ?_
  rw [zero_add]
  unfold kS
  rw [ProofLib.BatchNorm.coe_sum]
  refine Finset.sum_congr rfl fun e _ => ?_
  rw [Graph.dinv_real, EReal.coe_mul]
  exact congrArg₂ (· * ·) rfl (h.hx _)

theorem e29 (h : RealArgs m c x W1 b1 W2 b2) (k : Fin 64) :
    b1Row (V3r m) c (ix2 (0 : Fin 1) k) = ((b1 k : ℝ) : EReal) :=
  (row29_apply m c k).trans (h.hb1 k)

theorem eW1 (h : RealArgs m c x W1 b1 W2 b2) (k : Fin 64) :
    w1Row (V3r m) c (ix2 (0 : Fin 1) k) = ((W1 k : ℝ) : EReal) := by
  show (Gen.V3 (F := Ideal) m c main_arg2 : S1x64.Idx → EReal) (ix2 (0 : Fin 1) k) = _
  rw [V3_main_arg2]; exact h.hW1 k

theorem eW2 (h : RealArgs m c x W1 b1 W2 b2) (k q : Fin 64) :
    w2Mat (V3r m) c (ix2 k q) = ((W2 k q : ℝ) : EReal) := by
  show (Gen.V3 (F := Ideal) m c main_arg4 : S64x64.Idx → EReal) (ix2 k q) = _
  rw [V3_main_arg4]; exact h.hW2 k q

/-! ## The first region's result table -/

theorem h2_coe (d s : ℝ) (W1 b1 : Fin 64 → ℝ) (W2 : Fin 64 → Fin 64 → ℝ) (q : Fin 64) :
    (d : EReal) * ∑ k : Fin 64, max ((d : EReal) * (s : EReal) * (W1 k : EReal) + (b1 k : EReal)) 0 * (W2 k q : EReal)
      = ((d * ∑ k : Fin 64, max (d * s * W1 k + b1 k) 0 * W2 k q : ℝ) : EReal) := by
  rw [EReal.coe_mul, ProofLib.BatchNorm.coe_sum]
  refine congrArg _ (Finset.sum_congr rfl fun k _ => ?_)
  rw [EReal.coe_mul, coe_max', EReal.coe_add, EReal.coe_mul, EReal.coe_mul, EReal.coe_zero]

theorem e30 (h : RealArgs m c x W1 b1 W2 b2) (n : Fin 50000) (q : Fin 64) :
    ((dat0 (V3r m) c).arrAt 5 cfg0.N : S50000x64.Idx → EReal) (ix2 n q) = ((kH2 gE dR x W1 b1 W2 n q : ℝ) : EReal) := by
  refine (final0 (V3r m) c n q).trans ?_
  simp only [e28 m c h, e29 m c h, eW1 m c h, eW2 m c h]
  rw [e27 m c n]
  unfold kH2 kH1
  exact h2_coe (dR n) (kS gE dR x n) W1 b1 W2 q

/-! ## What the second region is entered with -/

theorem w4_v6 : vec6 (W4 m c) = Graph.colVec (argEI m c) :=
  (W4_of_ne m c main_v6 (by decide)).trans (V3_main_v6 m c)
theorem w4_v3 : vec3 (W4 m c) = Graph.rowVec (argEI m c) :=
  (W4_of_ne m c main_v3 (by decide)).trans (V3_main_v3 m c)
theorem w4_v30 : tab30 (W4 m c) = (dat0 (V3r m) c).arrAt 5 cfg0.N := W4_arr m c 5

theorem e41 (h : RealArgs m c x W1 b1 W2 b2) (n : Fin 50000) (cc : Fin 64) :
    aggArr (V5r m) c (ix2 n cc) = ((kA2 gE dR x W1 b1 W2 n cc : ℝ) : EReal) := by
  refine (out41_apply (W4 m c) n cc).trans ?_
  rw [zero_add, w4_v6, w4_v3, w4_v30]
  unfold kA2
  rw [ProofLib.BatchNorm.coe_sum]
  exact Finset.sum_congr rfl fun e _ => e30 m c h _ cc

theorem e27' (n : Fin 50000) : dCol (V5r m) c (ix2 n (0 : Fin 1)) = ((dR n : ℝ) : EReal) := by
  show (StableHlo.after hostOps1 (W4 m c) (Proc.devRef .tc main_v27) : S50000x1.Idx → EReal) (ix2 n (0 : Fin 1)) = _
  rw [after1_main_v27]
  have e : W4 m c (Proc.devRef .tc main_v27) = V3r m c main_v27 :=
    (W4_arr m c 1).trans (((dat0 (V3r m) c).arrAt_in 1 rfl _).trans (A_eq0 (V3r m) c 1))
  rw [e]
  exact e27 m c n

theorem v3_arg (r : Ref sig .tc) (h0 : r ∉ hostOps0_W) (h1 : r ∉ hostOps0_1_W) (h2 : r ∉ hostOps0_2_W)
    (hw : ∀ w, Pipeline.arrRef spec0 w ≠ r) : W4 m c (Proc.devRef .tc r) = m ((c : Thread nD τ).loc r) :=
  (W4_of_ne m c r hw).trans (V3_main_arg m c r h0 h1 h2)

theorem e42 (h : RealArgs m c x W1 b1 W2 b2) (cc : Fin 64) :
    b2Row (V5r m) c (ix2 (0 : Fin 1) cc) = ((b2 cc : ℝ) : EReal) := by
  refine (out42_apply (W4 m c) cc).trans ?_
  show (W4 m c (Proc.devRef .tc main_arg5) : S64.Idx → EReal) (ix1 cc) = _
  rw [v3_arg m c main_arg5 (by decide) (by decide) (by decide) (by decide)]
  exact h.hb2 cc

theorem e43 (q : Fin 4) : bfcRow (V5r m) c (ix2 (0 : Fin 1) q) = aBfc m c (ix1 q) := by
  refine (out43_apply (W4 m c) q).trans ?_
  show (W4 m c (Proc.devRef .tc main_arg7) : S4.Idx → EReal) (ix1 q) = _
  rw [v3_arg m c main_arg7 (by decide) (by decide) (by decide) (by decide)]

theorem e6 (cc : Fin 64) (q : Fin 4) : wfcArr (V5r m) c (ix2 cc q) = aWfc m c (ix2 cc q) := by
  show (StableHlo.after hostOps1 (W4 m c) (Proc.devRef .tc main_arg6) : S64x4.Idx → EReal) (ix2 cc q) = _
  rw [after1_main_arg6, v3_arg m c main_arg6 (by decide) (by decide) (by decide) (by decide)]

/-! ## The kernel program's result -/

/-- For real arguments the kernel program's result row is the head of the pooled vector `kPool`. -/
theorem kernel_value (h : RealArgs m c x W1 b1 W2 b2) (j : Fin 4) :
    (result1 (V5r m) c : S1x4.Idx → EReal) (ix2 (0 : Fin 1) j)
      = tail (fun cc : Fin 64 => ((kPool gE dR x W1 b1 W2 b2 cc : ℝ) : EReal)) (fun (cc : Fin 64) (q : Fin 4) => aWfc m c (ix2 cc q))
          (fun q : Fin 4 => aBfc m c (ix1 q)) j :=
  region1_value (N := 50000) (V5r m) c gE dR x W1 b1 W2 b2 (aWfc m c) (aBfc m c)
    (e27' m c) (e41 m c h) (e42 m c h) (e6 m c) (e43 m c) j

end Cert.KernelIdeal.Run

end
-- ==== Proof.LibFiniteEntry.lean ====
/-
  Reading a precondition's conjuncts back, at the ideal instance.

  A precondition over float arrays is printed as a conjunction of `jnp.all` tests, each an elementwise comparison
  reduced by `and` over every axis. Two tests are read back here, for an array of ANY shape:
  * `jnp.all(jnp.abs(x) < inf)` — every entry's absolute value below the word `0x7F800000`, which at the ideal
    instance is `⊤` — says every entry of `x` is a REAL (`all_real_of_all_abs_lt_inf`; one value:
    `real_of_hostAbsf_olt_inf`): an extended real is `⊥`, a real or `⊤`, and `max x (−x) < ⊤` excludes both ends.
  * `jnp.all(x != 0)` — every entry unequal to the word `0x00000000`, the ideal `0` — says no entry is zero
    (`all_ne_zero_of_all_une_zero`; one value: `ne_zero_of_une_zero`).
  The conjunction itself is an `and` of one-bit words: it is 1 exactly when both sides are (`andi_eq_one`).
-/
import Idealize.ShloMosaic.PureOps.Ideal.Laws
import Idealize.ShloMosaic.Lib.ReduceAll

noncomputable section

namespace ProofLib.Finite

open Idealize.ShloMosaic

/-- The f32 word of `+∞` denotes the top of the extended reals. -/
theorem ofBits_inf_f32 : Ideal.ofBits .f32 0x7F800000#32 = ⊤ := by simp [Ideal.ofBits, Ideal.ieee]

/-- An extended real whose absolute value `max x (−x)` is below `⊤` is a real. -/
theorem exists_real_of_abs_lt_top (x : EReal) (hlt : max x (-x) < ⊤) : ∃ r : ℝ, x = (r : EReal) := by
  have hx_top : x ≠ ⊤ := fun e => by rw [e] at hlt; simp at hlt
  have hx_bot : x ≠ ⊥ := fun e => by rw [e] at hlt; simp at hlt
  exact ⟨x.toReal, (EReal.coe_toReal hx_top hx_bot).symm⟩

/-- One value: the host's `|x| < +∞`, true, says `x` is a real. -/
theorem real_of_hostAbsf_olt_inf (x : Ideal .f32)
    (h : FloatOps.cmpf .olt (FloatOps.hostAbsf x) (FloatOps.ofBits (F := Ideal) .f32 0x7F800000#32) = 1#1) :
    ∃ r : ℝ, (x : EReal) = (r : EReal) := by
  have h' : Ideal.cmp .olt (max (x : EReal) (-(x : EReal))) (Ideal.ofBits .f32 0x7F800000#32) = 1#1 := h
  rw [ofBits_inf_f32] at h'
  unfold Ideal.cmp at h'
  refine exists_real_of_abs_lt_top x ?_
  by_contra hn
  simp [hn] at h'

/-- One value: the host's `x != 0`, true, says `x` is not zero. -/
theorem ne_zero_of_une_zero (x : Ideal .f32)
    (h : FloatOps.cmpf .une x (FloatOps.ofBits (F := Ideal) .f32 0x00000000#32) = 1#1) : (x : EReal) ≠ 0 := by
  have h' : Ideal.cmp .une (x : EReal) (Ideal.ofBits .f32 0x00000000#32) = 1#1 := h
  rw [Ideal.ofBits_zero_f32] at h'
  unfold Ideal.cmp at h'
  intro hx
  simp [hx] at h'

variable {s t u : Shape} {axes : List (Fin s.rank)}

/-- `jnp.all(jnp.abs(x) < inf)`, true: every entry of `x` is a real. `bound` is the comparison's right operand, the
    `+∞` word at every index (a broadcast of the scalar constant). -/
theorem all_real_of_all_abs_lt_inf [Subsingleton t.Idx] (x bound : FVec Ideal s .f32)
    (hbound : ∀ i, bound i = FloatOps.ofBits (F := Ideal) .f32 0x7F800000#32)
    (init : u.Idx → BitVec 1) (h : s.ReducesTo axes t) (hu : 0 < u.numel) (j : t.Idx)
    (e : Host.reduce IntOp.andi (cmpf .olt (Host.absf x) bound) init h hu j = 1#1) (i : s.Idx) :
    ∃ r : ℝ, (x i : EReal) = (r : EReal) := by
  have hi : cmpf .olt (Host.absf x) bound i = 1#1 := Host.reduce_andi_all _ init h hu j e i
  refine real_of_hostAbsf_olt_inf (x i) ?_
  rw [← hbound i]
  exact hi

/-- `jnp.all(x != 0)`, true: no entry of `x` is zero. `zero` is the comparison's right operand, the zero word at every
    index. -/
theorem all_ne_zero_of_all_une_zero [Subsingleton t.Idx] (x zero : FVec Ideal s .f32)
    (hzero : ∀ i, zero i = FloatOps.ofBits (F := Ideal) .f32 0x00000000#32)
    (init : u.Idx → BitVec 1) (h : s.ReducesTo axes t) (hu : 0 < u.numel) (j : t.Idx)
    (e : Host.reduce IntOp.andi (cmpf .une x zero) init h hu j = 1#1) (i : s.Idx) : (x i : EReal) ≠ 0 := by
  have hi : cmpf .une x zero i = 1#1 := Host.reduce_andi_all _ init h hu j e i
  refine ne_zero_of_une_zero (x i) ?_
  rw [← hzero i]
  exact hi

/-- The conjunction of two one-bit flags is 1 exactly when both are. -/
theorem andi_eq_one (a b : BitVec 1) : a &&& b = 1#1 ↔ a = 1#1 ∧ b = 1#1 := by
  revert a b; decide

end ProofLib.Finite

end
-- ==== Proof.KerFinite.lean ====
/-
  From the precondition to real entries: the precondition is the conjunction, over the seven float arguments, of
  "every entry's absolute value is below +∞"; at the ideal instance an extended real whose absolute value is below ⊤
  is a real. So under the precondition every entry of every float argument is the coercion of a real.
-/
import proofs.«130671_j88399016886916_2_alg».proof.Defs
import proofs.«130671_j88399016886916_2_alg».proof.Proof.LibFiniteEntry
import Idealize.ShloMosaic.Lib.ValueIdx
import Idealize.ShloMosaic.Lib.Affine
import Idealize.ShloMosaic.Lib.ReduceAll

noncomputable section

namespace Cert.Gcn.Fin

open Idealize.ShloMosaic Idealize.ShloMosaic.ValueIdx Idealize.SL.Sem
open Cert.Pre_finite_inputs

variable [Cert.Pre_finite_inputs.Facts]

instance : Subsingleton S_.Idx := ⟨fun a b => funext fun d => d.elim0⟩

/-- The precondition, read at the scalar index, as seven facts. -/
theorem pre_split (a0 : FVec Ideal S50000x1 .f32) (a1 : IVec S2x1250000 32) (a2 : FVec Ideal S1x64 .f32) (a3 : FVec Ideal S64 .f32)
    (a4 : FVec Ideal S64x64 .f32) (a5 : FVec Ideal S64 .f32) (a6 : FVec Ideal S64x4 .f32) (a7 : FVec Ideal S4 .f32)
    (h : Cert.Pre_finite_inputs.fn (F := Ideal) a0 a1 a2 a3 a4 a5 a6 a7 = fun _ => 1#1) :
    (∀ i, ∃ r : ℝ, (a0 i : EReal) = (r : EReal)) ∧ (∀ i, ∃ r : ℝ, (a2 i : EReal) = (r : EReal))
      ∧ (∀ i, ∃ r : ℝ, (a3 i : EReal) = (r : EReal)) ∧ (∀ i, ∃ r : ℝ, (a4 i : EReal) = (r : EReal))
      ∧ (∀ i, ∃ r : ℝ, (a5 i : EReal) = (r : EReal)) ∧ (∀ i, ∃ r : ℝ, (a6 i : EReal) = (r : EReal))
      ∧ (∀ i, ∃ r : ℝ, (a7 i : EReal) = (r : EReal)) := by
  have h0 := congrFun h ix0
  dsimp only [Cert.Pre_finite_inputs.fn, Cert.Pre_finite_inputs.fn_part1] at h0
  have split : ∀ a b : IVec S_ 1, andi a b ix0 = 1#1 → a ix0 = 1#1 ∧ b ix0 = 1#1 :=
    fun a b hab => IntOp.andi_eq_one.1 hab
  obtain ⟨h6, e7⟩ := split _ _ h0
  obtain ⟨h5, e6⟩ := split _ _ h6
  obtain ⟨h4, e5⟩ := split _ _ h5
  obtain ⟨h3, e4⟩ := split _ _ h4
  obtain ⟨h2, e3⟩ := split _ _ h3
  obtain ⟨e0, e2⟩ := split _ _ h2
  exact ⟨fun i => ProofLib.Finite.all_real_of_all_abs_lt_inf a0 _ (fun _ => rfl) _ _ _ ix0 e0 i,
    fun i => ProofLib.Finite.all_real_of_all_abs_lt_inf a2 _ (fun _ => rfl) _ _ _ ix0 e2 i,
    fun i => ProofLib.Finite.all_real_of_all_abs_lt_inf a3 _ (fun _ => rfl) _ _ _ ix0 e3 i,
    fun i => ProofLib.Finite.all_real_of_all_abs_lt_inf a4 _ (fun _ => rfl) _ _ _ ix0 e4 i,
    fun i => ProofLib.Finite.all_real_of_all_abs_lt_inf a5 _ (fun _ => rfl) _ _ _ ix0 e5 i,
    fun i => ProofLib.Finite.all_real_of_all_abs_lt_inf a6 _ (fun _ => rfl) _ _ _ ix0 e6 i,
    fun i => ProofLib.Finite.all_real_of_all_abs_lt_inf a7 _ (fun _ => rfl) _ _ _ ix0 e7 i⟩

end Cert.Gcn.Fin

end
-- ==== Proof.LibRefLayer.lean ====
/-
  One normalised graph layer with the edge weight as the left factor, read at an entry.

  For a table `h` of `N` rows and `C` columns, a vector `dv` of `N` node factors and three index columns of `M` words
  (`src`, `tgt` for the two gathers, `dst` for the scatter), the layer gathers the node factor at both endpoints of every
  edge, multiplies the two into the edge's weight, spreads the weight along the columns, multiplies it INTO the gathered
  row `h (src e, ·)` from the left, and scatter-adds the products into a table of zeros by `dst`. Entry `(n, c)` is
  `0 + ∑ e landing on n, (dv (src e) · dv (tgt e)) · h (src e, c)`. When the node factors and the table's entries are
  reals the entry is the real sum (`layer_real`): the zero word is the real zero and the inclusion of the reals commutes
  with products and finite sums.
-/
import proofs.«130671_j88399016886916_2_alg».proof.Proof.LibRowScatter
import proofs.«130671_j88399016886916_2_alg».proof.Proof.LibGather1
import proofs.«130671_j88399016886916_2_alg».proof.Proof.LibAggregate
import proofs.«130671_j88399016886916_2_alg».proof.Proof.LibSpread
import proofs.«130671_j88399016886916_2_alg».proof.Proof.LibRealOps

noncomputable section

open scoped BigOperators

namespace Cert.Lib.RefLayer

open Idealize.ShloMosaic Idealize.ShloMosaic.ValueIdx Cert.Lib.RowScatter Cert.Lib.Gather1

/-- The layer as the host spells it. -/
def layer {N M C : Nat}
    (wfS : ScatterDims.WF ⟨2, ![N, C]⟩ ⟨2, ![M, 1]⟩ ⟨2, ![M, C]⟩ [1] [0] [0] 1)
    (wfG : GatherDims.WF ⟨2, ![N, C]⟩ ⟨2, ![M, 1]⟩ ⟨2, ![M, C]⟩ [1] [0] [] [0] [] 1 ![1, C])
    (wfg : GatherDims.WF ⟨1, ![N]⟩ ⟨2, ![M, 1]⟩ ⟨1, ![M]⟩ [] [0] [] [0] [] 1 ![1])
    (hz : (⟨0, ![]⟩ : Shape).BroadcastsInDim ⟨2, ![N, C]⟩ (![] : Fin 0 → Fin 2))
    (h₁ : (⟨1, ![M]⟩ : Shape).BroadcastsInDim ⟨2, ![M, 1]⟩ (![0] : Fin 1 → Fin 2))
    (h₂ : (⟨2, ![M, 1]⟩ : Shape).BroadcastsInDim ⟨2, ![M, C]⟩ (![0, 1] : Fin 2 → Fin 2))
    (h : FVec Ideal ⟨2, ![N, C]⟩ .f32) (dv : FVec Ideal ⟨1, ![N]⟩ .f32) (src tgt dst : IVec ⟨2, ![M, 1]⟩ 32) :
    FVec Ideal ⟨2, ![N, C]⟩ .f32 :=
  Host.scatterAdd (F := Ideal) (rowScatterDims N M C wfS)
    (broadcastInDim ⟨2, ![N, C]⟩ ![] hz (constant (F := Ideal) ⟨0, ![]⟩ .f32 0x00000000#32)) dst
    (mulf
      (broadcastInDim ⟨2, ![M, C]⟩ ![0, 1] h₂ (broadcastInDim ⟨2, ![M, 1]⟩ ![0] h₁
        (mulf (Host.gather (gather1Dims N M wfg) dv src) (Host.gather (gather1Dims N M wfg) dv tgt))))
      (Host.gather (rowGatherDims N M C wfG) h src))

/-- THE LAYER READ AT `(n, c)`. -/
theorem layer_apply {N M C : Nat} (hN : 0 < N) (hM : M ≠ 1)
    (wfS : ScatterDims.WF ⟨2, ![N, C]⟩ ⟨2, ![M, 1]⟩ ⟨2, ![M, C]⟩ [1] [0] [0] 1)
    (wfG : GatherDims.WF ⟨2, ![N, C]⟩ ⟨2, ![M, 1]⟩ ⟨2, ![M, C]⟩ [1] [0] [] [0] [] 1 ![1, C])
    (wfg : GatherDims.WF ⟨1, ![N]⟩ ⟨2, ![M, 1]⟩ ⟨1, ![M]⟩ [] [0] [] [0] [] 1 ![1])
    (hz : (⟨0, ![]⟩ : Shape).BroadcastsInDim ⟨2, ![N, C]⟩ (![] : Fin 0 → Fin 2))
    (h₁ : (⟨1, ![M]⟩ : Shape).BroadcastsInDim ⟨2, ![M, 1]⟩ (![0] : Fin 1 → Fin 2))
    (h₂ : (⟨2, ![M, 1]⟩ : Shape).BroadcastsInDim ⟨2, ![M, C]⟩ (![0, 1] : Fin 2 → Fin 2))
    (h : FVec Ideal ⟨2, ![N, C]⟩ .f32) (dv : FVec Ideal ⟨1, ![N]⟩ .f32) (src tgt dst : IVec ⟨2, ![M, 1]⟩ 32)
    (n : Fin N) (c : Fin C) :
    layer wfS wfG wfg hz h₁ h₂ h dv src tgt dst (ix2 n c)
      = Ideal.ofBits .f32 0x00000000#32 + ∑ e ∈ landsOn dst N n,
          (dv (ix1 (gatherRow N hN src e)) * dv (ix1 (gatherRow N hN tgt e))) * h (ix2 (gatherRow N hN src e) c) := by
  unfold layer
  rw [scatterAdd_rows_apply, Cert.Lib.Spread.splat_apply]
  congr 1
  refine Finset.sum_congr rfl fun e _ => ?_
  rw [mulf_apply, Cert.Lib.Aggregate.spread_apply hM, mulf_apply, gather1_apply hN, gather1_apply hN,
    gather_rows_apply hN]

/-- THE LAYER OVER REALS: with real node factors `d` and a real table `hr`, entry `(n, c)` is the real sum. -/
theorem layer_real {N M C : Nat} (hN : 0 < N) (hM : M ≠ 1)
    (wfS : ScatterDims.WF ⟨2, ![N, C]⟩ ⟨2, ![M, 1]⟩ ⟨2, ![M, C]⟩ [1] [0] [0] 1)
    (wfG : GatherDims.WF ⟨2, ![N, C]⟩ ⟨2, ![M, 1]⟩ ⟨2, ![M, C]⟩ [1] [0] [] [0] [] 1 ![1, C])
    (wfg : GatherDims.WF ⟨1, ![N]⟩ ⟨2, ![M, 1]⟩ ⟨1, ![M]⟩ [] [0] [] [0] [] 1 ![1])
    (hz : (⟨0, ![]⟩ : Shape).BroadcastsInDim ⟨2, ![N, C]⟩ (![] : Fin 0 → Fin 2))
    (h₁ : (⟨1, ![M]⟩ : Shape).BroadcastsInDim ⟨2, ![M, 1]⟩ (![0] : Fin 1 → Fin 2))
    (h₂ : (⟨2, ![M, 1]⟩ : Shape).BroadcastsInDim ⟨2, ![M, C]⟩ (![0, 1] : Fin 2 → Fin 2))
    (h : FVec Ideal ⟨2, ![N, C]⟩ .f32) (dv : FVec Ideal ⟨1, ![N]⟩ .f32) (src tgt dst : IVec ⟨2, ![M, 1]⟩ 32)
    (d : Fin N → ℝ) (hr : Fin N → Fin C → ℝ)
    (hd : ∀ n, dv (ix1 n) = ((d n : ℝ) : EReal)) (hh : ∀ n c, h (ix2 n c) = ((hr n c : ℝ) : EReal))
    (n : Fin N) (c : Fin C) :
    layer wfS wfG wfg hz h₁ h₂ h dv src tgt dst (ix2 n c)
      = ((∑ e ∈ landsOn dst N n,
          (d (gatherRow N hN src e) * d (gatherRow N hN tgt e)) * hr (gatherRow N hN src e) c : ℝ) : EReal) := by
  rw [layer_apply hN hM, Ideal.ofBits_zero_f32, zero_add, ProofLib.RealOps.coe_sum]
  refine Finset.sum_congr rfl fun e _ => ?_
  rw [hd, hd, hh, ← EReal.coe_mul, ← EReal.coe_mul]

end Cert.Lib.RefLayer

end
-- ==== Proof.RefStages.lean ====
/-
  The reference program's graph stages are the shared graph's objects.

  Each stage of the reference that builds the endpoint vectors, the index columns, the degrees and the normalisation
  vector is, by unfolding, the object of the same name in the shared graph module; the two aggregation stages are the
  generic layer applied to the layer's table, the normalisation vector and the three index columns.
-/
import proofs.«130671_j88399016886916_2_alg».proof.Proof.RefReadP
import proofs.«130671_j88399016886916_2_alg».proof.Proof.GcnGraph
import proofs.«130671_j88399016886916_2_alg».proof.Proof.LibRefLayer

noncomputable section

namespace Cert.ReferenceIdeal.RefValue

open Cert.ReferenceIdeal Cert.ReferenceIdeal.Gen Idealize.ShloMosaic Idealize.ShloMosaic.ValueIdx Cert.Gcn.Graph

theorem wfS : ScatterDims.WF ⟨2, ![50000, 64]⟩ ⟨2, ![1300000, 1]⟩ ⟨2, ![1300000, 64]⟩ [1] [0] [0] 1 := by decide
theorem wfG : GatherDims.WF ⟨2, ![50000, 64]⟩ ⟨2, ![1300000, 1]⟩ ⟨2, ![1300000, 64]⟩ [1] [0] [] [0] [] 1 ![1, 64] := by
  decide
theorem bcast_table : (⟨0, ![]⟩ : Shape).BroadcastsInDim ⟨2, ![50000, 64]⟩ (![] : Fin 0 → Fin 2) := by decide
theorem bcast_spread : (⟨2, ![1300000, 1]⟩ : Shape).BroadcastsInDim ⟨2, ![1300000, 64]⟩ (![0, 1] : Fin 2 → Fin 2) := by
  decide

/-! ## The endpoint vectors and the index columns -/

theorem v3_eq (EI : IVec S2x1250000 32) : ReadP.val_main_v3 (F := Ideal) EI = rowVec EI := rfl
theorem v6_eq (EI : IVec S2x1250000 32) : ReadP.val_main_v6 (F := Ideal) EI = colVec EI := rfl

theorem v10_eq (EI : IVec S2x1250000 32) : ReadP.val_main_v10 (F := Ideal) EI = colS EI := rfl
theorem v42_eq (EI : IVec S2x1250000 32) : ReadP.val_main_v42 (F := Ideal) EI = colS EI := rfl
theorem v51_eq (EI : IVec S2x1250000 32) : ReadP.val_main_v51 (F := Ideal) EI = colS EI := rfl
theorem v83_eq (EI : IVec S2x1250000 32) : ReadP.val_main_v83 (F := Ideal) EI = colS EI := rfl

theorem v21_eq (EI : IVec S2x1250000 32) : ReadP.val_main_v21 (F := Ideal) EI = rowG EI := rfl
theorem v37_eq (EI : IVec S2x1250000 32) : ReadP.val_main_v37 (F := Ideal) EI = rowG EI := rfl
theorem v62_eq (EI : IVec S2x1250000 32) : ReadP.val_main_v62 (F := Ideal) EI = rowG EI := rfl
theorem v78_eq (EI : IVec S2x1250000 32) : ReadP.val_main_v78 (F := Ideal) EI = rowG EI := rfl
theorem v28_eq (EI : IVec S2x1250000 32) : ReadP.val_main_v28 (F := Ideal) EI = colG EI := rfl
theorem v69_eq (EI : IVec S2x1250000 32) : ReadP.val_main_v69 (F := Ideal) EI = colG EI := rfl

/-! ## The degrees and the normalisation vector -/

theorem v11_eq (EI : IVec S2x1250000 32) : ReadP.val_main_v11 (F := Ideal) EI = degVec EI := rfl
theorem v52_eq (EI : IVec S2x1250000 32) : ReadP.val_main_v52 (F := Ideal) EI = degVec EI := rfl
theorem v15_eq (EI : IVec S2x1250000 32) : ReadP.val_main_v15 (F := Ideal) EI = dinvVec EI := rfl
theorem v56_eq (EI : IVec S2x1250000 32) : ReadP.val_main_v56 (F := Ideal) EI = dinvVec EI := rfl

/-! ## The two aggregation stages are the generic layer -/

theorem v43_eq (X : FVec Ideal S50000x1 .f32) (EI : IVec S2x1250000 32) (A2 : FVec Ideal S1x64 .f32) :
    ReadP.val_main_v43 (F := Ideal) X EI A2
      = Cert.Lib.RefLayer.layer wfS wfG gather1_wf bcast_table bcast_col bcast_spread
          (ReadP.val_main_v7 (F := Ideal) X A2) (dinvVec EI) (rowG EI) (colG EI) (colS EI) := by
  unfold ReadP.val_main_v43 ReadP.val_main_v40 ReadP.val_main_v39 ReadP.val_main_v31 ReadP.val_main_v30
    ReadP.val_main_v22 ReadP.val_main_v29 ReadP.val_main_v38 ReadP.val_main_v41 ReadP.val_main_cst_8
  rw [v42_eq, v37_eq, v21_eq, v28_eq, v15_eq]
  rfl

theorem v84_eq (X : FVec Ideal S50000x1 .f32) (EI : IVec S2x1250000 32) (A2 : FVec Ideal S1x64 .f32)
    (A3 : FVec Ideal S64 .f32) (A4 : FVec Ideal S64x64 .f32) :
    ReadP.val_main_v84 (F := Ideal) X EI A2 A3 A4
      = Cert.Lib.RefLayer.layer wfS wfG gather1_wf bcast_table bcast_col bcast_spread
          (ReadP.val_main_v48 (F := Ideal) X EI A2 A3 A4) (dinvVec EI) (rowG EI) (colG EI) (colS EI) := by
  unfold ReadP.val_main_v84 ReadP.val_main_v81 ReadP.val_main_v80 ReadP.val_main_v72 ReadP.val_main_v71
    ReadP.val_main_v63 ReadP.val_main_v70 ReadP.val_main_v79 ReadP.val_main_v82 ReadP.val_main_cst_19
  rw [v83_eq, v78_eq, v62_eq, v69_eq, v56_eq]
  rfl

end Cert.ReferenceIdeal.RefValue

end
-- ==== Proof.RefLayers.lean ====
/-
  The reference's two layers, entry by entry, as the coercions of the specification's real values.

  With real inputs, every stage of the two graph layers holds reals: the first product is `x n · W1 k`, the aggregation
  is the real sum over the edges landing on the node (the generic layer over reals), adding the bias and taking the
  positive part stay in the reals, and the second product is a finite sum of products of reals.
-/
import proofs.«130671_j88399016886916_2_alg».proof.Proof.RefStages

noncomputable section

open scoped BigOperators

namespace Cert.ReferenceIdeal.RefValue

open Cert.ReferenceIdeal Cert.ReferenceIdeal.Gen Idealize.ShloMosaic Idealize.ShloMosaic.ValueIdx Cert.Gcn Cert.Gcn.Graph

variable (X : FVec Ideal S50000x1 .f32) (EI : IVec S2x1250000 32) (A2 : FVec Ideal S1x64 .f32)
  (A3 : FVec Ideal S64 .f32) (A4 : FVec Ideal S64x64 .f32) (A5 : FVec Ideal S64 .f32)
  (x : Fin 50000 → ℝ) (W1 b1 : Fin 64 → ℝ) (W2 : Fin 64 → Fin 64 → ℝ) (b2 : Fin 64 → ℝ)

/-- The first product: one contracted column, so entry `(n, k)` is `x n · W1 k`. -/
theorem v7_real (hx : ∀ n, X (ix2 n 0) = ((x n : ℝ) : EReal)) (hW1 : ∀ k, A2 (ix2 0 k) = ((W1 k : ℝ) : EReal))
    (n : Fin 50000) (k : Fin 64) :
    ReadP.val_main_v7 (F := Ideal) X A2 (ix2 n k) = ((x n * W1 k : ℝ) : EReal) := by
  rw [ReadP.val_main_v7_apply, Fin.sum_univ_one]
  have e1 : ReadP.lidx_main_v7 (ix2 n k) 0 = ix2 n (0 : Fin 1) :=
    funext fun a => Fin.ext (by match a with | ⟨0, _⟩ => rfl | ⟨1, _⟩ => rfl)
  have e2 : ReadP.ridx_main_v7 (ix2 n k) 0 = ix2 (0 : Fin 1) k :=
    funext fun a => Fin.ext (by match a with | ⟨0, _⟩ => rfl | ⟨1, _⟩ => rfl)
  rw [e1, e2, hx, hW1, EReal.coe_mul]

/-- The first aggregation. -/
theorem v43_real (hx : ∀ n, X (ix2 n 0) = ((x n : ℝ) : EReal)) (hW1 : ∀ k, A2 (ix2 0 k) = ((W1 k : ℝ) : EReal))
    (n : Fin 50000) (k : Fin 64) :
    ReadP.val_main_v43 (F := Ideal) X EI A2 (ix2 n k) = ((rB1 (edges EI) (dinvR EI) x W1 n k : ℝ) : EReal) := by
  rw [v43_eq, Cert.Lib.RefLayer.layer_real (by decide) (by decide) wfS wfG gather1_wf bcast_table bcast_col bcast_spread
    _ _ _ _ _ (dinvR EI) (fun n k => x n * W1 k) (dinv_real EI) (v7_real X A2 x W1 hx hW1)]
  rfl

/-- The first layer's output. -/
theorem v47_real (hx : ∀ n, X (ix2 n 0) = ((x n : ℝ) : EReal)) (hW1 : ∀ k, A2 (ix2 0 k) = ((W1 k : ℝ) : EReal))
    (hb1 : ∀ k, A3 (ix1 k) = ((b1 k : ℝ) : EReal)) (n : Fin 50000) (k : Fin 64) :
    ReadP.val_main_v47 (F := Ideal) X EI A2 A3 (ix2 n k) = ((rH1 (edges EI) (dinvR EI) x W1 b1 n k : ℝ) : EReal) := by
  rw [ReadP.val_main_v47_apply, ReadP.val_main_v46_apply, v43_real X EI A2 x W1 hx hW1, ReadP.val_main_v45_apply,
    ReadP.val_main_v44_apply, ReadP.val_main_call1_v0_apply, ReadP.val_main_call1_cst_apply]
  have e : ReadP.idx_main_v44 (ReadP.idx_main_v45 (ix2 n k)) = ix1 k :=
    funext fun a => Fin.ext (by match a with | ⟨0, _⟩ => rfl)
  rw [e, hb1, Ideal.maximumf_def, Ideal.addf_def, Ideal.ofBits_def, Ideal.ofBits_zero_f32, ← EReal.coe_add,
    ← EReal.coe_zero, ← ProofLib.RealOps.coe_max]
  rfl

/-- The second product. -/
theorem v48_real (hx : ∀ n, X (ix2 n 0) = ((x n : ℝ) : EReal)) (hW1 : ∀ k, A2 (ix2 0 k) = ((W1 k : ℝ) : EReal))
    (hb1 : ∀ k, A3 (ix1 k) = ((b1 k : ℝ) : EReal)) (hW2 : ∀ k c, A4 (ix2 k c) = ((W2 k c : ℝ) : EReal))
    (n : Fin 50000) (c : Fin 64) :
    ReadP.val_main_v48 (F := Ideal) X EI A2 A3 A4 (ix2 n c)
      = ((rP2 (edges EI) (dinvR EI) x W1 b1 W2 n c : ℝ) : EReal) := by
  rw [ReadP.val_main_v48_apply]
  refine (Finset.sum_congr rfl fun k _ => ?_).trans
    (ProofLib.RealOps.dot_coe Finset.univ (fun k => rH1 (edges EI) (dinvR EI) x W1 b1 n k) (fun k => W2 k c))
  have e1 : ReadP.lidx_main_v48 (ix2 n c) k = ix2 n k :=
    funext fun a => Fin.ext (by match a with | ⟨0, _⟩ => rfl | ⟨1, _⟩ => rfl)
  have e2 : ReadP.ridx_main_v48 (ix2 n c) k = ix2 k c :=
    funext fun a => Fin.ext (by match a with | ⟨0, _⟩ => rfl | ⟨1, _⟩ => rfl)
  rw [e1, e2, v47_real X EI A2 A3 x W1 b1 hx hW1 hb1, hW2]

/-- The second aggregation. -/
theorem v84_real (hx : ∀ n, X (ix2 n 0) = ((x n : ℝ) : EReal)) (hW1 : ∀ k, A2 (ix2 0 k) = ((W1 k : ℝ) : EReal))
    (hb1 : ∀ k, A3 (ix1 k) = ((b1 k : ℝ) : EReal)) (hW2 : ∀ k c, A4 (ix2 k c) = ((W2 k c : ℝ) : EReal))
    (n : Fin 50000) (c : Fin 64) :
    ReadP.val_main_v84 (F := Ideal) X EI A2 A3 A4 (ix2 n c)
      = ((rB2 (edges EI) (dinvR EI) x W1 b1 W2 n c : ℝ) : EReal) := by
  rw [v84_eq, Cert.Lib.RefLayer.layer_real (by decide) (by decide) wfS wfG gather1_wf bcast_table bcast_col bcast_spread
    _ _ _ _ _ (dinvR EI) (rP2 (edges EI) (dinvR EI) x W1 b1 W2) (dinv_real EI)
    (v48_real X EI A2 A3 A4 x W1 b1 W2 hx hW1 hb1 hW2)]
  rfl

/-- The second layer's output. -/
theorem v88_real (hx : ∀ n, X (ix2 n 0) = ((x n : ℝ) : EReal)) (hW1 : ∀ k, A2 (ix2 0 k) = ((W1 k : ℝ) : EReal))
    (hb1 : ∀ k, A3 (ix1 k) = ((b1 k : ℝ) : EReal)) (hW2 : ∀ k c, A4 (ix2 k c) = ((W2 k c : ℝ) : EReal))
    (hb2 : ∀ c, A5 (ix1 c) = ((b2 c : ℝ) : EReal)) (n : Fin 50000) (c : Fin 64) :
    ReadP.val_main_v88 (F := Ideal) X EI A2 A3 A4 A5 (ix2 n c)
      = ((rOut (edges EI) (dinvR EI) x W1 b1 W2 b2 n c : ℝ) : EReal) := by
  rw [ReadP.val_main_v88_apply, ReadP.val_main_v87_apply, v84_real X EI A2 A3 A4 x W1 b1 W2 hx hW1 hb1 hW2,
    ReadP.val_main_v86_apply, ReadP.val_main_v85_apply, ReadP.val_main_call3_v0_apply, ReadP.val_main_call3_cst_apply]
  have e : ReadP.idx_main_v85 (ReadP.idx_main_v86 (ix2 n c)) = ix1 c :=
    funext fun a => Fin.ext (by match a with | ⟨0, _⟩ => rfl)
  rw [e, hb2, Ideal.maximumf_def, Ideal.addf_def, Ideal.ofBits_def, Ideal.ofBits_zero_f32, ← EReal.coe_add,
    ← EReal.coe_zero, ← ProofLib.RealOps.coe_max]
  rfl

end Cert.ReferenceIdeal.RefValue

end
-- ==== Proof.LibRefHead.lean ====
/-
  The largest entry of a row, as the host's reduce computes it.

  A reduce with a maximum body over the one row of a `1 × Q` array, from a constant's value, is at its one result entry
  the fold of `max` from that value over the row's entries.
-/
import Idealize.ShloMosaic.Lib.ValueIdx
import Idealize.ShloMosaic.Lib.Pipeline.Value
import Idealize.ShloMosaic.PureOps.Ideal.Laws
import Idealize.ShloMosaic.PureOps.Reduce

noncomputable section

namespace Cert.Lib.RefHead

open Idealize.ShloMosaic Idealize.ShloMosaic.ValueIdx

/-- The one result entry with column `k` put back is `(0, k)`. -/
theorem lift_row {Q : Nat} (h : (⟨2, ![1, Q]⟩ : Shape).Reduces [1] (⟨1, ![1]⟩ : Shape))
    (k : Fin ((⟨2, ![1, Q]⟩ : Shape).size 1)) :
    h.lift (ix1 (0 : Fin 1)) k = ix2 (0 : Fin 1) (⟨k.val, k.isLt⟩ : Fin Q) := by
  funext c; apply Fin.ext
  fin_cases c <;> rfl

/-- THE ROW MAXIMUM: the host's reduce with a maximum body over the row, from the constant `w`. -/
theorem reduceMax_row {Q : Nat} (L : FVec Ideal ⟨2, ![1, Q]⟩ .f32) (w : BitVec 32)
    (h' : (⟨2, ![1, Q]⟩ : Shape).ReducesTo [1] (⟨1, ![1]⟩ : Shape))
    (h : (⟨2, ![1, Q]⟩ : Shape).Reduces [1] (⟨1, ![1]⟩ : Shape)) (hu : 0 < (⟨0, ![]⟩ : Shape).numel) :
    Host.reduce FloatOps.maximumf L (constant (F := Ideal) (⟨0, ![]⟩ : Shape) .f32 w) h' hu (ix1 (0 : Fin 1))
      = (Finset.univ : Finset (Fin Q)).fold max (Ideal.ofBits .f32 w) (fun q => L (ix2 (0 : Fin 1) q)) := by
  rw [Host.reduce_eq_fold_single FloatOps.maximumf L _ h' h hu]
  have hf : (L ∘ h.lift (ix1 (0 : Fin 1))) = fun k : Fin Q => L (ix2 (0 : Fin 1) k) :=
    funext fun k => congrArg L (lift_row h k)
  exact congrArg (fun f => Finset.fold max (Ideal.ofBits .f32 w) f (Finset.univ : Finset (Fin Q))) hf

end Cert.Lib.RefHead

end
-- ==== Proof.RefPool.lean ====
/-
  The reference's result at an entry is the specification's head applied to the pooled real vector.

  The column sums of the second layer's output are finite sums of reals; the word of 50000.0 is the real 50000, and the
  division by it is the product with its reciprocal, so the pooled vector is the coercion of the specification's pooled
  reals. The classifier and the logarithm of the shifted softmax are then, operation by operation, the specification's
  head on the extended reals: the row maximum is the fold of `max` from the word of −∞, taken once more against that word.
-/
import proofs.«130671_j88399016886916_2_alg».proof.Proof.RefLayers
import proofs.«130671_j88399016886916_2_alg».proof.Proof.LibRefHead

noncomputable section

open scoped BigOperators

namespace Cert.ReferenceIdeal.RefValue

open Cert.ReferenceIdeal Cert.ReferenceIdeal.Gen Idealize.ShloMosaic Idealize.ShloMosaic.ValueIdx Cert.Gcn Cert.Gcn.Graph

variable (X : FVec Ideal S50000x1 .f32) (EI : IVec S2x1250000 32) (A2 : FVec Ideal S1x64 .f32)
  (A3 : FVec Ideal S64 .f32) (A4 : FVec Ideal S64x64 .f32) (A5 : FVec Ideal S64 .f32) (A6 : FVec Ideal S64x4 .f32)
  (A7 : FVec Ideal S4 .f32)
  (x : Fin 50000 → ℝ) (W1 b1 : Fin 64 → ℝ) (W2 : Fin 64 → Fin 64 → ℝ) (b2 : Fin 64 → ℝ)

/-- The word of 50000.0 denotes the real 50000. -/
theorem ofBits_50000 : Ideal.ofBits .f32 0x47435000#32 = ((50000 : ℝ) : EReal) := by
  simp [Ideal.ofBits, Ideal.ieee, -EReal.coe_mul]; norm_num

/-- The column sums. -/
theorem v89_real (hx : ∀ n, X (ix2 n 0) = ((x n : ℝ) : EReal)) (hW1 : ∀ k, A2 (ix2 0 k) = ((W1 k : ℝ) : EReal))
    (hb1 : ∀ k, A3 (ix1 k) = ((b1 k : ℝ) : EReal)) (hW2 : ∀ k c, A4 (ix2 k c) = ((W2 k c : ℝ) : EReal))
    (hb2 : ∀ c, A5 (ix1 c) = ((b2 c : ℝ) : EReal)) (c : Fin 64) :
    ReadP.val_main_v89 (F := Ideal) X EI A2 A3 A4 A5 (ix1 c)
      = ((∑ n, rOut (edges EI) (dinvR EI) x W1 b1 W2 b2 n c : ℝ) : EReal) := by
  rw [ReadP.val_main_v89_apply, ReadP.val_main_cst_20_apply, Ideal.ofBits_def, Ideal.ofBits_zero_f32, zero_add,
    ProofLib.RealOps.coe_sum]
  refine Finset.sum_congr rfl fun n _ => ?_
  have e : ReadP.idx_main_v89 (ix1 c) n = ix2 n c :=
    funext fun a => Fin.ext (by match a with | ⟨0, _⟩ => rfl | ⟨1, _⟩ => rfl)
  rw [e, v88_real X EI A2 A3 A4 A5 x W1 b1 W2 b2 hx hW1 hb1 hW2 hb2]

/-- The pooled vector. -/
theorem v92_real (hx : ∀ n, X (ix2 n 0) = ((x n : ℝ) : EReal)) (hW1 : ∀ k, A2 (ix2 0 k) = ((W1 k : ℝ) : EReal))
    (hb1 : ∀ k, A3 (ix1 k) = ((b1 k : ℝ) : EReal)) (hW2 : ∀ k c, A4 (ix2 k c) = ((W2 k c : ℝ) : EReal))
    (hb2 : ∀ c, A5 (ix1 c) = ((b2 c : ℝ) : EReal)) (c : Fin 64) :
    ReadP.val_main_v92 (F := Ideal) X EI A2 A3 A4 A5 (ix2 (0 : Fin 1) c)
      = ((rPool (edges EI) (dinvR EI) x W1 b1 W2 b2 c : ℝ) : EReal) := by
  rw [ReadP.val_main_v92_apply, ReadP.val_main_v90_apply, ReadP.val_main_v91_apply, ReadP.val_main_cst_21_apply]
  have e : ReadP.idx_main_v90 (ix2 (0 : Fin 1) c) = ix1 c :=
    funext fun a => Fin.ext (by match a with | ⟨0, _⟩ => rfl)
  rw [e, v89_real X EI A2 A3 A4 A5 x W1 b1 W2 b2 hx hW1 hb1 hW2 hb2, Ideal.hostDivf_def, Ideal.ofBits_def,
    ofBits_50000, Ideal.div_coe (by norm_num : (50000 : ℝ) ≠ 0), ← EReal.coe_mul]
  unfold rPool
  rw [mul_one_div]

end Cert.ReferenceIdeal.RefValue

end
-- ==== Proof.RefValue.lean ====
/-
  The reference's result at an entry is the specification's head applied to the pooled real vector.

  The classifier's product with the pooled vector and its bias are the specification's logits; the row maximum is the
  fold of `max` from the word of −∞, taken once more against that word (the shift); subtracting it, exponentiating,
  summing from the zero word, taking the logarithm and subtracting again is the specification's head.
-/
import proofs.«130671_j88399016886916_2_alg».proof.Proof.RefPool

noncomputable section

open scoped BigOperators

namespace Cert.ReferenceIdeal.RefValue

open Cert.ReferenceIdeal Cert.ReferenceIdeal.Gen Idealize.ShloMosaic Idealize.ShloMosaic.ValueIdx Cert.Gcn Cert.Gcn.Graph

variable (X : FVec Ideal S50000x1 .f32) (EI : IVec S2x1250000 32) (A2 : FVec Ideal S1x64 .f32)
  (A3 : FVec Ideal S64 .f32) (A4 : FVec Ideal S64x64 .f32) (A5 : FVec Ideal S64 .f32) (A6 : FVec Ideal S64x4 .f32)
  (A7 : FVec Ideal S4 .f32)
  (x : Fin 50000 → ℝ) (W1 b1 : Fin 64 → ℝ) (W2 : Fin 64 → Fin 64 → ℝ) (b2 : Fin 64 → ℝ)

theorem reduces_row : (⟨2, ![1, 4]⟩ : Shape).Reduces [1] (⟨1, ![1]⟩ : Shape) := by decide

/-- The logits. -/
theorem v95_logits (hx : ∀ n, X (ix2 n 0) = ((x n : ℝ) : EReal)) (hW1 : ∀ k, A2 (ix2 0 k) = ((W1 k : ℝ) : EReal))
    (hb1 : ∀ k, A3 (ix1 k) = ((b1 k : ℝ) : EReal)) (hW2 : ∀ k c, A4 (ix2 k c) = ((W2 k c : ℝ) : EReal))
    (hb2 : ∀ c, A5 (ix1 c) = ((b2 c : ℝ) : EReal)) (j : Fin 4) :
    ReadP.val_main_v95 (F := Ideal) X EI A2 A3 A4 A5 A6 A7 (ix2 (0 : Fin 1) j)
      = logits (fun c => ((rPool (edges EI) (dinvR EI) x W1 b1 W2 b2 c : ℝ) : EReal)) (fun c q => A6 (ix2 c q))
          (fun q => A7 (ix1 q)) j := by
  rw [ReadP.val_main_v95_apply, ReadP.val_main_v93_apply, ReadP.val_main_v94_apply, Ideal.addf_def]
  have e : ReadP.idx_main_v94 (ix2 (0 : Fin 1) j) = ix1 j :=
    funext fun a => Fin.ext (by match a with | ⟨0, _⟩ => rfl)
  rw [e]
  unfold logits
  congr 1
  refine Finset.sum_congr rfl fun k _ => ?_
  have e1 : ReadP.lidx_main_v93 (ix2 (0 : Fin 1) j) k = ix2 (0 : Fin 1) k :=
    funext fun a => Fin.ext (by match a with | ⟨0, _⟩ => rfl | ⟨1, _⟩ => rfl)
  have e2 : ReadP.ridx_main_v93 (ix2 (0 : Fin 1) j) k = ix2 k j :=
    funext fun a => Fin.ext (by match a with | ⟨0, _⟩ => rfl | ⟨1, _⟩ => rfl)
  rw [e1, e2, v92_real X EI A2 A3 A4 A5 x W1 b1 W2 b2 hx hW1 hb1 hW2 hb2]

/-- THE REFERENCE'S RESULT: the head of the specification applied to the pooled reals. -/
theorem ref_value (hx : ∀ n, X (ix2 n 0) = ((x n : ℝ) : EReal)) (hW1 : ∀ k, A2 (ix2 0 k) = ((W1 k : ℝ) : EReal))
    (hb1 : ∀ k, A3 (ix1 k) = ((b1 k : ℝ) : EReal)) (hW2 : ∀ k c, A4 (ix2 k c) = ((W2 k c : ℝ) : EReal))
    (hb2 : ∀ c, A5 (ix1 c) = ((b2 c : ℝ) : EReal)) (j : Fin 4) :
    ReadP.val_main_v96 (F := Ideal) X EI A2 A3 A4 A5 A6 A7 (ix2 (0 : Fin 1) j)
      = tail (fun c => ((rPool (edges EI) (dinvR EI) x W1 b1 W2 b2 c : ℝ) : EReal)) (fun c q => A6 (ix2 c q))
          (fun q => A7 (ix1 q)) j := by
  unfold tail
  have hL := v95_logits X EI A2 A3 A4 A5 A6 A7 x W1 b1 W2 b2 hx hW1 hb1 hW2 hb2
  generalize logits (fun c => ((rPool (edges EI) (dinvR EI) x W1 b1 W2 b2 c : ℝ) : EReal)) (fun c q => A6 (ix2 c q))
    (fun q => A7 (ix1 q)) = L at hL ⊢
  -- the shift
  have hshift : ReadP.val_main_call4_v2 (F := Ideal) X EI A2 A3 A4 A5 A6 A7 (ix1 (0 : Fin 1)) = shift L := by
    rw [ReadP.val_main_call4_v2_apply, ReadP.val_main_call4_v1_apply, ReadP.val_main_call4_cst_0_apply,
      Ideal.maximumf_def, Ideal.ofBits_def]
    unfold shift
    congr 1
    unfold ReadP.val_main_call4_v0 ReadP.val_main_call4_cst
    refine (Cert.Lib.RefHead.reduceMax_row (Q := 4) _ 0xFF800000#32 _ reduces_row _).trans ?_
    exact congrArg (fun f => Finset.fold max (Ideal.ofBits .f32 0xFF800000#32) f (Finset.univ : Finset (Fin 4)))
      (funext hL)
  -- the shifted logits
  have hv5 : ∀ q : Fin 4, ReadP.val_main_call4_v5 (F := Ideal) X EI A2 A3 A4 A5 A6 A7 (ix2 (0 : Fin 1) q)
      = L q - shift L := by
    intro q
    rw [ReadP.val_main_call4_v5_apply, ReadP.val_main_call4_v4_apply, ReadP.val_main_call4_v3_apply, Ideal.subf_def, hL]
    have e : ReadP.idx_main_call4_v3 (ReadP.idx_main_call4_v4 (ix2 (0 : Fin 1) q)) = ix1 (0 : Fin 1) :=
      funext fun a => Fin.ext (by match a with | ⟨0, _⟩ => rfl)
    rw [e, hshift]
  rw [ReadP.val_main_v96_apply, Ideal.subf_def, hv5, ReadP.val_main_call4_v10_apply, ReadP.val_main_call4_v9_apply,
    ReadP.val_main_call4_v8_apply, ReadP.val_main_call4_v7_apply, ReadP.val_main_call4_cst_1_apply,
    Ideal.hostUnary_log_def, Ideal.ofBits_def, Ideal.ofBits_zero_f32, zero_add]
  congr 2
  refine Finset.sum_congr rfl fun q _ => ?_
  rw [ReadP.val_main_call4_v6_apply, Ideal.hostUnary_exp_def]
  have e : ReadP.idx_main_call4_v7 (ReadP.idx_main_call4_v8 (ReadP.idx_main_call4_v10 (ix2 (0 : Fin 1) j))) q
      = ix2 (0 : Fin 1) q :=
    funext fun a => Fin.ext (by match a with | ⟨0, _⟩ => rfl | ⟨1, _⟩ => rfl)
  rw [e, hv5]

end Cert.ReferenceIdeal.RefValue

end
-- ==== Proof.lean ====
/-
  The kernel — a two-layer graph convolution with symmetric normalisation: degrees and inverse root degrees by a host
  scatter-add, a scalar first-layer aggregate per node, a fused first layer and second linear map on the TensorCore in
  ten blocks of 5000 rows, a host gather and scatter-add of the resulting rows, then on the TensorCore the receiver's
  scale, bias and positive part, column sums accumulated over the ten blocks, the mean, a classifier and the logarithm
  of the softmax — against the plain reference, which normalises every edge's message by the product of its endpoints'
  inverse root degrees inside both aggregations and divides the column sums by 50000.

  Frames. Both printed kernel programs run as three host stretches, the first region, a host stretch, the second
  region; between two items every unscoped buffer is held at named contents, so every execution terminates with the
  argument arrays as launched. The reference is a straight line of host operations.

  Values, on the extended reals. Under the precondition every float argument's entries are reals, and the inverse root
  degrees are reals, so every intermediate up to the pooled vector is a real: the reference's result is the head of the
  pooled vector of the arrangement with the normalisation inside the sums, the kernel's the head of the pooled vector
  of the arrangement with it outside; on the edges landing on a node the receiver's factor is constant, a constant
  real factor moves across a finite sum of reals, and a product with 1/50000 is a quotient by 50000: the two pooled
  vectors are equal, and the head is one function of the pooled vector on both sides.

  The one rewrite of the idealization names the kernel's literal f32(1/50000) as the rational 1/50000.
-/
import proofs.«130671_j88399016886916_2_alg».proof.Defs
import proofs.«130671_j88399016886916_2_alg».proof.Proof.Gen.Kernel
import proofs.«130671_j88399016886916_2_alg».proof.Proof.Gen.KernelIdeal
import proofs.«130671_j88399016886916_2_alg».proof.Proof.Gen.ReferenceIdeal
import proofs.«130671_j88399016886916_2_alg».proof.Proof.Gen.Pre_finite_inputs
import proofs.«130671_j88399016886916_2_alg».proof.Proof.KRunAll
import proofs.«130671_j88399016886916_2_alg».proof.Proof.RunAll
import proofs.«130671_j88399016886916_2_alg».proof.Proof.KerGlue3
import proofs.«130671_j88399016886916_2_alg».proof.Proof.KerFinite
import proofs.«130671_j88399016886916_2_alg».proof.Proof.RefValue
import Idealize.ShloMosaic.PureOps.IdealRules

noncomputable section

namespace Cert.Proof

open Idealize.ShloMosaic Idealize.ShloMosaic.ValueIdx Idealize.SL.Sem

/-! ## The two programs' results are one function of the arguments -/

/-- From memories agreeing on the arguments, under the precondition, the reference's result term is the kernel
    program's result row. -/
theorem value_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal (hPre_finite_inputs := Cert.Pre_finite_inputs.Gen.facts) m)
    (c : Dev Cert.KernelIdeal.nD)
    (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.ValueP.res_main_v96 m' c = Cert.KernelIdeal.Run.result1 (Cert.KernelIdeal.Run.V5r m) c := by
  rw [Cert.ReferenceIdeal.ReadP.val_main_v96_eq, a0, a1, a2, a3, a4, a5, a6, a7]
  obtain ⟨r0, r2, r3, r4, r5, -, -⟩ := Cert.Gcn.Fin.pre_split _ _ _ _ _ _ _ _ (hpre c)
  choose x hx using r0
  choose w1 hw1 using r2
  choose v1 hv1 using r3
  choose w2 hw2 using r4
  choose v2 hv2 using r5
  have hR : Cert.KernelIdeal.Run.RealArgs m c (fun n => x (ix2 n (0 : Fin 1))) (fun k => w1 (ix2 (0 : Fin 1) k))
      (fun k => v1 (ix1 k)) (fun k q => w2 (ix2 k q)) (fun k => v2 (ix1 k)) :=
    ⟨fun n => hx _, fun k => hw1 _, fun k => hv1 _, fun k q => hw2 _, fun k => hv2 _⟩
  funext i
  obtain ⟨p, j, rfl⟩ : ∃ (p : Fin 1) (j : Fin 4), i = ix2 p j := ⟨i 0, i 1, eq_ix2 i⟩
  obtain rfl : p = 0 := Subsingleton.elim _ _
  refine (Cert.ReferenceIdeal.RefValue.ref_value _ _ _ _ _ _ _ _ _ _ _ _ _
    (fun n => hx _) (fun k => hw1 _) (fun k => hv1 _) (fun k q => hw2 _) (fun k => hv2 _) j).trans ?_
  refine Eq.trans ?_ (Cert.KernelIdeal.Run.kernel_value m c hR j).symm
  exact congrArg (fun p => Cert.Gcn.tail p _ _ j) (funext fun cc => congrArg _ (Cert.Gcn.pool_eq _ _ _ _ _ _ _ cc).symm)

/-! ## The claims -/

theorem frame_k : Cert.frame_Kernel (hKernel := Cert.Kernel.Gen.facts) (hPre_finite_inputs := Cert.Pre_finite_inputs.Gen.facts) :=
  fun m ρ _ => Cert.Kernel.Run.frame m ρ

theorem frame_ki : Cert.frame_KernelIdeal (hKernelIdeal := Cert.KernelIdeal.Gen.facts) (hPre_finite_inputs := Cert.Pre_finite_inputs.Gen.facts) :=
  fun m ρ _ => Cert.KernelIdeal.Run.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- The ledger's one entry: the certificate's table gives the name the value 1/50000. -/
theorem preserves : Cert.preserves_Kernel_KernelIdeal :=
  IdealRules.named_const.statement Cert.KernelIdeal.κ "inv_50000" .f32 0x37A7C5AC#32 ((1 / 50000 : ℝ) : EReal) rfl

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Run.result1 (Cert.KernelIdeal.Run.V5r m) c, ?_, ?_⟩
  · exact (θ_run Cert.KernelIdeal.defs _ _).mono
      (fun _ h c => ⟨(h c).1.trans (Cert.KernelIdeal.Run.final1 (Cert.KernelIdeal.Run.V5r m) c), (h c).2⟩)
      (Cert.KernelIdeal.Run.run_named m ρ)
  · refine (θ_run Cert.ReferenceIdeal.defs _ _).mono (fun _ h c => ⟨(h c).1.trans ?_, (h c).2⟩)
      (Cert.ReferenceIdeal.ValueP.run (F := Ideal) m' ρ')
    obtain ⟨a0, a1, a2, a3, a4, a5, a6, a7⟩ := hagree c
    exact value_eq m m' hpre c a0 a1 a2 a3 a4 a5 a6 a7

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
